-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1000000x64 : Shape := ⟨2, ![1000000, 64]⟩
abbrev S16384 : Shape := ⟨1, ![16384]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S1000000x64 .f32) (main_arg1 : IVec S16384 32) : IVec S_ 1 :=
  let main_v0 : FVec F S1000000x64 .f32 := Host.absf main_arg0
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_c_0 : IVec S_ 32 := constantI S_ 32 0#32
  let main_v4 : IVec S16384 32 := broadcastInDim S16384 ![] bcast_S_S16384 main_c_0
  let main_v5 : IVec S16384 1 := cmpi .sge main_arg1 main_v4
  let main_c_1 : IVec S_ 32 := constantI S_ 32 999999#32
  let main_v6 : IVec S16384 32 := broadcastInDim S16384 ![] bcast_S_S16384 main_c_1
  let main_v7 : IVec S16384 1 := cmpi .sle main_arg1 main_v6
  let main_v8 : IVec S16384 1 := andi main_v5 main_v7
  let main_c_2 : IVec S_ 1 := constantI S_ 1 1#1
  let main_v9 : IVec S_ 1 := (fun x v => Host.reduce IntOp.andi x v reducesTo_S16384_S_d0 h_S_) main_v8 main_c_2
  let main_v10 : IVec S_ 1 := andi main_v3 main_v9
  main_v10
-- ==== Kernel.lean ====
abbrev S1000000x64 : Shape := ⟨2, ![1000000, 64]⟩
abbrev S16384 : Shape := ⟨1, ![16384]⟩
abbrev S8192x128 : Shape := ⟨2, ![8192, 128]⟩
abbrev S512 : Shape := ⟨1, ![512]⟩
abbrev S512x64 : Shape := ⟨2, ![512, 64]⟩
abbrev S256x128 : Shape := ⟨2, ![256, 128]⟩
abbrev S_ : Shape := ⟨0, ![]⟩
abbrev S16 : Shape := ⟨1, ![16]⟩
abbrev S1 : Shape := ⟨1, ![1]⟩
abbrev S1x64 : Shape := ⟨2, ![1, 64]⟩
abbrev S1x16 : Shape := ⟨2, ![1, 16]⟩
abbrev S16384x64 : Shape := ⟨2, ![16384, 64]⟩

abbrev nBuf : Table → Nat
  | .hbm => 4
  | .local .scVector .vmem => 3
  | _ => 0

abbrev bufTy : (tb : Table) → Fin (nBuf tb) → BufTy
  | .hbm, ⟨0, _⟩ => ⟨S1000000x64, .f32⟩
  | .hbm, ⟨1, _⟩ => ⟨S16384, .i32⟩
  | .hbm, ⟨2, _⟩ => ⟨S8192x128, .f32⟩
  | .hbm, ⟨3, _⟩ => ⟨S16384x64, .f32⟩
  | .local .scVector .vmem, ⟨0, _⟩ => ⟨S512, .i32⟩
  | .local .scVector .vmem, ⟨1, _⟩ => ⟨S512x64, .f32⟩
  | .local .scVector .vmem, ⟨2, _⟩ => ⟨S256x128, .f32⟩
  | _, _ => ⟨S1000000x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k0_t1_loop : Scf.Loop 32 :=
  let c0_i32_0 : BitVec 32 := 0#32
  let c32_i32 : BitVec 32 := 32#32
  let v3 : BitVec 32 := Scalar.addi c0_i32_0 c32_i32
  let c1_i32 : BitVec 32 := 1#32
  ⟨c0_i32_0, v3, c1_i32⟩
def k0_off2 (k0_t1 : Fin k0_t1_loop.trips) : Fin 1 → Nat :=
  let c0_i32_0 : BitVec 32 := 0#32
  let c1_i32 : BitVec 32 := 1#32
  let arg9 : BitVec 32 := Scf.iv c0_i32_0 c1_i32 k0_t1
  let c16_i32 : BitVec 32 := 16#32
  let v7 : BitVec 32 := Scalar.muli arg9 c16_i32
  let v8 : Index := Scalar.indexCast v7
  ![v8.toNat]
def k0_off3 (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let c16_i32_12 : BitVec 32 := 16#32
  let v13 : BitVec 32 := Scalar.muli arg9 c16_i32_12
  let c0_i32_13 : BitVec 32 := 0#32
  let v14 : BitVec 32 := Scalar.addi v13 c0_i32_13
  let c0_i32_14 : BitVec 32 := 0#32
  ![v14.toNat, 0]
def k0_off4 (v12 : BitVec 32) : Fin 2 → Nat :=
  let c0_i32_15 : BitVec 32 := 0#32
  ![v12.toNat, 0]

def k0_chk1 (v12 : BitVec 32) : Prop :=
  (∀ a, (k0_off4 v12) a + S1x64.size a ≤ S1000000x64.size a)
instance k0_chk1.dec : ∀ (v12 : BitVec 32), Decidable (k0_chk1 v12) := fun v12 => decidable_of_iff' _ (Iff.of_eq (k0_chk1.eq_1 v12))
theorem k0_off4_inb : ∀ (v12 : BitVec 32) (k0_hw1 : k0_chk1 v12), ∀ a, (k0_off4 v12) a + S1x64.size a ≤ S1000000x64.size a := fun v12 k0_hw1 => k0_hw1

def k0_off5 (k0_t1 : Fin k0_t1_loop.trips) (c0_i32_13 : BitVec 32) : Fin 2 → Nat :=
  let c0_i32_0 : BitVec 32 := 0#32
  let c1_i32 : BitVec 32 := 1#32
  let arg9 : BitVec 32 := Scf.iv c0_i32_0 c1_i32 k0_t1
  let c16_i32_12 : BitVec 32 := 16#32
  let v13 : BitVec 32 := Scalar.muli arg9 c16_i32_12
  let v14 : BitVec 32 := Scalar.addi v13 c0_i32_13
  let c0_i32_16 : BitVec 32 := 0#32
  ![v14.toNat, 0]
def k0_off6 (v20 : BitVec 32) : Fin 2 → Nat :=
  let c0_i32_21 : BitVec 32 := 0#32
  ![v20.toNat, 0]

def k0_chk2 (v20 : BitVec 32) : Prop :=
  (∀ a, (k0_off6 v20) a + S1x64.size a ≤ S1000000x64.size a)
instance k0_chk2.dec : ∀ (v20 : BitVec 32), Decidable (k0_chk2 v20) := fun v20 => decidable_of_iff' _ (Iff.of_eq (k0_chk2.eq_1 v20))
theorem k0_off6_inb : ∀ (v20 : BitVec 32) (k0_hw2 : k0_chk2 v20), ∀ a, (k0_off6 v20) a + S1x64.size a ≤ S1000000x64.size a := fun v20 k0_hw2 => k0_hw2

def k0_off7 (k0_t1 : Fin k0_t1_loop.trips) (c1_i32_19 : BitVec 32) : Fin 2 → Nat :=
  let c0_i32_0 : BitVec 32 := 0#32
  let c1_i32 : BitVec 32 := 1#32
  let arg9 : BitVec 32 := Scf.iv c0_i32_0 c1_i32 k0_t1
  let c16_i32_18 : BitVec 32 := 16#32
  let v21 : BitVec 32 := Scalar.muli arg9 c16_i32_18
  let v22 : BitVec 32 := Scalar.addi v21 c1_i32_19
  let c0_i32_22 : BitVec 32 := 0#32
  ![v22.toNat, 0]
def k0_off8 (v28 : BitVec 32) : Fin 2 → Nat :=
  let c0_i32_27 : BitVec 32 := 0#32
  ![v28.toNat, 0]

def k0_chk3 (v28 : BitVec 32) : Prop :=
  (∀ a, (k0_off8 v28) a + S1x64.size a ≤ S1000000x64.size a)
instance k0_chk3.dec : ∀ (v28 : BitVec 32), Decidable (k0_chk3 v28) := fun v28 => decidable_of_iff' _ (Iff.of_eq (k0_chk3.eq_1 v28))
theorem k0_off8_inb : ∀ (v28 : BitVec 32) (k0_hw3 : k0_chk3 v28), ∀ a, (k0_off8 v28) a + S1x64.size a ≤ S1000000x64.size a := fun v28 k0_hw3 => k0_hw3

def k0_off9 (k0_t1 : Fin k0_t1_loop.trips) (c2_i32_25 : BitVec 32) : Fin 2 → Nat :=
  let c0_i32_0 : BitVec 32 := 0#32
  let c1_i32 : BitVec 32 := 1#32
  let arg9 : BitVec 32 := Scf.iv c0_i32_0 c1_i32 k0_t1
  let c16_i32_24 : BitVec 32 := 16#32
  let v29 : BitVec 32 := Scalar.muli arg9 c16_i32_24
  let v30 : BitVec 32 := Scalar.addi v29 c2_i32_25
  let c0_i32_28 : BitVec 32 := 0#32
  ![v30.toNat, 0]
def k0_off10 (v36 : BitVec 32) : Fin 2 → Nat :=
  let c0_i32_32 : BitVec 32 := 0#32
  ![v36.toNat, 0]

def k0_chk4 (v36 : BitVec 32) : Prop :=
  (∀ a, (k0_off10 v36) a + S1x64.size a ≤ S1000000x64.size a)
instance k0_chk4.dec : ∀ (v36 : BitVec 32), Decidable (k0_chk4 v36) := fun v36 => decidable_of_iff' _ (Iff.of_eq (k0_chk4.eq_1 v36))
theorem k0_off10_inb : ∀ (v36 : BitVec 32) (k0_hw4 : k0_chk4 v36), ∀ a, (k0_off10 v36) a + S1x64.size a ≤ S1000000x64.size a := fun v36 k0_hw4 => k0_hw4

def k0_off11 (k0_t1 : Fin k0_t1_loop.trips) (c3_i32 : BitVec 32) : Fin 2 → Nat :=
  let c0_i32_0 : BitVec 32 := 0#32
  let c1_i32 : BitVec 32 := 1#32
  let arg9 : BitVec 32 := Scf.iv c0_i32_0 c1_i32 k0_t1
  let c16_i32_30 : BitVec 32 := 16#32
  let v37 : BitVec 32 := Scalar.muli arg9 c16_i32_30
  let v38 : BitVec 32 := Scalar.addi v37 c3_i32
  let c0_i32_33 : BitVec 32 := 0#32
  ![v38.toNat, 0]
def k0_off12 (v44 : BitVec 32) : Fin 2 → Nat :=
  let c0_i32_37 : BitVec 32 := 0#32
  ![v44.toNat, 0]

def k0_chk5 (v44 : BitVec 32) : Prop :=
  (∀ a, (k0_off12 v44) a + S1x64.size a ≤ S1000000x64.size a)
instance k0_chk5.dec : ∀ (v44 : BitVec 32), Decidable (k0_chk5 v44) := fun v44 => decidable_of_iff' _ (Iff.of_eq (k0_chk5.eq_1 v44))
theorem k0_off12_inb : ∀ (v44 : BitVec 32) (k0_hw5 : k0_chk5 v44), ∀ a, (k0_off12 v44) a + S1x64.size a ≤ S1000000x64.size a := fun v44 k0_hw5 => k0_hw5

def k0_off13 (k0_t1 : Fin k0_t1_loop.trips) (c4_i32 : BitVec 32) : Fin 2 → Nat :=
  let c0_i32_0 : BitVec 32 := 0#32
  let c1_i32 : BitVec 32 := 1#32
  let arg9 : BitVec 32 := Scf.iv c0_i32_0 c1_i32 k0_t1
  let c16_i32_35 : BitVec 32 := 16#32
  let v45 : BitVec 32 := Scalar.muli arg9 c16_i32_35
  let v46 : BitVec 32 := Scalar.addi v45 c4_i32
  let c0_i32_38 : BitVec 32 := 0#32
  ![v46.toNat, 0]
def k0_off14 (v52 : BitVec 32) : Fin 2 → Nat :=
  let c0_i32_42 : BitVec 32 := 0#32
  ![v52.toNat, 0]

def k0_chk6 (v52 : BitVec 32) : Prop :=
  (∀ a, (k0_off14 v52) a + S1x64.size a ≤ S1000000x64.size a)
instance k0_chk6.dec : ∀ (v52 : BitVec 32), Decidable (k0_chk6 v52) := fun v52 => decidable_of_iff' _ (Iff.of_eq (k0_chk6.eq_1 v52))
theorem k0_off14_inb : ∀ (v52 : BitVec 32) (k0_hw6 : k0_chk6 v52), ∀ a, (k0_off14 v52) a + S1x64.size a ≤ S1000000x64.size a := fun v52 k0_hw6 => k0_hw6

def k0_off15 (k0_t1 : Fin k0_t1_loop.trips) (c5_i32 : BitVec 32) : Fin 2 → Nat :=
  let c0_i32_0 : BitVec 32 := 0#32
  let c1_i32 : BitVec 32 := 1#32
  let arg9 : BitVec 32 := Scf.iv c0_i32_0 c1_i32 k0_t1
  let c16_i32_40 : BitVec 32 := 16#32
  let v53 : BitVec 32 := Scalar.muli arg9 c16_i32_40
  let v54 : BitVec 32 := Scalar.addi v53 c5_i32
  let c0_i32_43 : BitVec 32 := 0#32
  ![v54.toNat, 0]
def k0_off16 (v60 : BitVec 32) : Fin 2 → Nat :=
  let c0_i32_47 : BitVec 32 := 0#32
  ![v60.toNat, 0]

def k0_chk7 (v60 : BitVec 32) : Prop :=
  (∀ a, (k0_off16 v60) a + S1x64.size a ≤ S1000000x64.size a)
instance k0_chk7.dec : ∀ (v60 : BitVec 32), Decidable (k0_chk7 v60) := fun v60 => decidable_of_iff' _ (Iff.of_eq (k0_chk7.eq_1 v60))
theorem k0_off16_inb : ∀ (v60 : BitVec 32) (k0_hw7 : k0_chk7 v60), ∀ a, (k0_off16 v60) a + S1x64.size a ≤ S1000000x64.size a := fun v60 k0_hw7 => k0_hw7

def k0_off17 (k0_t1 : Fin k0_t1_loop.trips) (c6_i32 : BitVec 32) : Fin 2 → Nat :=
  let c0_i32_0 : BitVec 32 := 0#32
  let c1_i32 : BitVec 32 := 1#32
  let arg9 : BitVec 32 := Scf.iv c0_i32_0 c1_i32 k0_t1
  let c16_i32_45 : BitVec 32 := 16#32
  let v61 : BitVec 32 := Scalar.muli arg9 c16_i32_45
  let v62 : BitVec 32 := Scalar.addi v61 c6_i32
  let c0_i32_48 : BitVec 32 := 0#32
  ![v62.toNat, 0]
def k0_off18 (v68 : BitVec 32) : Fin 2 → Nat :=
  let c0_i32_52 : BitVec 32 := 0#32
  ![v68.toNat, 0]

def k0_chk8 (v68 : BitVec 32) : Prop :=
  (∀ a, (k0_off18 v68) a + S1x64.size a ≤ S1000000x64.size a)
instance k0_chk8.dec : ∀ (v68 : BitVec 32), Decidable (k0_chk8 v68) := fun v68 => decidable_of_iff' _ (Iff.of_eq (k0_chk8.eq_1 v68))
theorem k0_off18_inb : ∀ (v68 : BitVec 32) (k0_hw8 : k0_chk8 v68), ∀ a, (k0_off18 v68) a + S1x64.size a ≤ S1000000x64.size a := fun v68 k0_hw8 => k0_hw8

def k0_off19 (k0_t1 : Fin k0_t1_loop.trips) (c7_i32 : BitVec 32) : Fin 2 → Nat :=
  let c0_i32_0 : BitVec 32 := 0#32
  let c1_i32 : BitVec 32 := 1#32
  let arg9 : BitVec 32 := Scf.iv c0_i32_0 c1_i32 k0_t1
  let c16_i32_50 : BitVec 32 := 16#32
  let v69 : BitVec 32 := Scalar.muli arg9 c16_i32_50
  let v70 : BitVec 32 := Scalar.addi v69 c7_i32
  let c0_i32_53 : BitVec 32 := 0#32
  ![v70.toNat, 0]
def k0_off20 (v76 : BitVec 32) : Fin 2 → Nat :=
  let c0_i32_57 : BitVec 32 := 0#32
  ![v76.toNat, 0]

def k0_chk9 (v76 : BitVec 32) : Prop :=
  (∀ a, (k0_off20 v76) a + S1x64.size a ≤ S1000000x64.size a)
instance k0_chk9.dec : ∀ (v76 : BitVec 32), Decidable (k0_chk9 v76) := fun v76 => decidable_of_iff' _ (Iff.of_eq (k0_chk9.eq_1 v76))
theorem k0_off20_inb : ∀ (v76 : BitVec 32) (k0_hw9 : k0_chk9 v76), ∀ a, (k0_off20 v76) a + S1x64.size a ≤ S1000000x64.size a := fun v76 k0_hw9 => k0_hw9

def k0_off21 (k0_t1 : Fin k0_t1_loop.trips) (c8_i32 : BitVec 32) : Fin 2 → Nat :=
  let c0_i32_0 : BitVec 32 := 0#32
  let c1_i32 : BitVec 32 := 1#32
  let arg9 : BitVec 32 := Scf.iv c0_i32_0 c1_i32 k0_t1
  let c16_i32_55 : BitVec 32 := 16#32
  let v77 : BitVec 32 := Scalar.muli arg9 c16_i32_55
  let v78 : BitVec 32 := Scalar.addi v77 c8_i32
  let c0_i32_58 : BitVec 32 := 0#32
  ![v78.toNat, 0]
def k0_off22 (v84 : BitVec 32) : Fin 2 → Nat :=
  let c0_i32_62 : BitVec 32 := 0#32
  ![v84.toNat, 0]

def k0_chk10 (v84 : BitVec 32) : Prop :=
  (∀ a, (k0_off22 v84) a + S1x64.size a ≤ S1000000x64.size a)
instance k0_chk10.dec : ∀ (v84 : BitVec 32), Decidable (k0_chk10 v84) := fun v84 => decidable_of_iff' _ (Iff.of_eq (k0_chk10.eq_1 v84))
theorem k0_off22_inb : ∀ (v84 : BitVec 32) (k0_hw10 : k0_chk10 v84), ∀ a, (k0_off22 v84) a + S1x64.size a ≤ S1000000x64.size a := fun v84 k0_hw10 => k0_hw10

def k0_off23 (k0_t1 : Fin k0_t1_loop.trips) (c9_i32 : BitVec 32) : Fin 2 → Nat :=
  let c0_i32_0 : BitVec 32 := 0#32
  let c1_i32 : BitVec 32 := 1#32
  let arg9 : BitVec 32 := Scf.iv c0_i32_0 c1_i32 k0_t1
  let c16_i32_60 : BitVec 32 := 16#32
  let v85 : BitVec 32 := Scalar.muli arg9 c16_i32_60
  let v86 : BitVec 32 := Scalar.addi v85 c9_i32
  let c0_i32_63 : BitVec 32 := 0#32
  ![v86.toNat, 0]
def k0_off24 (v92 : BitVec 32) : Fin 2 → Nat :=
  let c0_i32_67 : BitVec 32 := 0#32
  ![v92.toNat, 0]

def k0_chk11 (v92 : BitVec 32) : Prop :=
  (∀ a, (k0_off24 v92) a + S1x64.size a ≤ S1000000x64.size a)
instance k0_chk11.dec : ∀ (v92 : BitVec 32), Decidable (k0_chk11 v92) := fun v92 => decidable_of_iff' _ (Iff.of_eq (k0_chk11.eq_1 v92))
theorem k0_off24_inb : ∀ (v92 : BitVec 32) (k0_hw11 : k0_chk11 v92), ∀ a, (k0_off24 v92) a + S1x64.size a ≤ S1000000x64.size a := fun v92 k0_hw11 => k0_hw11

def k0_off25 (k0_t1 : Fin k0_t1_loop.trips) (c10_i32 : BitVec 32) : Fin 2 → Nat :=
  let c0_i32_0 : BitVec 32 := 0#32
  let c1_i32 : BitVec 32 := 1#32
  let arg9 : BitVec 32 := Scf.iv c0_i32_0 c1_i32 k0_t1
  let c16_i32_65 : BitVec 32 := 16#32
  let v93 : BitVec 32 := Scalar.muli arg9 c16_i32_65
  let v94 : BitVec 32 := Scalar.addi v93 c10_i32
  let c0_i32_68 : BitVec 32 := 0#32
  ![v94.toNat, 0]
def k0_off26 (v100 : BitVec 32) : Fin 2 → Nat :=
  let c0_i32_72 : BitVec 32 := 0#32
  ![v100.toNat, 0]

def k0_chk12 (v100 : BitVec 32) : Prop :=
  (∀ a, (k0_off26 v100) a + S1x64.size a ≤ S1000000x64.size a)
instance k0_chk12.dec : ∀ (v100 : BitVec 32), Decidable (k0_chk12 v100) := fun v100 => decidable_of_iff' _ (Iff.of_eq (k0_chk12.eq_1 v100))
theorem k0_off26_inb : ∀ (v100 : BitVec 32) (k0_hw12 : k0_chk12 v100), ∀ a, (k0_off26 v100) a + S1x64.size a ≤ S1000000x64.size a := fun v100 k0_hw12 => k0_hw12

def k0_off27 (k0_t1 : Fin k0_t1_loop.trips) (c11_i32 : BitVec 32) : Fin 2 → Nat :=
  let c0_i32_0 : BitVec 32 := 0#32
  let c1_i32 : BitVec 32 := 1#32
  let arg9 : BitVec 32 := Scf.iv c0_i32_0 c1_i32 k0_t1
  let c16_i32_70 : BitVec 32 := 16#32
  let v101 : BitVec 32 := Scalar.muli arg9 c16_i32_70
  let v102 : BitVec 32 := Scalar.addi v101 c11_i32
  let c0_i32_73 : BitVec 32 := 0#32
  ![v102.toNat, 0]
def k0_off28 (v108 : BitVec 32) : Fin 2 → Nat :=
  let c0_i32_77 : BitVec 32 := 0#32
  ![v108.toNat, 0]

def k0_chk13 (v108 : BitVec 32) : Prop :=
  (∀ a, (k0_off28 v108) a + S1x64.size a ≤ S1000000x64.size a)
instance k0_chk13.dec : ∀ (v108 : BitVec 32), Decidable (k0_chk13 v108) := fun v108 => decidable_of_iff' _ (Iff.of_eq (k0_chk13.eq_1 v108))
theorem k0_off28_inb : ∀ (v108 : BitVec 32) (k0_hw13 : k0_chk13 v108), ∀ a, (k0_off28 v108) a + S1x64.size a ≤ S1000000x64.size a := fun v108 k0_hw13 => k0_hw13

def k0_off29 (k0_t1 : Fin k0_t1_loop.trips) (c12_i32 : BitVec 32) : Fin 2 → Nat :=
  let c0_i32_0 : BitVec 32 := 0#32
  let c1_i32 : BitVec 32 := 1#32
  let arg9 : BitVec 32 := Scf.iv c0_i32_0 c1_i32 k0_t1
  let c16_i32_75 : BitVec 32 := 16#32
  let v109 : BitVec 32 := Scalar.muli arg9 c16_i32_75
  let v110 : BitVec 32 := Scalar.addi v109 c12_i32
  let c0_i32_78 : BitVec 32 := 0#32
  ![v110.toNat, 0]
def k0_off30 (v116 : BitVec 32) : Fin 2 → Nat :=
  let c0_i32_82 : BitVec 32 := 0#32
  ![v116.toNat, 0]

def k0_chk14 (v116 : BitVec 32) : Prop :=
  (∀ a, (k0_off30 v116) a + S1x64.size a ≤ S1000000x64.size a)
instance k0_chk14.dec : ∀ (v116 : BitVec 32), Decidable (k0_chk14 v116) := fun v116 => decidable_of_iff' _ (Iff.of_eq (k0_chk14.eq_1 v116))
theorem k0_off30_inb : ∀ (v116 : BitVec 32) (k0_hw14 : k0_chk14 v116), ∀ a, (k0_off30 v116) a + S1x64.size a ≤ S1000000x64.size a := fun v116 k0_hw14 => k0_hw14

def k0_off31 (k0_t1 : Fin k0_t1_loop.trips) (c13_i32 : BitVec 32) : Fin 2 → Nat :=
  let c0_i32_0 : BitVec 32 := 0#32
  let c1_i32 : BitVec 32 := 1#32
  let arg9 : BitVec 32 := Scf.iv c0_i32_0 c1_i32 k0_t1
  let c16_i32_80 : BitVec 32 := 16#32
  let v117 : BitVec 32 := Scalar.muli arg9 c16_i32_80
  let v118 : BitVec 32 := Scalar.addi v117 c13_i32
  let c0_i32_83 : BitVec 32 := 0#32
  ![v118.toNat, 0]
def k0_off32 (v124 : BitVec 32) : Fin 2 → Nat :=
  let c0_i32_87 : BitVec 32 := 0#32
  ![v124.toNat, 0]

def k0_chk15 (v124 : BitVec 32) : Prop :=
  (∀ a, (k0_off32 v124) a + S1x64.size a ≤ S1000000x64.size a)
instance k0_chk15.dec : ∀ (v124 : BitVec 32), Decidable (k0_chk15 v124) := fun v124 => decidable_of_iff' _ (Iff.of_eq (k0_chk15.eq_1 v124))
theorem k0_off32_inb : ∀ (v124 : BitVec 32) (k0_hw15 : k0_chk15 v124), ∀ a, (k0_off32 v124) a + S1x64.size a ≤ S1000000x64.size a := fun v124 k0_hw15 => k0_hw15

def k0_off33 (k0_t1 : Fin k0_t1_loop.trips) (c14_i32 : BitVec 32) : Fin 2 → Nat :=
  let c0_i32_0 : BitVec 32 := 0#32
  let c1_i32 : BitVec 32 := 1#32
  let arg9 : BitVec 32 := Scf.iv c0_i32_0 c1_i32 k0_t1
  let c16_i32_85 : BitVec 32 := 16#32
  let v125 : BitVec 32 := Scalar.muli arg9 c16_i32_85
  let v126 : BitVec 32 := Scalar.addi v125 c14_i32
  let c0_i32_88 : BitVec 32 := 0#32
  ![v126.toNat, 0]
def k0_off34 (v132 : BitVec 32) : Fin 2 → Nat :=
  let c0_i32_92 : BitVec 32 := 0#32
  ![v132.toNat, 0]

def k0_chk16 (v132 : BitVec 32) : Prop :=
  (∀ a, (k0_off34 v132) a + S1x64.size a ≤ S1000000x64.size a)
instance k0_chk16.dec : ∀ (v132 : BitVec 32), Decidable (k0_chk16 v132) := fun v132 => decidable_of_iff' _ (Iff.of_eq (k0_chk16.eq_1 v132))
theorem k0_off34_inb : ∀ (v132 : BitVec 32) (k0_hw16 : k0_chk16 v132), ∀ a, (k0_off34 v132) a + S1x64.size a ≤ S1000000x64.size a := fun v132 k0_hw16 => k0_hw16

def k0_off35 (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let c16_i32_90 : BitVec 32 := 16#32
  let v133 : BitVec 32 := Scalar.muli arg9 c16_i32_90
  let c15_i32 : BitVec 32 := 15#32
  let v134 : BitVec 32 := Scalar.addi v133 c15_i32
  let c0_i32_93 : BitVec 32 := 0#32
  ![v134.toNat, 0]
@[reducible] def k0_t2_loop : Scf.Loop 32 :=
  let c0_i32_3 : BitVec 32 := 0#32
  let c32_i32_4 : BitVec 32 := 32#32
  let v4 : BitVec 32 := Scalar.addi c0_i32_3 c32_i32_4
  let c1_i32_5 : BitVec 32 := 1#32
  ⟨c0_i32_3, v4, c1_i32_5⟩
def k0_off36 (k0_t2 : Fin k0_t2_loop.trips) (c0_i32_12 : BitVec 32) : Fin 2 → Nat :=
  let c0_i32_3 : BitVec 32 := 0#32
  let c1_i32_5 : BitVec 32 := 1#32
  let arg9 : BitVec 32 := Scf.iv c0_i32_3 c1_i32_5 k0_t2
  let c16_i32 : BitVec 32 := 16#32
  let v7 : BitVec 32 := Scalar.muli arg9 c16_i32
  let v8 : BitVec 32 := Scalar.addi v7 c0_i32_12
  let c0_i32_13 : BitVec 32 := 0#32
  ![v8.toNat, 0]
@[reducible] def k0_t3_loop : Scf.Loop 32 :=
  let c0_i32_8 : BitVec 32 := 0#32
  let c256_i32 : BitVec 32 := 256#32
  let v5 : BitVec 32 := Scalar.addi c0_i32_8 c256_i32
  let c1_i32_9 : BitVec 32 := 1#32
  ⟨c0_i32_8, v5, c1_i32_9⟩
def k0_off37 (k0_t3 : Fin k0_t3_loop.trips) : Fin 2 → Nat :=
  let c2_i32_12 : BitVec 32 := 2#32
  let c0_i32_8 : BitVec 32 := 0#32
  let c1_i32_9 : BitVec 32 := 1#32
  let arg9 : BitVec 32 := Scf.iv c0_i32_8 c1_i32_9 k0_t3
  let v7 : BitVec 32 := Scalar.muli c2_i32_12 arg9
  let v8 : Index := Scalar.indexCast v7
  let c0 : Index := 0#32
  ![v8.toNat, 0]
def k0_off38 (k0_t3 : Fin k0_t3_loop.trips) : Fin 2 → Nat :=
  let c0_i32_8 : BitVec 32 := 0#32
  let c1_i32_9 : BitVec 32 := 1#32
  let arg9 : BitVec 32 := Scf.iv c0_i32_8 c1_i32_9 k0_t3
  let v11 : Index := Scalar.indexCast arg9
  let c0_13 : Index := 0#32
  ![v11.toNat, 0]
def k0_off39 (k0_t3 : Fin k0_t3_loop.trips) : Fin 2 → Nat :=
  let c2_i32_14 : BitVec 32 := 2#32
  let c0_i32_8 : BitVec 32 := 0#32
  let c1_i32_9 : BitVec 32 := 1#32
  let arg9 : BitVec 32 := Scf.iv c0_i32_8 c1_i32_9 k0_t3
  let v15 : BitVec 32 := Scalar.muli c2_i32_14 arg9
  let c1_i32_15 : BitVec 32 := 1#32
  let v16 : BitVec 32 := Scalar.addi v15 c1_i32_15
  let v17 : Index := Scalar.indexCast v16
  let c0_16 : Index := 0#32
  ![v17.toNat, 0]
def k0_off40 (k0_t3 : Fin k0_t3_loop.trips) : Fin 2 → Nat :=
  let c0_i32_8 : BitVec 32 := 0#32
  let c1_i32_9 : BitVec 32 := 1#32
  let arg9 : BitVec 32 := Scf.iv c0_i32_8 c1_i32_9 k0_t3
  let v20 : Index := Scalar.indexCast arg9
  let c64 : Index := 64#32
  ![v20.toNat, 64]
def k0_off41 (k0_t3 : Fin k0_t3_loop.trips) : Fin 2 → Nat :=
  let c2_i32_17 : BitVec 32 := 2#32
  let c0_i32_8 : BitVec 32 := 0#32
  let c1_i32_9 : BitVec 32 := 1#32
  let arg9 : BitVec 32 := Scf.iv c0_i32_8 c1_i32_9 k0_t3
  let v24 : BitVec 32 := Scalar.muli c2_i32_17 arg9
  let v25 : Index := Scalar.indexCast v24
  let c16 : Index := 16#32
  ![v25.toNat, 16]
def k0_off42 (k0_t3 : Fin k0_t3_loop.trips) : Fin 2 → Nat :=
  let c0_i32_8 : BitVec 32 := 0#32
  let c1_i32_9 : BitVec 32 := 1#32
  let arg9 : BitVec 32 := Scf.iv c0_i32_8 c1_i32_9 k0_t3
  let v28 : Index := Scalar.indexCast arg9
  let c16_18 : Index := 16#32
  ![v28.toNat, 16]
def k0_off43 (k0_t3 : Fin k0_t3_loop.trips) : Fin 2 → Nat :=
  let c2_i32_19 : BitVec 32 := 2#32
  let c0_i32_8 : BitVec 32 := 0#32
  let c1_i32_9 : BitVec 32 := 1#32
  let arg9 : BitVec 32 := Scf.iv c0_i32_8 c1_i32_9 k0_t3
  let v32 : BitVec 32 := Scalar.muli c2_i32_19 arg9
  let c1_i32_20 : BitVec 32 := 1#32
  let v33 : BitVec 32 := Scalar.addi v32 c1_i32_20
  let v34 : Index := Scalar.indexCast v33
  let c16_21 : Index := 16#32
  ![v34.toNat, 16]
def k0_off44 (k0_t3 : Fin k0_t3_loop.trips) : Fin 2 → Nat :=
  let c0_i32_8 : BitVec 32 := 0#32
  let c1_i32_9 : BitVec 32 := 1#32
  let arg9 : BitVec 32 := Scf.iv c0_i32_8 c1_i32_9 k0_t3
  let v37 : Index := Scalar.indexCast arg9
  let c80 : Index := 80#32
  ![v37.toNat, 80]
def k0_off45 (k0_t3 : Fin k0_t3_loop.trips) : Fin 2 → Nat :=
  let c2_i32_22 : BitVec 32 := 2#32
  let c0_i32_8 : BitVec 32 := 0#32
  let c1_i32_9 : BitVec 32 := 1#32
  let arg9 : BitVec 32 := Scf.iv c0_i32_8 c1_i32_9 k0_t3
  let v41 : BitVec 32 := Scalar.muli c2_i32_22 arg9
  let v42 : Index := Scalar.indexCast v41
  let c32 : Index := 32#32
  ![v42.toNat, 32]
def k0_off46 (k0_t3 : Fin k0_t3_loop.trips) : Fin 2 → Nat :=
  let c0_i32_8 : BitVec 32 := 0#32
  let c1_i32_9 : BitVec 32 := 1#32
  let arg9 : BitVec 32 := Scf.iv c0_i32_8 c1_i32_9 k0_t3
  let v45 : Index := Scalar.indexCast arg9
  let c32_23 : Index := 32#32
  ![v45.toNat, 32]
def k0_off47 (k0_t3 : Fin k0_t3_loop.trips) : Fin 2 → Nat :=
  let c2_i32_24 : BitVec 32 := 2#32
  let c0_i32_8 : BitVec 32 := 0#32
  let c1_i32_9 : BitVec 32 := 1#32
  let arg9 : BitVec 32 := Scf.iv c0_i32_8 c1_i32_9 k0_t3
  let v49 : BitVec 32 := Scalar.muli c2_i32_24 arg9
  let c1_i32_25 : BitVec 32 := 1#32
  let v50 : BitVec 32 := Scalar.addi v49 c1_i32_25
  let v51 : Index := Scalar.indexCast v50
  let c32_26 : Index := 32#32
  ![v51.toNat, 32]
def k0_off48 (k0_t3 : Fin k0_t3_loop.trips) : Fin 2 → Nat :=
  let c0_i32_8 : BitVec 32 := 0#32
  let c1_i32_9 : BitVec 32 := 1#32
  let arg9 : BitVec 32 := Scf.iv c0_i32_8 c1_i32_9 k0_t3
  let v54 : Index := Scalar.indexCast arg9
  let c96 : Index := 96#32
  ![v54.toNat, 96]
def k0_off49 (k0_t3 : Fin k0_t3_loop.trips) : Fin 2 → Nat :=
  let c2_i32_27 : BitVec 32 := 2#32
  let c0_i32_8 : BitVec 32 := 0#32
  let c1_i32_9 : BitVec 32 := 1#32
  let arg9 : BitVec 32 := Scf.iv c0_i32_8 c1_i32_9 k0_t3
  let v58 : BitVec 32 := Scalar.muli c2_i32_27 arg9
  let v59 : Index := Scalar.indexCast v58
  let c48 : Index := 48#32
  ![v59.toNat, 48]
def k0_off50 (k0_t3 : Fin k0_t3_loop.trips) : Fin 2 → Nat :=
  let c0_i32_8 : BitVec 32 := 0#32
  let c1_i32_9 : BitVec 32 := 1#32
  let arg9 : BitVec 32 := Scf.iv c0_i32_8 c1_i32_9 k0_t3
  let v62 : Index := Scalar.indexCast arg9
  let c48_28 : Index := 48#32
  ![v62.toNat, 48]
def k0_off51 (k0_t3 : Fin k0_t3_loop.trips) : Fin 2 → Nat :=
  let c2_i32_29 : BitVec 32 := 2#32
  let c0_i32_8 : BitVec 32 := 0#32
  let c1_i32_9 : BitVec 32 := 1#32
  let arg9 : BitVec 32 := Scf.iv c0_i32_8 c1_i32_9 k0_t3
  let v66 : BitVec 32 := Scalar.muli c2_i32_29 arg9
  let c1_i32_30 : BitVec 32 := 1#32
  let v67 : BitVec 32 := Scalar.addi v66 c1_i32_30
  let v68 : Index := Scalar.indexCast v67
  let c48_31 : Index := 48#32
  ![v68.toNat, 48]
def k0_off52 (k0_t3 : Fin k0_t3_loop.trips) : Fin 2 → Nat :=
  let c0_i32_8 : BitVec 32 := 0#32
  let c1_i32_9 : BitVec 32 := 1#32
  let arg9 : BitVec 32 := Scf.iv c0_i32_8 c1_i32_9 k0_t3
  let v71 : Index := Scalar.indexCast arg9
  let c112 : Index := 112#32
  ![v71.toNat, 112]
def k0_off53 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32_11 : BitVec 32 := 256#32
  let v6 : BitVec 32 := Scalar.muli v1 c256_i32_11
  let c0_i32_12_r1 : BitVec 32 := 0#32
  ![v6.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  h_S16 : 0 < S16.numel
  shapeCasts_S16_S16 : S16.ShapeCasts S16
  slices_S16_o0_S1 : S16.Slices ![0] S1
  inpos_S1_p0 : ∀ a, (![0] : Fin 1 → Nat) a < S1.size a
  slices_S16_o1_S1 : S16.Slices ![1] S1
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  slices_S16_o7_S1 : S16.Slices ![7] S1
  slices_S16_o8_S1 : S16.Slices ![8] S1
  slices_S16_o9_S1 : S16.Slices ![9] S1
  slices_S16_o10_S1 : S16.Slices ![10] S1
  slices_S16_o11_S1 : S16.Slices ![11] S1
  slices_S16_o12_S1 : S16.Slices ![12] S1
  slices_S16_o13_S1 : S16.Slices ![13] S1
  slices_S16_o14_S1 : S16.Slices ![14] S1
  slices_S16_o15_S1 : S16.Slices ![15] S1
  inb_S1000000x64_S1x64_0_0 : ∀ a, (![0, 0] : Fin 2 → Nat) a + S1x64.size a ≤ S1000000x64.size a
  h_S1x16 : 0 < S1x16.numel
  shapeCasts_S1x16_S16 : S1x16.ShapeCasts S16
  shapeCasts_S16_S1x16 : S16.ShapeCasts S1x16
  shapeCasts_S8192x128_S16384x64 : S8192x128.ShapeCasts S16384x64
  hcc0_scratch3 : 0 + S_.numel ≤ 3
  hcc0_scoped0 : 1 + S_.numel ≤ 3
  hcc0_scoped1 : 2 + S_.numel ≤ 3
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_t1_ok : k0_t1_loop.OK
  k0_off2_inb : ∀ k0_t1 : Fin k0_t1_loop.trips, ∀ a, (k0_off2 k0_t1) a + S16.size a ≤ S512.size a
  k0_off3_inb : ∀ k0_t1 : Fin k0_t1_loop.trips, ∀ a, (k0_off3 k0_t1) a + S1x64.size a ≤ S512x64.size a
  k0_off5_inb : ∀ k0_t1 : Fin k0_t1_loop.trips, ∀ (r : Fin 2), ∀ a, (k0_off5 k0_t1 (BitVec.ofNat 32 r.val)) a + S1x64.size a ≤ S512x64.size a
  k0_off7_inb : ∀ k0_t1 : Fin k0_t1_loop.trips, ∀ (r : Fin 2), ∀ a, (k0_off7 k0_t1 (BitVec.ofNat 32 (1 + r.val))) a + S1x64.size a ≤ S512x64.size a
  k0_off9_inb : ∀ k0_t1 : Fin k0_t1_loop.trips, ∀ (r : Fin 2), ∀ a, (k0_off9 k0_t1 (BitVec.ofNat 32 (2 + r.val))) a + S1x64.size a ≤ S512x64.size a
  k0_off11_inb : ∀ k0_t1 : Fin k0_t1_loop.trips, ∀ (r : Fin 2), ∀ a, (k0_off11 k0_t1 (BitVec.ofNat 32 (3 + r.val))) a + S1x64.size a ≤ S512x64.size a
  k0_off13_inb : ∀ k0_t1 : Fin k0_t1_loop.trips, ∀ (r : Fin 2), ∀ a, (k0_off13 k0_t1 (BitVec.ofNat 32 (4 + r.val))) a + S1x64.size a ≤ S512x64.size a
  k0_off15_inb : ∀ k0_t1 : Fin k0_t1_loop.trips, ∀ (r : Fin 2), ∀ a, (k0_off15 k0_t1 (BitVec.ofNat 32 (5 + r.val))) a + S1x64.size a ≤ S512x64.size a
  k0_off17_inb : ∀ k0_t1 : Fin k0_t1_loop.trips, ∀ (r : Fin 2), ∀ a, (k0_off17 k0_t1 (BitVec.ofNat 32 (6 + r.val))) a + S1x64.size a ≤ S512x64.size a
  k0_off19_inb : ∀ k0_t1 : Fin k0_t1_loop.trips, ∀ (r : Fin 2), ∀ a, (k0_off19 k0_t1 (BitVec.ofNat 32 (7 + r.val))) a + S1x64.size a ≤ S512x64.size a
  k0_off21_inb : ∀ k0_t1 : Fin k0_t1_loop.trips, ∀ (r : Fin 2), ∀ a, (k0_off21 k0_t1 (BitVec.ofNat 32 (8 + r.val))) a + S1x64.size a ≤ S512x64.size a
  k0_off23_inb : ∀ k0_t1 : Fin k0_t1_loop.trips, ∀ (r : Fin 2), ∀ a, (k0_off23 k0_t1 (BitVec.ofNat 32 (9 + r.val))) a + S1x64.size a ≤ S512x64.size a
  k0_off25_inb : ∀ k0_t1 : Fin k0_t1_loop.trips, ∀ (r : Fin 2), ∀ a, (k0_off25 k0_t1 (BitVec.ofNat 32 (10 + r.val))) a + S1x64.size a ≤ S512x64.size a
  k0_off27_inb : ∀ k0_t1 : Fin k0_t1_loop.trips, ∀ (r : Fin 2), ∀ a, (k0_off27 k0_t1 (BitVec.ofNat 32 (11 + r.val))) a + S1x64.size a ≤ S512x64.size a
  k0_off29_inb : ∀ k0_t1 : Fin k0_t1_loop.trips, ∀ (r : Fin 2), ∀ a, (k0_off29 k0_t1 (BitVec.ofNat 32 (12 + r.val))) a + S1x64.size a ≤ S512x64.size a
  k0_off31_inb : ∀ k0_t1 : Fin k0_t1_loop.trips, ∀ (r : Fin 2), ∀ a, (k0_off31 k0_t1 (BitVec.ofNat 32 (13 + r.val))) a + S1x64.size a ≤ S512x64.size a
  k0_off33_inb : ∀ k0_t1 : Fin k0_t1_loop.trips, ∀ (r : Fin 2), ∀ a, (k0_off33 k0_t1 (BitVec.ofNat 32 (14 + r.val))) a + S1x64.size a ≤ S512x64.size a
  k0_off35_inb : ∀ k0_t1 : Fin k0_t1_loop.trips, ∀ a, (k0_off35 k0_t1) a + S1x64.size a ≤ S512x64.size a
  k0_t2_ok : k0_t2_loop.OK
  k0_off36_inb : ∀ k0_t2 : Fin k0_t2_loop.trips, ∀ (r : Fin 16), ∀ a, (k0_off36 k0_t2 (BitVec.ofNat 32 r.val)) a + S1x64.size a ≤ S512x64.size a
  k0_t3_ok : k0_t3_loop.OK
  k0_off37_inb : ∀ k0_t3 : Fin k0_t3_loop.trips, ∀ a, (k0_off37 k0_t3) a + S1x16.size a ≤ S512x64.size a
  k0_off38_inb : ∀ k0_t3 : Fin k0_t3_loop.trips, ∀ a, (k0_off38 k0_t3) a + S1x16.size a ≤ S256x128.size a
  k0_off39_inb : ∀ k0_t3 : Fin k0_t3_loop.trips, ∀ a, (k0_off39 k0_t3) a + S1x16.size a ≤ S512x64.size a
  k0_off40_inb : ∀ k0_t3 : Fin k0_t3_loop.trips, ∀ a, (k0_off40 k0_t3) a + S1x16.size a ≤ S256x128.size a
  k0_off41_inb : ∀ k0_t3 : Fin k0_t3_loop.trips, ∀ a, (k0_off41 k0_t3) a + S1x16.size a ≤ S512x64.size a
  k0_off42_inb : ∀ k0_t3 : Fin k0_t3_loop.trips, ∀ a, (k0_off42 k0_t3) a + S1x16.size a ≤ S256x128.size a
  k0_off43_inb : ∀ k0_t3 : Fin k0_t3_loop.trips, ∀ a, (k0_off43 k0_t3) a + S1x16.size a ≤ S512x64.size a
  k0_off44_inb : ∀ k0_t3 : Fin k0_t3_loop.trips, ∀ a, (k0_off44 k0_t3) a + S1x16.size a ≤ S256x128.size a
  k0_off45_inb : ∀ k0_t3 : Fin k0_t3_loop.trips, ∀ a, (k0_off45 k0_t3) a + S1x16.size a ≤ S512x64.size a
  k0_off46_inb : ∀ k0_t3 : Fin k0_t3_loop.trips, ∀ a, (k0_off46 k0_t3) a + S1x16.size a ≤ S256x128.size a
  k0_off47_inb : ∀ k0_t3 : Fin k0_t3_loop.trips, ∀ a, (k0_off47 k0_t3) a + S1x16.size a ≤ S512x64.size a
  k0_off48_inb : ∀ k0_t3 : Fin k0_t3_loop.trips, ∀ a, (k0_off48 k0_t3) a + S1x16.size a ≤ S256x128.size a
  k0_off49_inb : ∀ k0_t3 : Fin k0_t3_loop.trips, ∀ a, (k0_off49 k0_t3) a + S1x16.size a ≤ S512x64.size a
  k0_off50_inb : ∀ k0_t3 : Fin k0_t3_loop.trips, ∀ a, (k0_off50 k0_t3) a + S1x16.size a ≤ S256x128.size a
  k0_off51_inb : ∀ k0_t3 : Fin k0_t3_loop.trips, ∀ a, (k0_off51 k0_t3) a + S1x16.size a ≤ S512x64.size a
  k0_off52_inb : ∀ k0_t3 : Fin k0_t3_loop.trips, ∀ a, (k0_off52 k0_t3) a + S1x16.size a ≤ S256x128.size a
  k0_off53_inb : ∀ i : grid0.Coords, ∀ a, (k0_off53 i) a + S256x128.size a ≤ S8192x128.size a

variable [Facts₀]

abbrev cc0_scratch3 : DmaSems sig S_ := SemArray.consecutive 0 S_ hcc0_scratch3
abbrev cc0_scoped0 : DmaSems sig S_ := SemArray.consecutive 1 S_ hcc0_scoped0
abbrev cc0_scoped1 : DmaSems sig S_ := SemArray.consecutive 2 S_ hcc0_scoped1

class Facts : Prop extends Facts₀ where

variable [Facts]
-- ==== ReferenceIdeal.lean ====
abbrev S1000000x64 : Shape := ⟨2, ![1000000, 64]⟩
abbrev S16384 : Shape := ⟨1, ![16384]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x64 : Shape := ⟨2, ![16384, 64]⟩

abbrev nBuf : Space → Nat
  | .hbm => 25
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S16384, .i32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384x64, .f32⟩
  | .hbm, ⟨21, _⟩ => ⟨S16384x64, .i1⟩
  | .hbm, ⟨22, _⟩ => ⟨S_, .f32⟩
  | .hbm, ⟨23, _⟩ => ⟨S16384x64, .f32⟩
  | .hbm, ⟨24, _⟩ => ⟨S16384x64, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x64_0 : S16384.BroadcastsInDim S16384x64 (![0] : Fin 1 → Fin S16384x64.rank)
  bcast_S_S16384x64 : S_.BroadcastsInDim S16384x64 (![] : Fin 0 → Fin S16384x64.rank)
  gather_S1000000x64_S16384x1_S16384x64_1_0_n_n_0_1_164_wf : GatherDims.WF S1000000x64 S16384x1 S16384x64 [1] [0] [] [0] [] 1 ![1, 64]

variable [Facts₀]

def gather_S1000000x64_S16384x1_S16384x64_1_0_n_n_0_1_164 : GatherDims S1000000x64 S16384x1 S16384x64 where
  offsetDims := [1]
  collapsedSliceDims := [0]
  operandBatchingDims := []
  startIndicesBatchingDims := []
  startIndexMap := [0]
  indexVectorDim := 1
  sliceSizes := ![1, 64]
  wf := gather_S1000000x64_S16384x1_S16384x64_1_0_n_n_0_1_164_wf

class Facts : Prop extends Facts₀ where

variable [Facts]
-- ==== Proof.Spec.lean ====
/-
  The function both programs compute, stated once over plain index types and with no program in scope.

  `memory` is a table of 1000000 rows of 64 numbers and `keys` a list of 16384 row numbers (32-bit words read
  unsigned). The result has one row per key: row `i` of the result is row `keys i` of the table,
      G memory keys (i, j) = memory (keys i, j).
  A key is clamped to the last row so that the function is total; under the range `keys i < 1000000`
  (`KeysOK`) the clamp is the identity.

  The same numbers laid out two result rows to a row of 128 (`Gp`: row `r` holds result rows `2r` and `2r+1`
  side by side) is what a worker that packs pairs of rows writes; reading that array in row-major order as
  16384 rows of 64 gives `G` back (`Gp_flat`).
-/
import Idealize.ShloMosaic.Lib.ValueIdx

namespace Cert.Spec

open Idealize.ShloMosaic Idealize.ShloMosaic.ValueIdx

abbrev STable : Shape := ⟨2, ![1000000, 64]⟩
abbrev SKeys : Shape := ⟨1, ![16384]⟩
abbrev SOut : Shape := ⟨2, ![16384, 64]⟩
abbrev SPacked : Shape := ⟨2, ![8192, 128]⟩

/-- Every key names a row of the table. -/
def KeysOK (keys : SKeys.Idx → BitVec 32) : Prop := ∀ t, (keys t).toNat < 1000000

/-- The row a key names, clamped to the table. -/
def rowOf (k : BitVec 32) : Fin 1000000 := ⟨min k.toNat 999999, by omega⟩

theorem rowOf_val_of_lt {k : BitVec 32} (h : k.toNat < 1000000) : (rowOf k).val = k.toNat := by
  show min k.toNat 999999 = k.toNat; omega

/-- Result row `i` is table row `keys i`. -/
def G {E : Type} (mem : STable.Idx → E) (keys : SKeys.Idx → BitVec 32) : SOut.Idx → E :=
  fun i => mem (ix2 (rowOf (keys (ix1 (i 0 : Fin 16384)))) (i 1 : Fin 64))

/-- The key whose table row fills half `x / 64` of packed row `r`: key number `2r + x / 64`. -/
def keyAt (r : Fin 8192) (x : Fin 128) : Fin 16384 := ⟨2 * r.val + x.val / 64, by have := r.isLt; have := x.isLt; omega⟩

/-- The packed layout: row `r`, column `x` holds column `x % 64` of the table row named by key `2r + x / 64`. -/
def Gp {E : Type} (mem : STable.Idx → E) (keys : SKeys.Idx → BitVec 32) : SPacked.Idx → E :=
  fun i => mem (ix2 (rowOf (keys (ix1 (keyAt (i 0 : Fin 8192) (i 1 : Fin 128)))))
    (⟨(i 1 : Fin 128).val % 64, Nat.mod_lt _ (by decide)⟩ : Fin 64))

/-- Read in row-major order, position `a * 64 + b` of the packed array is row `a / 2`, column `(a % 2) * 64 + b`,
    and holds result entry `(a, b)`. -/
theorem Gp_flat {E : Type} (mem : STable.Idx → E) (keys : SKeys.Idx → BitVec 32) (a : Fin 16384) (b : Fin 64) :
    Gp mem keys (ix2 (⟨a.val / 2, by have := a.isLt; omega⟩ : Fin 8192) (⟨(a.val % 2) * 64 + b.val, by have := b.isLt; omega⟩ : Fin 128))
      = G mem keys (ix2 a b) := by
  unfold Gp G keyAt
  have h1 : 2 * (a.val / 2) + ((a.val % 2) * 64 + b.val) / 64 = a.val := by have := b.isLt; omega
  have h2 : ((a.val % 2) * 64 + b.val) % 64 = b.val := by have := b.isLt; omega
  have e1 : (⟨2 * (a.val / 2) + ((a.val % 2) * 64 + b.val) / 64, by have := a.isLt; have := b.isLt; omega⟩ : Fin 16384) = a := Fin.ext h1
  have e2 : (⟨((a.val % 2) * 64 + b.val) % 64, Nat.mod_lt _ (by decide)⟩ : Fin 64) = b := Fin.ext h2
  show mem (ix2 (rowOf (keys (ix1 (⟨2 * (a.val / 2) + ((a.val % 2) * 64 + b.val) / 64, _⟩ : Fin 16384)))) (⟨((a.val % 2) * 64 + b.val) % 64, _⟩ : Fin 64))
    = mem (ix2 (rowOf (keys (ix1 a))) b)
  rw [e1, e2]

end Cert.Spec
-- ==== Proof.Iface.lean ====
/-
  The names and statements shared by the two halves of the kernel's proof: the run of ONE worker's body, and the
  launch that deals the arrays to the 32 workers and gathers what they wrote.

  The device has two groups of sixteen workers; worker `s` of group `c` has number `w = 2 s + c`. It reads keys
  `512 w … 512 w + 511`, copies the table rows they name, packs them two to a row of 128 and writes packed rows
  `256 w … 256 w + 255`. So the packed array is cut into 32 blocks of 256 rows (`outRect w`), block `w` the only
  part of any array that worker `w` writes. The table and the keys are only read: every worker is handed a read share
  of each, whole, and hands nothing of them back (the caller keeps a share of its own, which is what pins their final
  contents). What a worker hands back is its block of the packed array holding the specification `Cert.Spec.Gp`
  of the launch contents of table and keys (`tdRes`); `TileBody` is that statement.
-/
import proofs.«210825_g74526272520993_cont_9to1_m_1216_21_alg».proof.Defs
import proofs.«210825_g74526272520993_cont_9to1_m_1216_21_alg».proof.Proof.Spec
import Idealize.ShloMosaic.Lib.SparseCore.Launch
import Idealize.ShloMosaic.Lib.StableHlo.Run
import Idealize.ShloMosaic.Lib.Pipeline.Kit
import Idealize.ShloMosaic.Lib.Batch
import Idealize.ShloMosaic.Lib.Tactic
import proofs.«210825_g74526272520993_cont_9to1_m_1216_21_alg».proof.Proof.Gen.KernelIdeal
import proofs.«210825_g74526272520993_cont_9to1_m_1216_21_alg».proof.Proof.Gen.KernelIdeal.Skeleton

noncomputable section

namespace Cert.Proof.Iface

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ)

/-- The table, the keys, the packed result and the result, as locations of device `d`. -/
abbrev aLoc (d : Dev nD) : Loc nD τ sig := (SparseCore.T d).loc main_arg0
abbrev kLoc (d : Dev nD) : Loc nD τ sig := (SparseCore.T d).loc main_arg1
abbrev oLoc (d : Dev nD) : Loc nD τ sig := (SparseCore.T d).loc main_v0
abbrev rLoc (d : Dev nD) : Loc nD τ sig := (SparseCore.T d).loc main_v1

/-- The same arrays as a worker's body names them, and a worker's three scratch buffers: its 512 keys, the 512 table
    rows they name, the 256 packed rows. -/
abbrev aV : Memref sig .scVector .hbm S1000000x64 .f32 := Memref.whole main_arg0_scv
abbrev kV : Memref sig .scVector .hbm S16384 .i32 := Memref.whole main_arg1_scv
abbrev oV : Memref sig .scVector .hbm S8192x128 .f32 := Memref.whole main_v0_scv
abbrev sK : Memref sig .scVector .vmem S512 .i32 := Memref.whole cc0_scratch0
abbrev sR : Memref sig .scVector .vmem S512x64 .f32 := Memref.whole cc0_scratch1
abbrev sP : Memref sig .scVector .vmem S256x128 .f32 := Memref.whole cc0_scratch2

/-- The packed array the workers leave: the specification of the launch contents of table and keys. -/
abbrev packed (d : Dev nD) : Buf (Elt F) (oLoc d) := Cert.Spec.Gp (E := Elt F .f32) (m (aLoc d)) (m (kLoc d))
/-- The result: one table row per key. -/
abbrev result (d : Dev nD) : Buf (Elt F) (rLoc d) := Cert.Spec.G (E := Elt F .f32) (m (aLoc d)) (m (kLoc d))

/-! ## Workers and their blocks of the packed array -/

/-- Worker `s` of group `c` has number `2 s + c`. -/
def wOf (c : Fin 2) (s : Fin 16) : Fin 32 := ⟨2 * s.val + c.val, by have := c.isLt; have := s.isLt; omega⟩

theorem hdiv32 : 32 ∣ S8192x128.size 0 := ⟨256, rfl⟩
/-- Block `w` of the packed array: rows `256 w … 256 w + 255`. -/
abbrev outRect (w : Fin 32) : Rect S8192x128 := Rect.part (s := S8192x128) (a₀ := 0) hdiv32 w
abbrev outSet (w : Fin 32) : Finset S8192x128.Idx := ((oV : Memref sig .scVector .hbm S8192x128 .f32).view.slice (outRect w)).set

/-- The read share of group `c`, and within it of worker `s`. -/
abbrev qCore (c : Fin 2) : PosShare TreeShare := Transfers.shareTok fullShare 2 c
abbrev qTile (c : Fin 2) (s : Fin 16) : PosShare TreeShare := Transfers.shareTok (qCore c) 16 s

/-! ## What the handshakes carry -/

/-- What worker `s` of group `c` is handed: a read share of the table and of the keys, and its block of the packed
    array at the launch contents. -/
def goRes (d : Dev nD) (c : Fin 2) (s : Fin 16) : sProp 𝕄 :=
  iprop((aLoc d ↦{qTile c s} m (aLoc d)) ∗ (kLoc d ↦{qTile c s} m (kLoc d)) ∗ (oLoc d ↦[outSet (wOf c s)]{fullShare} m (oLoc d)))
/-- What it hands back: its block holding the specification. -/
def tdRes (d : Dev nD) (c : Fin 2) (s : Fin 16) : sProp 𝕄 :=
  oLoc d ↦[outSet (wOf c s)]{fullShare} packed m d
/-- What group `c` is handed: read shares, and its sixteen workers' blocks. -/
def stRes (d : Dev nD) (c : Fin 2) : sProp 𝕄 :=
  iprop((aLoc d ↦{qCore c} m (aLoc d)) ∗ (kLoc d ↦{qCore c} m (kLoc d))
    ∗ bigSep Finset.univ fun s : Fin 16 => oLoc d ↦[outSet (wOf c s)]{fullShare} m (oLoc d))
/-- What it hands back: the sixteen blocks holding the specification. -/
def dnRes (d : Dev nD) (c : Fin 2) : sProp 𝕄 :=
  bigSep Finset.univ fun s : Fin 16 => oLoc d ↦[outSet (wOf c s)]{fullShare} packed m d

def P : (K (F := F)).Pay (nD := nD) (Val := Elt F) (Name := ℕ) (U := UU) where
  st := fun q d c => match q with | 0 => stRes m d (Fin.cast nCore_zero c)
  dn := fun q d c => match q with | 0 => dnRes m d (Fin.cast nCore_zero c)
  go := fun q d c i => match q with | 0 => goRes m d (Fin.cast nCore_zero c) (Fin.cast nSub_zero i)
  td := fun q d c i => match q with | 0 => tdRes m d (Fin.cast nCore_zero c) (Fin.cast nSub_zero i)
  x := fun _ _ => iprop(emp)

/-! ## One worker's body -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev sL (L : grid0.Coords) : Fin 16 := Fin.cast bound_one (L 1)

/-- The body's obligation at a symbolic worker: from what it is handed, its own scratch and semaphores and what it owes
    the launch, it runs to the end, leaves its block of the packed array at the specification, and gives scratch and
    semaphores back; its own waits are recorded at no call's index. -/
def TileBody [FloatOps F] : Prop :=
  ∀ (d : Dev nD) (L : grid0.Coords) (O : CellTallies nD τ sig (HIx 1)) (W : Waits sig (HIx 1)), (∀ g, O g none = 0) →
    iprop(levAts (K (F := F)).L (K (F := F)).lev ∗ goRes m d (cL L) (sL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L aV (Memref.isWhole_whole _) kV (Memref.isWhole_whole _) oV (Memref.isWhole_whole _)
            sK (Memref.isWhole_whole _) sR (Memref.isWhole_whole _) sP (Memref.isWhole_whole _) cc0_scratch3 cc0_scoped0 cc0_scoped1)
          fun _ => iprop(tdRes m d (cL L) (sL L) ∗ scopedBufs (V d (cV L) (jV L)) ∗ scopedSems0 (V d (cV L) (jV L))
            ∗ ∃ W', ⌜∀ p ∈ W', p ∈ W ∨ p.2 = none⌝ ∗ owes (V d (cV L) (jV L)) O W')

/-- What the body needs of the launch memory: every key names a row of the table. -/
def PreOK : Prop := ∀ d : Dev nD, Cert.Spec.KeysOK (m (kLoc d))

end Cert.Proof.Iface

end
-- ==== Proof.Launch.lean ====
/-
  The launch of the gather program: from the run of one worker's body (`TileBody`) to the run of the whole program.

  The caller splits the table and the keys into a read share per group of workers and a remainder it keeps; each
  group splits its share into one per worker. The packed array is cut into 32 blocks of 256 rows, one per worker,
  dealt along `wOf`. After the call every block holds the specification `packed`, the blocks join into the whole
  packed array, and the host's reshape of it is the result `result`; the kept remainders pin the arguments.
-/
import proofs.«210825_g74526272520993_cont_9to1_m_1216_21_alg».proof.Proof.Iface
import Idealize.ShloMosaic.Lib.Pipeline.Value

noncomputable section

namespace Cert.Proof.Launch

open Cert.KernelIdeal Cert.KernelIdeal.Gen
open Cert.Proof.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (m : (ℓ : Loc nD τ sig) → Buf (Elt F) ℓ) (ρ : Dev nD → PrngReg)

/-! ## The payloads as equations -/

theorem P_st (d : Dev nD) (c : Fin ((K (F := F)).nCore 0)) : (P m).st 0 d c = stRes m d (Fin.cast nCore_zero c) := rfl
theorem P_dn (d : Dev nD) (c : Fin ((K (F := F)).nCore 0)) : (P m).dn 0 d c = dnRes m d (Fin.cast nCore_zero c) := rfl
theorem P_go (d : Dev nD) (c : Fin ((K (F := F)).nCore 0)) (i : Fin ((K (F := F)).nSub 0)) :
    (P m).go 0 d c i = goRes m d (Fin.cast nCore_zero c) (Fin.cast nSub_zero i) := rfl
theorem P_td (d : Dev nD) (c : Fin ((K (F := F)).nCore 0)) (i : Fin ((K (F := F)).nSub 0)) :
    (P m).td 0 d c i = tdRes m d (Fin.cast nCore_zero c) (Fin.cast nSub_zero i) := rfl

instance P_storable : (P (F := F) m).IsStorable where
  st q d c := match q with
    | 0 => by rw [P_st]; unfold stRes; infer_instance
  dn q d c := match q with
    | 0 => by rw [P_dn]; unfold dnRes; infer_instance
  go q d c i := match q with
    | 0 => by rw [P_go]; unfold goRes; infer_instance
  td q d c i := match q with
    | 0 => by rw [P_td]; unfold tdRes; infer_instance

variable [FloatOps F]

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s)
          aV (Memref.isWhole_whole _) kV (Memref.isWhole_whole _) oV (Memref.isWhole_whole _)
          sK (Memref.isWhole_whole _) sR (Memref.isWhole_whole _) sP (Memref.isWhole_whole _) cc0_scratch3 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
/-- What the launch dealt the kernel's proof for its own cells is nothing: it is dropped. -/
theorem obl_pre {A X B C E G : sProp 𝕄} : iprop(A ∗ X ∗ B ∗ C ∗ E ∗ G) ⊢ iprop(A ∗ B ∗ C ∗ E ∗ G) := by
  iintro ⟨HA, -, HB, HC, HE, HG⟩
  isplitl [HA]; · iexact HA
  isplitl [HB]; · iexact HB
  isplitl [HC]; · iexact HC
  isplitl [HE]; · iexact HE
  iexact HG

theorem tileObl (hb : TileBody m) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  rw [P_go, P_td]
  have ec : cL (coordsV ⟨_, hc.1⟩ ⟨_, hc.2⟩) = Fin.cast nCore_zero c := Fin.ext rfl
  have es : sL (coordsV ⟨_, hc.1⟩ ⟨_, hc.2⟩) = Fin.cast nSub_zero i := Fin.ext rfl
  have h := hb d (coordsV ⟨_, hc.1⟩ ⟨_, hc.2⟩) O W hO
  rw [ec, es] at h
  exact (obl_pre.trans h).trans (wp_mono frame _ _ fun _ => obl_post)

/-! ## Groups, workers and blocks -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- Group `c`'s share of an array it only reads goes to its sixteen workers; what is handed back is the sixteen
    blocks, as they come. -/
theorem split_core (d : Dev nD) (c : Fin 2) :
    stRes m d c ⊢ |={Set.univ}=> iprop((bigSep Finset.univ fun s : Fin 16 => goRes m d c s)
      ∗ ((bigSep Finset.univ fun s : Fin 16 => tdRes m d c s) -∗ dnRes m d c)) := by
  unfold stRes goRes tdRes dnRes
  rw [bigSep_sep', bigSep_sep']
  iintro ⟨Ha, Hk, Ho⟩
  ihave Ha' := (Transfers.pointsTo_toks_split (qCore c) 16) $$ Ha
  icases Ha' with ⟨-, Ha⟩
  ihave Hk' := (Transfers.pointsTo_toks_split (qCore c) 16) $$ Hk
  icases Hk' with ⟨-, Hk⟩
  imodintro
  isplitl [Ha Hk Ho]
  · isplitl [Ha]; · iexact Ha
    isplitl [Hk]; · iexact Hk
    iexact Ho
  iintro H
  iexact H

theorem vecSplit : (K (F := F)).VecSplit' (P m) 0 := by
  intro d c
  rw [P_st, P_dn]
  simp only [P_go, P_td]
  rw [bigSep_tasks (F := F) (fun s => goRes m d (Fin.cast nCore_zero c) s), bigSep_tasks (F := F) (fun s => tdRes m d (Fin.cast nCore_zero c) s)]
  exact split_core m d _

/-! ## The launch element: the handshakes' rounds; the counters are dropped -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  rw [show (bigSep Finset.univ fun thr : Thread nD τ => bigSep Finset.univ fun q : Fin 1 => (P m).x q thr) = (iprop(emp) : sProp 𝕄) from by
    show (bigSep Finset.univ fun _ : Thread nD τ => bigSep Finset.univ fun _ : Fin 1 => (iprop(emp) : sProp 𝕄)) = iprop(emp)
    rw [bigSep_congr fun _ _ => bigSep_emp' _, bigSep_emp']]
  iempintro

/-! ## @main on the caller's thread -/

/-- What @main leaves the claim: the kept remainders of table and keys, and the result. -/
abbrev FIN (d : Dev nD) : sProp 𝕄 :=
  iprop((aLoc d ↦{Transfers.shareDrop fullShare 2} m (aLoc d)) ∗ (kLoc d ↦{Transfers.shareDrop fullShare 2} m (kLoc d))
    ∗ (rLoc d ↦{fullShare} result m d))

/-! ### The packed array as 32 blocks, dealt to two groups of sixteen -/

omit [FloatOps F] in
theorem outSet_eq (w : Fin 32) : outSet w = (outRect w).set := by
  show ((View.whole (main_v0_scv : Ref sig .scVector)).slice (outRect w)).set = _
  rw [View.set_slice]; exact Finset.map_refl
omit [FloatOps F] in
theorem blocks_disjoint : ∀ i ∈ (Finset.univ : Finset (Fin 32)), ∀ j ∈ (Finset.univ : Finset (Fin 32)), i ≠ j → Disjoint (outSet i) (outSet j) :=
  fun i _ j _ h => by rw [outSet_eq, outSet_eq]; exact Rect.part_disjoint hdiv32 h
omit [FloatOps F] in
theorem blocks_cover : (Finset.univ : Finset (Fin 32)).biUnion outSet = Finset.univ :=
  (Finset.biUnion_congr rfl fun i _ => outSet_eq i).trans (Rect.biUnion_part hdiv32)

omit [FloatOps F] in
theorem oPts_blocks (d : Dev nD) (f : Buf (Elt F) (oLoc d)) :
    (oLoc d ↦{fullShare} f : sProp 𝕄) = bigSep Finset.univ fun w : Fin 32 => oLoc d ↦[outSet w]{fullShare} f := by
  rw [← pointsTo_biUnion Finset.univ (ℓ := oLoc d) outSet blocks_disjoint, blocks_cover]; try rfl

/-- Worker numbers are the pairs (group, worker of the group), once each. -/
theorem wOf_inj : Function.Injective fun p : Fin 2 × Fin 16 => wOf p.1 p.2 := by
  rintro ⟨c, s⟩ ⟨c', s'⟩ e
  have h : 2 * s.val + c.val = 2 * s'.val + c'.val := congrArg Fin.val e
  have hc := c.isLt; have hc' := c'.isLt
  exact Prod.ext (Fin.ext (by show c.val = c'.val; omega)) (Fin.ext (by show s.val = s'.val; omega))
theorem univ_workers : (Finset.univ : Finset (Fin 32)) = (Finset.univ : Finset (Fin 2 × Fin 16)).image fun p => wOf p.1 p.2 := by
  ext w
  simp only [Finset.mem_univ, Finset.mem_image, true_and, true_iff]
  exact ⟨(⟨w.val % 2, Nat.mod_lt _ (by decide)⟩, ⟨w.val / 2, by have := w.isLt; omega⟩),
    Fin.ext (by show 2 * (w.val / 2) + w.val % 2 = w.val; omega)⟩

omit [FloatOps F] in
theorem bigSep_workers (Φ : Fin 32 → sProp 𝕄) :
    bigSep Finset.univ Φ = bigSep Finset.univ fun c : Fin 2 => bigSep Finset.univ fun s : Fin 16 => Φ (wOf c s) := by
  rw [univ_workers, SparseCore.bigSep_image_of_injOn (wOf_inj.injOn) Φ, ← Finset.univ_product_univ, SparseCore.bigSep_product]

omit [FloatOps F] in
theorem oBlocks_eq (d : Dev nD) (f : Buf (Elt F) (oLoc d)) :
    (oLoc d ↦{fullShare} f : sProp 𝕄)
      = bigSep Finset.univ fun c : Fin 2 => bigSep Finset.univ fun s : Fin 16 => oLoc d ↦[outSet (wOf c s)]{fullShare} f := by
  rw [oPts_blocks, bigSep_workers]

/-- What the call takes for the two groups, and what it hands back. -/
theorem st0_eq (d : Dev nD) : (bigSep Finset.univ fun c : Fin ((K (F := F)).nCore 0) => (P m).st 0 d c)
    = iprop((bigSep Finset.univ fun c : Fin 2 => aLoc d ↦{qCore c} m (aLoc d)) ∗ (bigSep Finset.univ fun c : Fin 2 => kLoc d ↦{qCore c} m (kLoc d))
        ∗ (oLoc d ↦{fullShare} m (oLoc d))) := by
  simp only [P_st]
  rw [bigSep_cores (F := F) (fun c => stRes m d c)]
  unfold stRes
  rw [bigSep_sep', bigSep_sep', oBlocks_eq]
theorem dn0_eq (d : Dev nD) : (bigSep Finset.univ fun c : Fin ((K (F := F)).nCore 0) => (P m).dn 0 d c) = (oLoc d ↦{fullShare} packed m d) := by
  simp only [P_dn]
  rw [bigSep_cores (F := F) (fun c => dnRes m d c)]
  unfold dnRes
  rw [oBlocks_eq]

/-! ### The caller's arrays and the reshape -/

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (kLoc d ↦{fullShare} W main_arg1)
      ∗ (oLoc d ↦{fullShare} W main_v0) ∗ (rLoc d ↦{fullShare} W main_v1)) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

abbrev o' : DevRef τ sig := Proc.devRef .tc (main_v0 : Ref sig .tc)
abbrev r' : DevRef τ sig := Proc.devRef .tc (main_v1 : Ref sig .tc)
abbrev opR : HloOp τ sig (Elt F) := StableHlo.reshape main_v0 main_v1 rfl shapeCasts_S8192x128_S16384x64

/-- The two arrays the reshape touches, held whole. -/
abbrev S2 : Finset (DevRef τ sig) := {o', r'}

omit [FloatOps F] in
theorem held_S2 (d : Dev nD) (W : Valuation τ sig (Elt F)) :
    (held (T d) S2 W : sProp 𝕄) = iprop((oLoc d ↦{fullShare} W o') ∗ rLoc d ↦{fullShare} W r') := by
  unfold held S2
  rw [SparseCore.bigSep_insert' (by decide), bigSep_singleton]

/-- The launch valuation; after the call, the packed array at the specification. -/
def V0 (d : Dev nD) : Valuation τ sig (Elt F) := fun b => m (d, b)
def V1 (d : Dev nD) : Valuation τ sig (Elt F) := Function.update (V0 m d) o' (packed m d)
theorem V1_o (d : Dev nD) : V1 m d o' = packed m d := Function.update_self _ _ _
theorem V1_r (d : Dev nD) : V1 m d r' = m (rLoc d) := Function.update_of_ne (show r' ≠ o' by decide) _ _

theorem hR : (opR (F := F)).bufs ⊆ S2 := show ({o', r'} : Finset (DevRef τ sig)) ⊆ S2 from Finset.Subset.refl _

/-- The packed array read in row-major order as 16384 rows of 64 is the result: position `a * 64 + b` is packed row
    `a / 2`, column `(a % 2) * 64 + b`. -/
theorem reshape_packed (d : Dev nD) :
    shapeCast S16384x64 (packed m d) shapeCasts_S8192x128_S16384x64 = result m d := by
  funext j
  obtain ⟨a, b, rfl⟩ : ∃ (a : Fin 16384) (b : Fin 64), j = ValueIdx.ix2 a b := ⟨j 0, j 1, ValueIdx.eq_ix2 j⟩
  have ha := a.isLt; have hb := b.isLt
  rw [shapeCast_apply (packed m d) shapeCasts_S8192x128_S16384x64 (ValueIdx.ix2 a b)
    (ValueIdx.ix2 (⟨a.val / 2, by omega⟩ : Fin 8192) (⟨(a.val % 2) * 64 + b.val, by omega⟩ : Fin 128))
    (by
      show ((⟨2, ![8192, 128]⟩ : Shape).rowMajor _).val = ((⟨2, ![16384, 64]⟩ : Shape).rowMajor _).val
      rw [Shape.rowMajor_val_two, Shape.rowMajor_val_two]
      show (a.val / 2) * 128 + ((a.val % 2) * 64 + b.val) = a.val * 64 + b.val
      omega)]
  exact Cert.Spec.Gp_flat _ _ a b

theorem opR_o (d : Dev nD) : (opR (F := F)).result (V1 m d) o' = packed m d := by
  rw [(opR (F := F)).result_of_not_mem (V1 m d) (b := o') (show o' ∉ ({r'} : Finset (DevRef τ sig)) by decide), V1_o]
theorem opR_r (d : Dev nD) : (opR (F := F)).result (V1 m d) r' = result m d := by
  refine (StableHlo.reshape_result (τ := τ) (Val := Elt F) main_v0 main_v1 rfl shapeCasts_S8192x128_S16384x64 ⟨by decide, rfl⟩ ⟨by decide, rfl⟩ (V1 m d)).trans ?_
  show (fun i => shapeCast S16384x64 (V1 m d o') shapeCasts_S8192x128_S16384x64 i) = result m d
  rw [V1_o]
  exact reshape_packed m d

/-- @main on device `d`: the read shares split off and the remainders kept, the call, the blocks joined into the packed
    array, the reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha, Hk, Ho, Hr⟩, -, -⟩, -⟩
  ihave Ha' := (Transfers.pointsTo_toks_split fullShare 2) $$ Ha
  icases Ha' with ⟨Ha0, Ha⟩
  ihave Hk' := (Transfers.pointsTo_toks_split fullShare 2) $$ Hk
  icases Hk' with ⟨Hk0, Hk⟩
  iapply ((K (F := F)).wp_run (D (F := F)) 𝒱 (EH := EH) (P := P m) κ d 0) $$ [Hst Ha Hk Ho Hb Hr Ha0 Hk0]
  isplitr; · iexact Hctx
  isplitl [Hst]; · iexact Hst
  isplitl [Ha Hk Ho]
  · rw [st0_eq]
    isplitl [Ha]; · iexact Ha
    isplitl [Hk]; · iexact Hk
    iexact Ho
  iintro ⟨Hst, Hdn⟩
  ihave Ho := (Entails.of_eq (dn0_eq m d)) $$ Hdn
  iapply (wp_hlo_within 𝒱 (SparseCore.T d) none Set.univ (op := opR) (S := S2) hR (V := V1 m d)) $$ [Hb Ho Hr]
  · isplitl [Hb]; · iexact Hb
    rw [held_S2, V1_o, V1_r]
    isplitl [Ho]; · iexact Ho
    iexact Hr
  iintro ⟨Hb, Hheld⟩
  ihave Hh := (Entails.of_eq (held_S2 (F := F) d _)) $$ Hheld
  icases Hh with ⟨-, Hr⟩
  rw [wp_ret]; imodintro; imodintro
  isplitl [Hst]; · iexact Hst
  isplitl [Ha0]; · iexact Ha0
  isplitl [Hk0]; · iexact Hk0
  rw [← opR_r m d]
  iexact Hr

def fq (d : Dev nD) (s' : Phys nD τ sig (Elt F)) : Prop :=
  s'.mem.mem (rLoc d) = result m d ∧ s'.mem.mem (aLoc d) = m (aLoc d) ∧ s'.mem.mem (kLoc d) = m (kLoc d)

theorem hfin (d : Dev nD) (s' : Phys nD τ sig (Elt F)) : iprop(FIN m d ∗ SI s') ⊢ (⌜fq m d s'⌝ : sProp 𝕄) := by
  iintro ⟨⟨Ha, Hk, Hr⟩, HSI⟩
  ihave H := (persistent_entails_right (SI_pointsTo_agree (st := s') (ℓ := aLoc d) (I := Finset.univ) (q := Transfers.shareDrop fullShare 2) (f := m (aLoc d)))) $$ [HSI Ha]
  · isplitl [HSI] <;> iassumption
  icases H with ⟨%h1, HSI, -⟩
  ihave H := (persistent_entails_right (SI_pointsTo_agree (st := s') (ℓ := kLoc d) (I := Finset.univ) (q := Transfers.shareDrop fullShare 2) (f := m (kLoc d)))) $$ [HSI Hk]
  · isplitl [HSI] <;> iassumption
  icases H with ⟨%h2, HSI, -⟩
  ihave H := (SI_pointsTo_agree (st := s') (ℓ := rLoc d) (I := Finset.univ) (q := fullShare) (f := result m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop :=
  fun r => ∀ c : Dev nD, r.2.mem (rLoc c) = result m c ∧ r.2.mem (aLoc c) = m (aLoc c) ∧ r.2.mem (kLoc c) = m (kLoc c)

theorem run_main [∀ e, Nonempty (Elt F e)] (hb : TileBody m) :
    θ_run (Cert.KernelIdeal.defs (F := F)) (Cert.KernelIdeal.threads (F := F)) ⟨m, fun _ => 0, ρ⟩
      (fun r => ∀ c : Dev nD, r.2.mem (rLoc c) = result m c ∧ r.2.mem (aLoc c) = m (aLoc c) ∧ r.2.mem (kLoc c) = m (kLoc c)) :=
  SparseCore.Cfg.θ_run_sc (K := K (F := F)) (D := D (F := F)) (𝒱 := 𝒱) (EH := EH) (P := P m) facts v₀
    (fun q hq => match q with | 0 => nomatch hq)
    (fun q _ => match q with | 0 => tileObl m hb)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.Launch

end
-- ==== Proof.RefPre.lean ====
/-
  The precondition decoded: when the printed predicate `input_domain` is all ones, every key, read unsigned, is below
  the number of table rows.

  The predicate's value is the conjunction of two reductions by `and`: the table's floats finite, and, for every key
  `k`, `0 ≤ k` and `k ≤ 999999` as signed words. From the second: the reduction being 1 makes every compared element
  1; a signed word that is at least 0 has its top bit clear, so its signed and unsigned readings agree, and the upper
  comparison then bounds the unsigned reading by 999999.
-/
import proofs.«210825_g74526272520993_cont_9to1_m_1216_21_alg».proof.Pre_input_domain
import proofs.«210825_g74526272520993_cont_9to1_m_1216_21_alg».proof.Proof.Spec
import Idealize.ShloMosaic.Lib.ReduceAll

namespace Cert.RefRun

open Idealize.ShloMosaic Idealize.ShloMosaic.ValueIdx

/-- A 32-bit word between 0 and 999999 as a signed number is below 1000000 as an unsigned one. -/
theorem toNat_lt_of_signed_range {k : BitVec 32}
    (h : IntOp.andi (IntOp.cmpi .sge k 0#32) (IntOp.cmpi .sle k 999999#32) = 1#1) : k.toNat < 1000000 := by
  obtain ⟨h0, h1⟩ := IntOp.andi_eq_one.1 h
  rw [IntOp.cmpi_sge] at h0
  rw [IntOp.cmpi_sle] at h1
  have e0 : (0#32 : BitVec 32).toInt = 0 := by decide
  have e1 : (999999#32 : BitVec 32).toInt = 999999 := by decide
  rw [e0] at h0
  rw [e1] at h1
  rw [BitVec.toInt_eq_toNat_cond] at h0 h1
  have := k.isLt
  split at h0 <;> omega

/-- The precondition gives the keys' range. -/
theorem keysOK_of_pre {F : FTy → Type} [FloatOps F] [h0 : Cert.Pre_input_domain.Facts]
    (a : FVec F Cert.Pre_input_domain.S1000000x64 .f32) (k : IVec Cert.Pre_input_domain.S16384 32)
    (h : Cert.Pre_input_domain.fn (F := F) a k = fun _ => 1#1) : Cert.Spec.KeysOK k := by
  have h1 := congrFun h ValueIdx.ix0
  dsimp only [Cert.Pre_input_domain.fn] at h1
  obtain ⟨-, h2⟩ := IntOp.andi_eq_one.1 h1
  intro t
  haveI : Subsingleton Cert.Pre_input_domain.S_.Idx := ⟨fun a b => funext fun d => d.elim0⟩
  have h3 := Host.reduce_andi_all _ _ _ _ _ h2 t
  exact toNat_lt_of_signed_range h3

end Cert.RefRun
-- ==== Proof.RefTerm.lean ====
/-
  The reference's result as one term of its two arguments: what the program's host operations, composed, compute.
-/
import proofs.«210825_g74526272520993_cont_9to1_m_1216_21_alg».proof.ReferenceIdeal

noncomputable section

namespace Cert.RefRun

open Cert.ReferenceIdeal Idealize.ShloMosaic
open Cert.ReferenceIdeal.Facts₀

variable {F : FTy → Type} [FloatOps F] [Cert.ReferenceIdeal.Facts]

/-- The keys wrapped: a key that is negative as a signed word gets the row count added. -/
def wrapped (keys : IVec S16384 32) : IVec S16384 32 :=
  select (cmpi .slt keys (broadcastInDim S16384 ![] bcast_S_S16384 (constantI S_ 32 0#32)))
    (addi keys (broadcastInDim S16384 ![] bcast_S_S16384 (constantI S_ 32 1000000#32))) keys

/-- The wrapped keys as a column. -/
def col (keys : IVec S16384 32) : IVec S16384x1 32 :=
  broadcastInDim S16384x1 ![0] bcast_S16384_S16384x1_0 (wrapped keys)

/-- The range test of the column, entry by entry: at least 0 and at most 999999 as signed words. -/
def inRange (keys : IVec S16384 32) : IVec S16384x1 1 :=
  andi (cmpi .sge (col keys) (broadcastInDim S16384x1 ![] bcast_S_S16384x1 (constantI S_ 32 0#32)))
    (cmpi .sle (col keys) (broadcastInDim S16384x1 ![0, 1] bcast_S1x1_S16384x1_0_1
      (broadcastInDim S1x1 ![1] bcast_S1_S1x1_1 (constantI S1 32 999999#32))))

/-- The range test reduced by `and` over the column's unit axis: one bit per key. -/
def mask (keys : IVec S16384 32) : IVec S16384 1 :=
  Host.reduce IntOp.andi (inRange keys) (constantI S_ 1 1#1) reducesTo_S16384x1_S16384_d1 h_S_

/-- The composed term of the reference: the rows gathered at the column of wrapped keys where the mask is set, the
    constant elsewhere. -/
def refVal (mem : FVec F S1000000x64 .f32) (keys : IVec S16384 32) : FVec F S16384x64 .f32 :=
  select (broadcastInDim S16384x64 ![0] bcast_S16384_S16384x64_0 (mask keys))
    (Host.gather gather_S1000000x64_S16384x1_S16384x64_1_0_n_n_0_1_164 mem (col keys))
    (broadcastInDim S16384x64 ![] bcast_S_S16384x64 (constant S_ .f32 0x7FC00000#32))

end Cert.RefRun

end
-- ==== Proof.RefOps.lean ====
/-
  The reference program as a straight line of host operations, and its run.

  @main calls `_take`, which calls `_where`; with both bodies unfolded at their calls the program is one chain of
  twenty-three host operations over the call record's buffers. Every weakly fair execution of it terminates with
  each buffer at the fold of the operations' results over the launch contents; read at the result buffer the fold is
  the composed term `refVal` of the two arguments, and the arguments' buffers are written by no operation.
-/
import proofs.«210825_g74526272520993_cont_9to1_m_1216_21_alg».proof.ReferenceIdeal
import proofs.«210825_g74526272520993_cont_9to1_m_1216_21_alg».proof.Proof.RefTerm
import Idealize.ShloMosaic.Lib.StableHlo.Run

noncomputable section

namespace Cert.RefRun

open Cert.ReferenceIdeal Idealize.ShloMosaic Idealize.ShloMosaic.TcCoe Idealize.SL.Sem
  Idealize.ShloMosaic.StableHlo
open Cert.ReferenceIdeal.Facts₀

variable {F : FTy → Type} [FloatOps F] [Cert.ReferenceIdeal.Facts]

/-- @main's operations in order, the two calls unfolded: `_take`'s twenty-two around `_where`'s one select. -/
abbrev ops : List (HloOp τ sig (Elt F)) :=
  [ TRef.nullary main_call0.c (constantI S_ 32 0#32),
    TRef.unary main_call0.c main_call0.v0 (broadcastInDim S16384 ![] bcast_S_S16384),
    TRef.binary (.of main_arg1) main_call0.v0 main_call0.v1 (cmpi .slt),
    TRef.nullary main_call0.c_0 (constantI S_ 32 1000000#32),
    TRef.unary main_call0.c_0 main_call0.v2 (broadcastInDim S16384 ![] bcast_S_S16384),
    TRef.binary (.of main_arg1) main_call0.v2 main_call0.v3 addi,
    TRef.ternary main_call0.v1 main_call0.v3 (.of main_arg1) main_call0.call0.v0 select,
    TRef.unary main_call0.call0.v0 main_call0.v5 (broadcastInDim S16384x1 ![0] bcast_S16384_S16384x1_0),
    TRef.nullary main_call0.c_1 (constantI S1 32 999999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg0) main_call0.v5 main_call0.v13 (fun x i => Host.gather gather_S1000000x64_S16384x1_S16384x64_1_0_n_n_0_1_164 x i),
    TRef.unary main_call0.v12 main_call0.v14 (broadcastInDim S16384x64 ![0] bcast_S16384_S16384x64_0),
    TRef.nullary main_call0.cst (constant S_ .f32 0x7FC00000#32),
    TRef.unary main_call0.cst main_call0.v15 (broadcastInDim S16384x64 ![] bcast_S_S16384x64),
    TRef.ternary main_call0.v14 main_call0.v13 main_call0.v15 main_call0.v16 select ]

set_option maxRecDepth 1024 in
/-- @main is that straight line: the functions' definitions unfolded at their calls, both sides are one chain of
    `hlo` steps once sequencing is reassociated. -/
theorem main_eq (c : Dev nD) : main (F := F) c = seq ops := by
  simp only [main, fn_take.body, fn_where.body, seq, bind_assoc, pure_bind]

set_option maxRecDepth 8192 in
/-- The fold read at the result buffer is the composed term of the two arguments' contents: the fold unrolled, each
    operation's result rewritten at its own buffer to its function's value and at any other buffer to what was
    there; the typed references' casts are the identity at these literal references, and what is left is the composed
    term with its definitions opened. -/
theorem out_eq (V : Valuation τ sig (Elt F)) :
    after ops V (main_v0 : DevRef τ sig) = refVal (V (main_arg0 : DevRef τ sig)) (V (main_arg1 : DevRef τ sig)) := by
  after_results
  simp only [cast_eq]
  unfold refVal mask inRange col wrapped
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- At the compiled mesh, for any float values, from any memory with zero counters: every weakly fair execution of
    @main terminates with the result buffer at the composed term of the arguments' launch contents and the arguments
    unchanged. -/
theorem run_refVal (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v0)
          = refVal (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (out_eq _), (h c main_arg0).trans (arg0_eq _),
      (h c main_arg1).trans (arg1_eq _)⟩)
    (run_seq scopedRefs_eq scopedSems_eq defs main (fun _ => ops) main_eq (fun _ => ops_sub) m ρ)

end Cert.RefRun

end
-- ==== Proof.LibTakeRows.lean ====
/-
  Two general facts about host operations, for a row lookup `x[idx]` of a rank-2 table.

  (1) `stablehlo.gather` of a rank-2 operand `[N, C]` at a column `[R, 1]` of start indices, with offset_dims `[1]`,
  collapsed_slice_dims `[0]`, start_index_map `[0]`, index_vector_dim 1 and slice_sizes `[1, C]` — what
  `jnp.take(x, idx, axis=0)` lowers to — read at result index `(r, j)`: the operand at row `idx[r, 0]`, read as a
  signed integer and clamped into `[0, N − 1]`, and column `j`. The argument is the one for a rank-1 operand
  (`ValueIdx.gather_take_apply`), with one more operand axis: axis 0 is collapsed and takes its coordinate from the
  clamped start index, axis 1 is the offset axis and takes the result's second coordinate.

  (2) A `stablehlo.reduce` by `and` of one-bit words that are all 1, from the initial value 1, is 1 at every result
  index, whatever axes it reduces: a left fold by `and` from 1 over 1s stays 1.
-/
import Idealize.ShloMosaic.PureOps
import Idealize.ShloMosaic.PureOps.Reduce
import Idealize.ShloMosaic.Lib.ValueIdx

noncomputable section

namespace Cert.LibTakeRows

open Idealize.ShloMosaic Idealize.ShloMosaic.ValueIdx

/-! ## The gather of rows, read at an index -/

section TakeRows
variable {α : Type}

/-- The dimension numbers of a row lookup, for an operand `[N, C]`, start indices `[R, 1]` and result `[R, C]`. -/
abbrev takeRowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The start-indices index `[r, 0]` of result index `(r, j)`. -/
abbrev takeRowIdx {R C : Nat} (y : (⟨2, ![R, C]⟩ : Shape).Idx) : (⟨2, ![R, 1]⟩ : Shape).Idx :=
  fun a => match a with | ⟨0, _⟩ => ⟨(y 0).val, idx2_lt0 y⟩ | ⟨1, _⟩ => ⟨0, Nat.one_pos⟩

/-- THE GATHER READ AT `(r, j)`: the operand at row `idx[r, 0]`, read signed and clamped into `[0, N − 1]`, and
    column `j`. -/
theorem gather_takeRows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (y : (⟨2, ![R, C]⟩ : Shape).Idx) :
    Host.gather (takeRowsDims N R C wf) x idx y
      = x (ix2 ⟨min (idx (takeRowIdx y)).toInt.toNat (N - 1), by omega⟩ ⟨(y 1).val, idx2_lt1 y⟩) := by
  unfold Host.gather
  congr 1
  funext a
  refine Fin.ext ?_
  show (takeRowsDims N R C wf).start y idx a + (takeRowsDims N R C wf).batchCoord y a + (takeRowsDims N R C wf).offCoord y a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (takeRowsDims N R C wf).startIndexMap from List.mem_singleton.mpr rfl)]
    have hsi : (takeRowsDims N R C wf).siIdx y ⟨List.idxOf (⟨0, by decide⟩ : Fin 2) (takeRowsDims N R C wf).startIndexMap,
        List.idxOf_lt_length_iff.2 (List.mem_singleton.mpr rfl)⟩ = takeRowIdx y := by
      funext b; refine Fin.ext ?_
      match b with
      | ⟨0, _⟩ => rfl
      | ⟨1, _⟩ => rfl
    rw [hsi]
    rfl
  | ⟨1, _⟩ =>
    have hns : (⟨1, by decide⟩ : Fin 2) ∉ (takeRowsDims N R C wf).startIndexMap :=
      fun h => Nat.one_ne_zero (congrArg Fin.val (List.mem_singleton.mp h))
    unfold GatherDims.start
    rw [dif_neg hns]
    simp only [Nat.add_zero, Nat.zero_add]
    rfl

end TakeRows

/-! ## A reduce by `and` of ones -/

/-- A left fold by `and` from 1 over words that are all 1 is 1. -/
theorem foldl_andi_of_all {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_of_all f hf l

/-- A `stablehlo.reduce` by `and`, from 1, of an array of ones is 1 at every result index. -/
theorem reduce_andi_of_all {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  exact foldl_andi_of_all x hx _

end Cert.LibTakeRows

end
-- ==== Proof.RefValue.lean ====
/-
  The reference's composed term is the specification's function, under the keys' range.

  With every key below the row count as an unsigned word: a key's top bit is clear, so it is not negative as a signed
  word and the wrap leaves it as it is; both range comparisons are 1 at every entry of the column, so their `and`,
  reduced over the unit axis from 1, is 1 at every key and the outer select takes the gathered row everywhere; and the
  gather's clamp of the signed start index into the table's rows is the identity, the same row the specification
  names.
-/
import proofs.«210825_g74526272520993_cont_9to1_m_1216_21_alg».proof.Proof.RefTerm
import proofs.«210825_g74526272520993_cont_9to1_m_1216_21_alg».proof.Proof.Spec
import proofs.«210825_g74526272520993_cont_9to1_m_1216_21_alg».proof.Proof.LibTakeRows
import Idealize.ShloMosaic.Lib.ValueIdx
import Idealize.ShloMosaic.Lib.Affine

noncomputable section

namespace Cert.RefRun

open Cert.ReferenceIdeal Idealize.ShloMosaic Idealize.ShloMosaic.ValueIdx
open Cert.ReferenceIdeal.Facts₀

/-! ## One word -/

/-- A word below the row count reads the same signed and unsigned. -/
theorem toInt_of_lt {k : BitVec 32} (h : k.toNat < 1000000) : k.toInt = (k.toNat : Int) :=
  BitVec.toInt_eq_toNat_of_lt (by omega)

/-- Such a word is not negative: the wrap leaves it. -/
theorem wrap_id {k : BitVec 32} (h : k.toNat < 1000000) :
    Scalar.select (IntOp.cmpi .slt k 0#32) (IntOp.addi k 1000000#32) k = k := by
  have hn : ¬ IntOp.cmpi .slt k 0#32 = 1#1 := by
    rw [IntOp.cmpi_slt, toInt_of_lt h, show (0#32 : BitVec 32).toInt = 0 from by decide]; omega
  exact if_neg hn

/-- Such a word passes both range comparisons. -/
theorem range_one {k : BitVec 32} (h : k.toNat < 1000000) :
    IntOp.andi (IntOp.cmpi .sge k 0#32) (IntOp.cmpi .sle k 999999#32) = 1#1 := by
  refine IntOp.andi_eq_one.2 ⟨IntOp.cmpi_sge.2 ?_, IntOp.cmpi_sle.2 ?_⟩
  · rw [toInt_of_lt h, show (0#32 : BitVec 32).toInt = 0 from by decide]; omega
  · rw [toInt_of_lt h, show (999999#32 : BitVec 32).toInt = 999999 from by decide]; omega

/-- The clamp of such a word's signed reading into the table's rows is the row the specification names. -/
theorem clamp_eq_rowOf {k : BitVec 32} (h : k.toNat < 1000000) :
    min k.toInt.toNat (1000000 - 1) = (Cert.Spec.rowOf k).val := by
  rw [toInt_of_lt h, Int.toNat_natCast]; rfl

/-! ## The vectors -/

variable {F : FTy → Type} [FloatOps F] [Cert.ReferenceIdeal.Facts]

theorem wrapped_apply (keys : IVec S16384 32) (hk : Cert.Spec.KeysOK keys) (t : S16384.Idx) : wrapped keys t = keys t :=
  wrap_id (hk t)

/-- An entry of the column is a key. -/
theorem col_apply (keys : IVec S16384 32) (a : Fin 16384) (z : Fin 1) : col keys (ix2 a z) = wrapped keys (ix1 a) := by
  unfold col broadcastInDim
  refine congrArg (wrapped keys) (funext fun d => ?_)
  match d with
  | ⟨0, _⟩ => rfl

theorem col_lt (keys : IVec S16384 32) (hk : Cert.Spec.KeysOK keys) (i : S16384x1.Idx) : (col keys i).toNat < 1000000 := by
  obtain ⟨a, z, rfl⟩ : ∃ (a : Fin 16384) (z : Fin 1), i = ix2 a z := ⟨i 0, i 1, eq_ix2 i⟩
  rw [col_apply, wrapped_apply keys hk]; exact hk _

theorem inRange_one (keys : IVec S16384 32) (hk : Cert.Spec.KeysOK keys) (i : S16384x1.Idx) : inRange keys i = 1#1 :=
  range_one (col_lt keys hk i)

theorem mask_one (keys : IVec S16384 32) (hk : Cert.Spec.KeysOK keys) (t : S16384.Idx) : mask keys t = 1#1 :=
  Cert.LibTakeRows.reduce_andi_of_all _ _ _ _ (inRange_one keys hk) (fun _ => rfl) t

/-- The gathered array at `(a, b)` is the table at the row the key names. -/
theorem gather_apply (mem : FVec F S1000000x64 .f32) (keys : IVec S16384 32) (hk : Cert.Spec.KeysOK keys)
    (a : Fin 16384) (b : Fin 64) :
    Host.gather gather_S1000000x64_S16384x1_S16384x64_1_0_n_n_0_1_164 mem (col keys) (ix2 a b)
      = mem (ix2 (Cert.Spec.rowOf (keys (ix1 a))) b) := by
  refine (Cert.LibTakeRows.gather_takeRows_apply (N := 1000000) (R := 16384) (C := 64) (by decide)
    gather_S1000000x64_S16384x1_S16384x64_1_0_n_n_0_1_164_wf mem (col keys) (ix2 a b)).trans ?_
  have hc : col keys (Cert.LibTakeRows.takeRowIdx (ix2 a b)) = keys (ix1 a) := by
    have ht : Cert.LibTakeRows.takeRowIdx (ix2 a b) = (ix2 a (0 : Fin 1) : S16384x1.Idx) := by
      funext d
      match d with
      | ⟨0, _⟩ => rfl
      | ⟨1, _⟩ => rfl
    rw [ht, col_apply, wrapped_apply keys hk]
  refine congrArg mem ?_
  funext d
  match d with
  | ⟨0, _⟩ => exact Fin.ext (by show min _ _ = _; rw [hc]; exact clamp_eq_rowOf (hk _))
  | ⟨1, _⟩ => rfl

/-- THE VALUE: under the keys' range the reference's term is the specification's function. -/
theorem refVal_eq_G (mem : FVec F S1000000x64 .f32) (keys : IVec S16384 32) (hk : Cert.Spec.KeysOK keys) :
    refVal mem keys = Cert.Spec.G mem keys := by
  funext i
  obtain ⟨a, b, rfl⟩ : ∃ (a : Fin 16384) (b : Fin 64), i = ix2 a b := ⟨i 0, i 1, eq_ix2 i⟩
  unfold refVal
  rw [select_apply]
  have hm : broadcastInDim S16384x64 ![0] bcast_S16384_S16384x64_0 (mask keys) (ix2 a b) = 1#1 := mask_one keys hk _
  rw [hm, select_one, gather_apply mem keys hk]
  rfl

end Cert.RefRun

end
-- ==== Proof.RefRun.lean ====
/-
  The reference program's run and value, under the certificate's precondition.

  The precondition gives the keys' range; the program runs to the composed term of its arguments; under the range
  that term is the specification's function. So every weakly fair execution of the reference terminates with its
  result buffer at `Cert.Spec.G` of the two arguments' launch contents, the arguments unchanged.
-/
import proofs.«210825_g74526272520993_cont_9to1_m_1216_21_alg».proof.Defs
import proofs.«210825_g74526272520993_cont_9to1_m_1216_21_alg».proof.Proof.RefPre
import proofs.«210825_g74526272520993_cont_9to1_m_1216_21_alg».proof.Proof.RefOps
import proofs.«210825_g74526272520993_cont_9to1_m_1216_21_alg».proof.Proof.RefValue

noncomputable section

namespace Cert.RefRun

open Idealize.ShloMosaic Idealize.SL.Sem

/-- The run from the keys' range alone. -/
theorem run_of_keysOK [hR : Cert.ReferenceIdeal.Facts]
    (m : (ℓ : Loc Cert.ReferenceIdeal.nD Cert.ReferenceIdeal.τ Cert.ReferenceIdeal.sig) → Buf (Elt Ideal) ℓ)
    (g : Dev Cert.ReferenceIdeal.nD → PrngReg)
    (hk : ∀ c : Dev Cert.ReferenceIdeal.nD,
      Cert.Spec.KeysOK (m ((c.tc : Thread Cert.ReferenceIdeal.nD Cert.ReferenceIdeal.τ).loc Cert.ReferenceIdeal.main_arg1))) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v0)
            = Cert.Spec.G (m ((c.tc : Thread _ _).loc Cert.ReferenceIdeal.main_arg0)) (m ((c.tc : Thread _ _).loc Cert.ReferenceIdeal.main_arg1))
        ∧ r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)) :=
  (θ_run (Cert.ReferenceIdeal.defs (F := Ideal)) _ _).mono
    (fun _ h c => ⟨(h c).1.trans (refVal_eq_G _ _ (hk c)), (h c).2⟩) (run_refVal (F := Ideal) m g)

/-- The run under the certificate's precondition. -/
theorem run [hR : Cert.ReferenceIdeal.Facts] [hP : Cert.Pre_input_domain.Facts]
    (m : (ℓ : Loc Cert.ReferenceIdeal.nD Cert.ReferenceIdeal.τ Cert.ReferenceIdeal.sig) → Buf (Elt Ideal) ℓ)
    (g : Dev Cert.ReferenceIdeal.nD → PrngReg) (hpre : Cert.Pre_ReferenceIdeal m) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v0)
            = Cert.Spec.G (m ((c.tc : Thread _ _).loc Cert.ReferenceIdeal.main_arg0)) (m ((c.tc : Thread _ _).loc Cert.ReferenceIdeal.main_arg1))
        ∧ r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)) :=
  run_of_keysOK m g fun c => keysOK_of_pre _ _ (hpre c)

end Cert.RefRun

end
-- ==== Proof.Assemble.lean ====
/-
  The certificate's claims from the body obligation.

  Given the body obligation of one worker at the ideal and at the word-level float values (for launch memories whose
  keys are in range), the launch theorem gives the kernel's run: the result buffer holds the specification's function
  of the table and the keys, both unchanged. The precondition gives the keys' range. The word-level program and the
  one printed for the ideal reading are the same text under two names, so the frame claim of the first is, by
  unfolding alone, the same proposition stated over the second's names. The reference runs to the same function of its
  own arguments, and arguments that agree give equal results.
-/
import proofs.«210825_g74526272520993_cont_9to1_m_1216_21_alg».proof.Defs
import proofs.«210825_g74526272520993_cont_9to1_m_1216_21_alg».proof.Proof.Launch
import proofs.«210825_g74526272520993_cont_9to1_m_1216_21_alg».proof.Proof.RefRun
import proofs.«210825_g74526272520993_cont_9to1_m_1216_21_alg».proof.Proof.Gen.Kernel
import proofs.«210825_g74526272520993_cont_9to1_m_1216_21_alg».proof.Proof.Gen.KernelIdeal
import proofs.«210825_g74526272520993_cont_9to1_m_1216_21_alg».proof.Proof.Gen.ReferenceIdeal
import proofs.«210825_g74526272520993_cont_9to1_m_1216_21_alg».proof.Proof.Gen.Pre_input_domain
import Idealize.ShloMosaic.Lib.Pipeline.Regions

noncomputable section

namespace Cert.Proof.Assemble

open Idealize.ShloMosaic Idealize.SL.Sem
open Cert.Proof.Iface

/-! ## The keys' range from the precondition -/

theorem preOK_of_pre {F : FTy → Type} [FloatOps F]
    (m : (ℓ : Loc Cert.KernelIdeal.nD Cert.KernelIdeal.τ Cert.KernelIdeal.sig) → Buf (Elt F) ℓ)
    (h : ∀ c : Dev Cert.KernelIdeal.nD,
      (Cert.Pre_input_domain.fn (F := F) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))) = (fun _ => 1#1)) :
    PreOK m :=
  fun d => Cert.RefRun.keysOK_of_pre _ _ (h d)

/-! ## The word-level program's frame claim, over the other print's names -/

/-- `Cert.frame_Kernel` with each name of the word-level print replaced by the same name of the print for the ideal
    reading, the float values still the words. -/
def frameBits : Prop :=
  ∀ (m : (ℓ : Loc Cert.KernelIdeal.nD Cert.KernelIdeal.τ Cert.KernelIdeal.sig) → Buf (Elt Bits) ℓ) (g : Dev Cert.KernelIdeal.nD → PrngReg),
    (∀ c : Dev Cert.KernelIdeal.nD,
      (Cert.Pre_input_domain.fn (F := Bits) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)) →
    θ_run (Cert.KernelIdeal.defs (F := Bits)) (Cert.KernelIdeal.threads (F := Bits)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

set_option maxRecDepth 65536 in
/-- The two prints are the same text: the two propositions unfold to one. -/
theorem frameBits_eq :
    frameBits = Cert.frame_Kernel (hKernel := Cert.Kernel.Gen.facts) (hPre_input_domain := Cert.Pre_input_domain.Gen.facts) := by
  chain_rfl

/-! ## The five claims -/

theorem frame_Kernel
    (hbB : ∀ (m : (ℓ : Loc Cert.KernelIdeal.nD Cert.KernelIdeal.τ Cert.KernelIdeal.sig) → Buf (Elt Bits) ℓ), PreOK m → TileBody (F := Bits) m) :
    Cert.frame_Kernel (hKernel := Cert.Kernel.Gen.facts) (hPre_input_domain := Cert.Pre_input_domain.Gen.facts) :=
  frameBits_eq.mp fun m g hpre =>
    (θ_run (Cert.KernelIdeal.defs (F := Bits)) _ _).mono (fun _ h c => (h c).2)
      (Cert.Proof.Launch.run_main (F := Bits) m g (hbB m (preOK_of_pre m hpre)))

theorem frame_KernelIdeal
    (hbI : ∀ (m : (ℓ : Loc Cert.KernelIdeal.nD Cert.KernelIdeal.τ Cert.KernelIdeal.sig) → Buf (Elt Ideal) ℓ), PreOK m → TileBody (F := Ideal) m) :
    Cert.frame_KernelIdeal (hKernelIdeal := Cert.KernelIdeal.Gen.facts) (hPre_input_domain := Cert.Pre_input_domain.Gen.facts) :=
  fun m g hpre =>
    (θ_run (Cert.KernelIdeal.defs (F := Ideal)) _ _).mono (fun _ h c => (h c).2)
      (Cert.Proof.Launch.run_main (F := Ideal) m g (hbI m (preOK_of_pre m hpre)))

theorem frame_ReferenceIdeal :
    Cert.frame_ReferenceIdeal (hReferenceIdeal := Cert.ReferenceIdeal.Gen.facts) (hPre_input_domain := Cert.Pre_input_domain.Gen.facts) :=
  fun m g hpre => (θ_run (Cert.ReferenceIdeal.defs (F := Ideal)) _ _).mono (fun _ h c => (h c).2) (Cert.RefRun.run m g hpre)

theorem algebraic
    (hbI : ∀ (m : (ℓ : Loc Cert.KernelIdeal.nD Cert.KernelIdeal.τ Cert.KernelIdeal.sig) → Buf (Elt Ideal) ℓ), PreOK m → TileBody (F := Ideal) m) :
    Cert.algebraic_KernelIdeal_ReferenceIdeal (hKernelIdeal := Cert.KernelIdeal.Gen.facts)
      (hReferenceIdeal := Cert.ReferenceIdeal.Gen.facts) (hPre_input_domain := Cert.Pre_input_domain.Gen.facts) := by
  intro m g m' g' hpre hagree
  have hok : PreOK m := preOK_of_pre m hpre
  have hk' : ∀ c : Dev Cert.ReferenceIdeal.nD,
      Cert.Spec.KeysOK (m' ((c.tc : Thread Cert.ReferenceIdeal.nD Cert.ReferenceIdeal.τ).loc Cert.ReferenceIdeal.main_arg1)) := fun c => by
    rw [(hagree c).2]; exact hok c
  refine ⟨fun c => result m c, ?_, ?_⟩
  · exact (θ_run (Cert.KernelIdeal.defs (F := Ideal)) _ _).mono (fun _ h c => h c)
      (Cert.Proof.Launch.run_main (F := Ideal) m g (hbI m hok))
  · refine (θ_run (Cert.ReferenceIdeal.defs (F := Ideal)) _ _).mono (fun _ h c => ⟨?_, (h c).2⟩)
      (Cert.RefRun.run_of_keysOK m' g' hk')
    refine (h c).1.trans ?_
    rw [(hagree c).1, (hagree c).2]

/-- Everything the certificate claims, from the body obligation at the two float instances. -/
theorem claim_of
    (hbI : ∀ (m : (ℓ : Loc Cert.KernelIdeal.nD Cert.KernelIdeal.τ Cert.KernelIdeal.sig) → Buf (Elt Ideal) ℓ),
      Cert.Proof.Iface.PreOK m → Cert.Proof.Iface.TileBody (F := Ideal) m)
    (hbB : ∀ (m : (ℓ : Loc Cert.KernelIdeal.nD Cert.KernelIdeal.τ Cert.KernelIdeal.sig) → Buf (Elt Bits) ℓ),
      Cert.Proof.Iface.PreOK m → Cert.Proof.Iface.TileBody (F := Bits) m) : Cert.Claim :=
  ⟨Cert.Kernel.Gen.facts, Cert.KernelIdeal.Gen.facts, Cert.ReferenceIdeal.Gen.facts, Cert.Pre_input_domain.Gen.facts,
    frame_Kernel hbB, frame_KernelIdeal hbI, frame_ReferenceIdeal, trivial, algebraic hbI⟩

end Cert.Proof.Assemble

end
-- ==== Proof.BodyDefs.lean ====
/-
  One worker's body: the shared vocabulary of its three loops.

  The worker holds its 512 keys in a scratch `sK`. Loop 1 starts 512 copies, copy `j` moving table row `sK j` into
  row `j` of a scratch `sR`, all completing on ONE semaphore; loop 2 waits 512 times for one row's amount; only the
  last wait tells that every row has landed. Loop 3 packs rows `2 q` and `2 q + 1` of `sR` side by side into row `q`
  of a scratch `sP`, which is then copied to the worker's block of the packed array.

  `rowsOf ma ks` is what `sR` holds once every copy has landed (row `j` = table row `ks j`), `packRows fR` what
  `sP` holds after the packing. `Dlv` is copy `j`'s delivery: row `j` of `sR` at `rowsOf`. The three invariants say
  what is held before trip `k` of each loop.
-/
import proofs.«210825_g74526272520993_cont_9to1_m_1216_21_alg».proof.Proof.Iface

noncomputable section

namespace Cert.Proof.BodyDefs

open Cert.KernelIdeal Cert.KernelIdeal.Gen Cert.Proof.Iface

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (d : Dev nD) (L : grid0.Coords)

/-- The worker's thread, and its three completion semaphores: the 512 row copies', the key copy's, the copy-out's. -/
abbrev thr : Thread nD τ := V d (cV L) (jV L)
abbrev cAcell : GSem nD τ sig := (thr d L, .dma cc0_scratch3.sem)
abbrev cBcell : GSem nD τ sig := (thr d L, .dma cc0_scoped0.sem)
abbrev cCcell : GSem nD τ sig := (thr d L, .dma cc0_scoped1.sem)

/-- The transfers' counters inside the certificate's ghost state. -/
abbrev EC : UEmb Counters (MT nD τ sig (HIx 1) (Elt F) ℕ UU ℕ) := countersEmb

/-- The scratch buffers' locations. -/
abbrev skLoc : Loc nD τ sig := (sK : Memref sig .scVector .vmem S512 .i32).view.loc (thr d L)
abbrev srLoc : Loc nD τ sig := (sR : Memref sig .scVector .vmem S512x64 .f32).view.loc (thr d L)
abbrev spLoc : Loc nD τ sig := (sP : Memref sig .scVector .vmem S256x128 .f32).view.loc (thr d L)
/-- The table as the worker's body addresses it. -/
abbrev avLoc : Loc nD τ sig := (aV : Memref sig .scVector .hbm S1000000x64 .f32).view.loc (thr d L)

/-- Row `j` of the row scratch. -/
theorem hdiv512 : 512 ∣ S512x64.size 0 := ⟨1, rfl⟩
abbrev rowR (j : Fin 512) : Rect S512x64 := Rect.part (s := S512x64) (a₀ := 0) hdiv512 j
abbrev rowSetR (j : Fin 512) : Finset S512x64.Idx := ((sR : Memref sig .scVector .vmem S512x64 .f32).view.slice (rowR j)).set

/-- One row's amount on the copies' semaphore. -/
abbrev NR : ℕ := 2048
theorem NR_eq : ((sR : Memref sig .scVector .vmem S512x64 .f32).slice (rowR 0) (fun _ => rfl)).view.dmaCredit = NR := by decide

/-- What the row scratch holds once every copy has landed: row `j` is the table row that key `j` names. -/
def rowsOf (ma : Buf (Elt F) (avLoc d L)) (ks : Buf (Elt F) (skLoc d L)) : Buf (Elt F) (srLoc d L) :=
  fun i => ma (ix2 (Cert.Spec.rowOf (ks (ix1 (i 0 : Fin 512)))) (i 1 : Fin 64))

/-- What the packing leaves: row `q` holds rows `2 q` and `2 q + 1` side by side. -/
def packRows (fR : Buf (Elt F) (srLoc d L)) : Buf (Elt F) (spLoc d L) :=
  fun i => fR (ix2 (⟨2 * (i 0 : Fin 256).val + (i 1 : Fin 128).val / 64, by
      have h0 : (i 0 : Fin 256).val < 256 := (i 0).isLt
      have h1 : (i 1 : Fin 128).val < 128 := (i 1).isLt
      omega⟩ : Fin 512)
    (⟨(i 1 : Fin 128).val % 64, Nat.mod_lt _ (by decide)⟩ : Fin 64))

/-- A block of the packed array read off the packing scratch: packed row `r` is scratch row `r % 256`. -/
def blockOf (fP : Buf (Elt F) (spLoc d L)) : Buf (Elt F) (oLoc d) :=
  fun i => fP (ix2 (⟨(i 0 : Fin 8192).val % 256, Nat.mod_lt _ (by decide)⟩ : Fin 256) (i 1 : Fin 128))

/-- Copy `j`'s delivery: row `j` of the row scratch at its final contents. -/
def Dlv (ma : Buf (Elt F) (avLoc d L)) (ks : Buf (Elt F) (skLoc d L)) (j : Fin 512) : sProp 𝕄 :=
  srLoc d L ↦[rowSetR j]{fullShare} rowsOf d L ma ks

instance Dlv_storable (ma : Buf (Elt F) (avLoc d L)) (ks : Buf (Elt F) (skLoc d L)) (j : Fin 512) :
    BI.Storable (upEmb : UEmb _ 𝕄) (Dlv d L ma ks j) := by unfold Dlv; infer_instance

/-- The read share of the table that copy `j` reads through. -/
abbrev qCopy (j : Fin 512) : PosShare TreeShare := Transfers.shareTok (qTile (cL L) (sL L)) 512 j

variable [FloatOps F]

/-! ## Loop 1: the issues -/

/-- Before trip `k` of loop 1: the keys, the batch with `16 k` copies started and none waited for, and for every
    copy still to start its read share of the table and its row of the row scratch. -/
def I1 (O : CellTallies nD τ sig (HIx 1)) (ma : Buf (Elt F) (avLoc d L)) (ks : Buf (Elt F) (skLoc d L)) (fr : Buf (Elt F) (srLoc d L))
    (k : ℕ) (_ : PUnit) : sProp 𝕄 :=
  iprop(Transfers.MayWaits (thr d L) (none : HIx 1) O
    ∗ (skLoc d L ↦{fullShare} ks)
    ∗ Transfers.Batch (EC (F := F)) (thr d L) (.dma cc0_scratch3.sem) (none : HIx 1) NR (Dlv d L ma ks) (16 * k) 0
    ∗ bigSep (Transfers.pending (n := 512) (16 * k)) (fun t => iprop((avLoc d L ↦{qCopy L t} ma) ∗ (srLoc d L ↦[rowSetR t]{fullShare} fr))))

/-- One trip of loop 1. -/
def Trip1 : Prop :=
  ∀ (O : CellTallies nD τ sig (HIx 1)) (ma : Buf (Elt F) (avLoc d L)) (ks : Buf (Elt F) (skLoc d L)) (fr : Buf (Elt F) (srLoc d L)),
    (∀ t, (ks t).toNat < 1000000) → ∀ (k : Fin k0_t1_loop.trips) (u : PUnit),
    I1 d L O ma ks fr k.val u
      ⊢ wp frame (wpE (defs₀ (F := F)) 𝒱₀ (thr d L) none) Set.univ
          (k0_t1_body L aV (Memref.isWhole_whole _) kV (Memref.isWhole_whole _) oV (Memref.isWhole_whole _)
            sK (Memref.isWhole_whole _) sR (Memref.isWhole_whole _) sP (Memref.isWhole_whole _) cc0_scratch3 cc0_scoped0 cc0_scoped1 k u)
          (I1 d L O ma ks fr (k.val + 1))

/-! ## Loop 2: the waits -/

/-- Before trip `k` of loop 2: every copy started and `16 k` rows' amounts waited for — or, after the last trip, every
    delivery and the semaphore at zero; and what the worker owes, its own waits recorded at no call's index. -/
def I2 (O : CellTallies nD τ sig (HIx 1)) (W : Waits sig (HIx 1)) (Dl : Fin 512 → sProp 𝕄) (k : ℕ) (_ : PUnit) : sProp 𝕄 :=
  iprop(Transfers.MayWaits (thr d L) (none : HIx 1) O
    ∗ (if k < 32 then Transfers.Batch (EC (F := F)) (thr d L) (.dma cc0_scratch3.sem) (none : HIx 1) NR Dl 512 (16 * k * NR)
        else iprop(bigSep Finset.univ Dl ∗ semVal (cAcell d L) 0))
    ∗ ∃ W', ⌜∀ p ∈ W', p ∈ W ∨ p.2 = none⌝ ∗ owes (thr d L) O W')

/-- One trip of loop 2, whatever the deliveries. -/
def Trip2 : Prop :=
  ∀ (O : CellTallies nD τ sig (HIx 1)) (W : Waits sig (HIx 1)) (Dl : Fin 512 → sProp 𝕄) (k : Fin k0_t2_loop.trips) (u : PUnit),
    I2 d L O W Dl k.val u
      ⊢ wp frame (wpE (defs₀ (F := F)) 𝒱₀ (thr d L) none) Set.univ
          (k0_t2_body L aV (Memref.isWhole_whole _) kV (Memref.isWhole_whole _) oV (Memref.isWhole_whole _)
            sK (Memref.isWhole_whole _) sR (Memref.isWhole_whole _) sP (Memref.isWhole_whole _) cc0_scratch3 cc0_scoped0 cc0_scoped1 k u)
          (I2 d L O W Dl (k.val + 1))

/-! ## Loop 3: the packing -/

/-- Before trip `k` of loop 3: the row scratch unchanged, the packing scratch right in its first `k` rows. -/
def I3 (fR : Buf (Elt F) (srLoc d L)) (k : ℕ) (_ : PUnit) : sProp 𝕄 :=
  iprop((srLoc d L ↦{fullShare} fR)
    ∗ ∃ fP : Buf (Elt F) (spLoc d L), (spLoc d L ↦{fullShare} fP)
        ∗ ⌜∀ (q : Fin 256) (x : Fin 128), q.val < k → fP (ix2 q x) = packRows d L fR (ix2 q x)⌝)

/-- One trip of loop 3. -/
def Trip3 : Prop :=
  ∀ (fR : Buf (Elt F) (srLoc d L)) (k : Fin k0_t3_loop.trips) (u : PUnit),
    I3 d L fR k.val u
      ⊢ wp frame (wpE (defs₀ (F := F)) 𝒱₀ (thr d L) none) Set.univ
          (k0_t3_body L aV (Memref.isWhole_whole _) kV (Memref.isWhole_whole _) oV (Memref.isWhole_whole _)
            sK (Memref.isWhole_whole _) sR (Memref.isWhole_whole _) sP (Memref.isWhole_whole _) cc0_scratch3 cc0_scoped0 cc0_scoped1 k u)
          (I3 d L fR (k.val + 1))

end Cert.Proof.BodyDefs

end
-- ==== Proof.Body.lean ====
/-
  One worker's body, assembled: from what the launch hands a worker to its block of the packed array at the
  specification.

  The worker copies its 512 keys into a scratch and waits for them; starts 512 row copies (loop 1) on one semaphore
  and waits 512 times for one row's amount (loop 2), after which every row has landed; packs the rows two to a row
  (loop 3); copies the packed rows out to its block and waits. The three loops' trips, the copy-out and the value
  of the block are hypotheses here; this module supplies what lies between them.
-/
import proofs.«210825_g74526272520993_cont_9to1_m_1216_21_alg».proof.Proof.BodyDefs

noncomputable section

namespace Cert.Proof.Body

open Cert.KernelIdeal Cert.KernelIdeal.Gen Cert.Proof.Iface Cert.Proof.BodyDefs

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (d : Dev nD) (L : grid0.Coords)

/-! ## The worker's own semaphores and buffers -/

theorem ownSems0_V :
    (ownSems0 (thr d L) : sProp 𝕄)
      = iprop(semVal (cAcell d L) 0 ∗ semVal (cBcell d L) 0 ∗ semVal (cCcell d L) 0
          ∗ bigSep ((((ownCells (thr d L)).erase (cAcell d L)).erase (cBcell d L)).erase (cCcell d L))
              fun g => semVal g 0) := by
  unfold SparseCore.Cfg.ownSems0
  rw [SparseCore.bigSep_erase' ((mem_ownCells (g := cAcell d L)).mpr ⟨rfl, by
      show (SemLoc.dma cc0_scratch3.sem : SemLoc sig).isScoped .scVector = true; decide⟩),
    SparseCore.bigSep_erase' (Finset.mem_erase.mpr ⟨by simp [cAcell, cBcell]; decide, (mem_ownCells (g := cBcell d L)).mpr ⟨rfl, by
      show (SemLoc.dma cc0_scoped0.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d L)).mpr ⟨rfl, by show (SemLoc.dma cc0_scoped1.sem : SemLoc sig).isScoped .scVector = true; decide⟩⟩⟩)]

theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

variable [FloatOps F]

/-- The arrays as the body's memrefs address them. -/
theorem pts_k (q : PosShare TreeShare) (f : Buf (Elt F) (kLoc d)) :
    ((kV : Memref sig .scVector .hbm S16384 .i32).view.loc (thr d L) ↦{q} f : sProp 𝕄) = kLoc d ↦{q} f := by
  simp only [Memref.view_whole, View.set_whole]

theorem pts_sK (f : Buf (Elt F) ((thr d L).loc cc0_scratch0)) :
    ((sK : Memref sig .scVector .vmem S512 .i32).view.loc (thr d L) ↦{fullShare} f : sProp 𝕄) = (thr d L).loc cc0_scratch0 ↦{fullShare} f := rfl
theorem pts_sR (f : Buf (Elt F) ((thr d L).loc cc0_scratch1)) :
    ((sR : Memref sig .scVector .vmem S512x64 .f32).view.loc (thr d L) ↦{fullShare} f : sProp 𝕄) = (thr d L).loc cc0_scratch1 ↦{fullShare} f := rfl
theorem pts_sP (f : Buf (Elt F) ((thr d L).loc cc0_scratch2)) :
    ((sP : Memref sig .scVector .vmem S256x128 .f32).view.loc (thr d L) ↦{fullShare} f : sProp 𝕄) = (thr d L).loc cc0_scratch2 ↦{fullShare} f := rfl

/-! ## The copy-out and the value of the block, as hypotheses -/

/-- The body's last lines: the packing scratch copied to the worker's block of the packed array, and the wait. -/
def tailProg (L : grid0.Coords) : Prog (TpuEff nD τ sig (Elt F) Λ₀ (.scVector ((L 0).castLE hcore0) ((L 1).castLE hsub0))) PUnit := do
  let v9_r1 : Memref sig .scVector .hbm S256x128 .f32 := (oV : Memref sig .scVector .hbm S8192x128 .f32).slice (Rect.unit (s := S8192x128) (k0_off53 L) S256x128.size (k0_off53_inb L)) (fun _ => rfl)
  Prog.lift (.enqueueDma (sP : Memref sig .scVector .vmem S256x128 .f32) (.here v9_r1) (.dma cc0_scoped1.sem) (Memref.isWhole_whole _).wordExact (View.wordExact_bits rfl) ⟨Or.inl rfl, trivial⟩)
  let v11_r1 : Memref sig .scVector .hbm S256x128 .f32 := (oV : Memref sig .scVector .hbm S8192x128 .f32).slice (Rect.unit (s := S8192x128) (k0_off53 L) S256x128.size (k0_off53_inb L)) (fun _ => rfl)
  Prog.lift (.waitDma2 cc0_scoped1.sem (sP : Memref sig .scVector .vmem S256x128 .f32) v11_r1 (Memref.isWhole_whole _).wordExact (View.wordExact_bits rfl))
  pure ⟨⟩

def CopyOut : Prop :=
  ∀ (d : Dev nD) (L : grid0.Coords) (O : CellTallies nD τ sig (HIx 1)) (W : Waits sig (HIx 1)) (fP : Buf (Elt F) (spLoc d L)) (fo : Buf (Elt F) (oLoc d)),
    (iprop(Transfers.MayWaits (thr d L) (none : HIx 1) O ∗ (spLoc d L ↦{fullShare} fP) ∗ (oLoc d ↦[outSet (wOf (cL L) (sL L))]{fullShare} fo)
        ∗ semVal (cCcell d L) 0 ∗ owes (thr d L) O W) : sProp 𝕄)
      ⊢ wp frame (wpE (defs₀ (F := F)) 𝒱₀ (thr d L) none) Set.univ (tailProg (F := F) L)
          (fun _ => iprop((spLoc d L ↦{fullShare} fP) ∗ (oLoc d ↦[outSet (wOf (cL L) (sL L))]{fullShare} blockOf d L fP) ∗ semVal (cCcell d L) 0
            ∗ ∃ W', ⌜∀ p ∈ W', p ∈ W ∨ p.2 = none⌝ ∗ owes (thr d L) O W'))

def FinalValue : Prop :=
  ∀ (d : Dev nD) (L : grid0.Coords) (ma : Buf (Elt F) (avLoc d L)) (ks : Buf (Elt F) (skLoc d L)) (keys : Buf (Elt F) (kLoc d)),
    (∀ t : Fin 512, ks (ValueIdx.ix1 t) = keys (ValueIdx.ix1 (⟨512 * (wOf (cL L) (sL L)).val + t.val, by
      have := (wOf (cL L) (sL L)).isLt; have := t.isLt; omega⟩ : Fin 16384))) →
    ∀ i ∈ outSet (wOf (cL L) (sL L)), blockOf d L (packRows d L (rowsOf d L ma ks)) i = Cert.Spec.Gp (E := Elt F .f32) ma keys i

/-! ## The keys the worker holds -/

theorem pts_a (q : PosShare TreeShare) (f : Buf (Elt F) (aLoc d)) :
    ((aV : Memref sig .scVector .hbm S1000000x64 .f32).view.loc (thr d L) ↦{q} f : sProp 𝕄) = aLoc d ↦{q} f := by
  simp only [Memref.view_whole, View.set_whole]

/-- Where key `x` of the worker's 512 sits in the key array. -/
abbrev keyRect : Rect S16384 := Rect.unit (s := S16384) (k0_off1 L) S512.size (k0_off1_inb L)

/-- What the key scratch holds after the copy-in: the worker's 512 keys. -/
def ksOf (fk : Buf (Elt F) (skLoc d L)) : Buf (Elt F) (skLoc d L) :=
  View.write (Elt F) (sK : Memref sig .scVector .vmem S512 .i32).view fk
    (View.read (Elt F) ((kV : Memref sig .scVector .hbm S16384 .i32).slice (keyRect L) (fun _ => rfl)).view (m (kLoc d))) Finset.univ

theorem ksOf_apply (fk : Buf (Elt F) (skLoc d L)) (x : S512.Idx) :
    ksOf m d L fk x = m (kLoc d) ((keyRect L).emb x) := by
  unfold ksOf
  show (View.whole (cc0_scratch0 : Ref sig .scVector)).write (Elt F) fk _ Finset.univ x = _
  rw [View.write_whole_univ]
  rfl

theorem keyRect_emb (t : Fin 512) :
    (keyRect L).emb (ix1 t) = ix1 (⟨512 * (wOf (cL L) (sL L)).val + t.val, by
      have := (wOf (cL L) (sL L)).isLt; have := t.isLt; omega⟩ : Fin 16384) := by
  funext a
  match a with
  | ⟨0, _⟩ =>
    apply Fin.ext
    rw [Rect.emb_apply]
    show k0_off1 L 0 + 1 * t.val = 512 * (2 * (L 1).val + (L 0).val) + t.val
    rw [k0_off1_eq L]
    show 1024 * (L 1).val + 512 * (L 0).val + 1 * t.val = _
    omega

theorem ksOf_lt (hpre : PreOK m) (fk : Buf (Elt F) (skLoc d L)) (x : S512.Idx) : (ksOf m d L fk x).toNat < 1000000 := by
  rw [ksOf_apply]; exact hpre d _

/-! ## The row scratch as 512 rows -/

omit [FloatOps F] in
theorem rowSetR_eq (j : Fin 512) : rowSetR j = (rowR j).set := by
  show ((View.whole (cc0_scratch1 : Ref sig .scVector)).slice (rowR j)).set = _
  rw [View.set_slice]; exact Finset.map_refl
omit [FloatOps F] in
theorem rowsR_disjoint : ∀ i ∈ (Finset.univ : Finset (Fin 512)), ∀ j ∈ (Finset.univ : Finset (Fin 512)), i ≠ j → Disjoint (rowSetR i) (rowSetR j) :=
  fun i _ j _ h => by rw [rowSetR_eq, rowSetR_eq]; exact Rect.part_disjoint hdiv512 h
omit [FloatOps F] in
theorem rowsR_cover : (Finset.univ : Finset (Fin 512)).biUnion rowSetR = Finset.univ :=
  (Finset.biUnion_congr rfl fun i _ => rowSetR_eq i).trans (Rect.biUnion_part hdiv512)

omit [FloatOps F] in
theorem sR_rows (f : Buf (Elt F) (srLoc d L)) :
    (srLoc d L ↦{fullShare} f : sProp 𝕄) = bigSep Finset.univ fun j : Fin 512 => srLoc d L ↦[rowSetR j]{fullShare} f := by
  rw [← pointsTo_biUnion Finset.univ (ℓ := srLoc d L) rowSetR rowsR_disjoint, rowsR_cover]; try rfl

/-- The 512 deliveries are the row scratch whole, at the rows the keys name. -/
theorem rows_join (ma : Buf (Elt F) (avLoc d L)) (ks : Buf (Elt F) (skLoc d L)) :
    (bigSep Finset.univ (Dlv (F := F) d L ma ks) : sProp 𝕄) ⊢ srLoc d L ↦{fullShare} rowsOf d L ma ks := by
  unfold Dlv
  rw [sR_rows]

/-! ## Between the loops -/

theorem trips1 : k0_t1_loop.trips = 32 := by decide
theorem trips2 : k0_t2_loop.trips = 32 := by decide
theorem trips3 : k0_t3_loop.trips = 256 := by decide

/-- Before loop 1: the batch just allocated, the table share split into a read share per copy, the row scratch into
    its rows. -/
theorem I1_zero (O : CellTallies nD τ sig (HIx 1)) (ma : Buf (Elt F) (avLoc d L)) (ks : Buf (Elt F) (skLoc d L)) (fr : Buf (Elt F) (srLoc d L)) :
    (iprop(Transfers.MayWaits (thr d L) (none : HIx 1) O ∗ (skLoc d L ↦{fullShare} ks)
      ∗ Transfers.Batch (EC (F := F)) (thr d L) (.dma cc0_scratch3.sem) (none : HIx 1) NR (Dlv d L ma ks) 0 0
      ∗ (avLoc d L ↦{qTile (cL L) (sL L)} ma) ∗ (srLoc d L ↦{fullShare} fr)) : sProp 𝕄)
      ⊢ I1 d L O ma ks fr 0 ⟨⟩ := by
  unfold I1
  rw [Nat.mul_zero, Transfers.pending_zero, bigSep_sep', sR_rows]
  iintro ⟨Hmw, Hsk, HB, Ha, Hsr⟩
  ihave Ha' := (Transfers.pointsTo_toks_split (qTile (cL L) (sL L)) 512) $$ Ha
  icases Ha' with ⟨-, Ha⟩
  isplitl [Hmw]; · iexact Hmw
  isplitl [Hsk]; · iexact Hsk
  isplitl [HB]; · iexact HB
  isplitl [Ha]; · iexact Ha
  iexact Hsr

/-- After loop 1: every copy started, none waited for. -/
theorem I1_end (O : CellTallies nD τ sig (HIx 1)) (ma : Buf (Elt F) (avLoc d L)) (ks : Buf (Elt F) (skLoc d L)) (fr : Buf (Elt F) (srLoc d L)) (u : PUnit) :
    I1 d L O ma ks fr k0_t1_loop.trips u
      ⊢ iprop((skLoc d L ↦{fullShare} ks)
        ∗ Transfers.Batch (EC (F := F)) (thr d L) (.dma cc0_scratch3.sem) (none : HIx 1) NR (Dlv d L ma ks) 512 0) := by
  rw [trips1]
  unfold I1
  iintro ⟨-, Hsk, HB, -⟩
  isplitl [Hsk]; · iexact Hsk
  iexact HB

theorem I2_zero (O : CellTallies nD τ sig (HIx 1)) (W : Waits sig (HIx 1)) (Dl : Fin 512 → sProp 𝕄) (W' : Waits sig (HIx 1))
    (hW' : ∀ p ∈ W', p ∈ W ∨ p.2 = none) :
    (iprop(Transfers.MayWaits (thr d L) (none : HIx 1) O
      ∗ Transfers.Batch (EC (F := F)) (thr d L) (.dma cc0_scratch3.sem) (none : HIx 1) NR Dl 512 0 ∗ owes (thr d L) O W') : sProp 𝕄)
      ⊢ I2 d L O W Dl 0 ⟨⟩ := by
  unfold I2
  rw [if_pos (by decide : 0 < 32)]
  iintro ⟨Hmw, HB, HO⟩
  isplitl [Hmw]; · iexact Hmw
  isplitl [HB]; · iexact HB
  iexists W'; isplitr
  · ipureintro; exact hW'
  · iexact HO

/-- After loop 2: every delivery, the semaphore at zero. -/
theorem I2_end (O : CellTallies nD τ sig (HIx 1)) (W : Waits sig (HIx 1)) (Dl : Fin 512 → sProp 𝕄) (u : PUnit) :
    I2 d L O W Dl k0_t2_loop.trips u
      ⊢ iprop(bigSep Finset.univ Dl ∗ semVal (cAcell d L) 0 ∗ ∃ W', ⌜∀ p ∈ W', p ∈ W ∨ p.2 = none⌝ ∗ owes (thr d L) O W') := by
  rw [trips2]
  unfold I2
  rw [if_neg (by decide : ¬ 32 < 32)]
  iintro ⟨-, ⟨HD, Hs⟩, HO⟩
  isplitl [HD]; · iexact HD
  isplitl [Hs]; · iexact Hs
  iexact HO

theorem I3_zero (fR : Buf (Elt F) (srLoc d L)) (fp : Buf (Elt F) (spLoc d L)) :
    (iprop((srLoc d L ↦{fullShare} fR) ∗ (spLoc d L ↦{fullShare} fp)) : sProp 𝕄) ⊢ I3 d L fR 0 ⟨⟩ := by
  unfold I3
  iintro ⟨Hsr, Hsp⟩
  isplitl [Hsr]; · iexact Hsr
  iexists fp
  isplitl [Hsp]; · iexact Hsp
  ipureintro; intro q x h; exact absurd h (Nat.not_lt_zero _)

/-- After loop 3: the packing scratch holds the packing of the rows. -/
theorem I3_end (fR : Buf (Elt F) (srLoc d L)) (u : PUnit) :
    I3 d L fR k0_t3_loop.trips u ⊢ (iprop((srLoc d L ↦{fullShare} fR) ∗ (spLoc d L ↦{fullShare} packRows d L fR)) : sProp 𝕄) := by
  rw [trips3]
  unfold I3
  iintro ⟨Hsr, %fP, Hsp, %h⟩
  have e : fP = packRows d L fR := by
    funext i
    obtain ⟨q, x, rfl⟩ : ∃ (q : Fin 256) (x : Fin 128), i = ix2 q x := ⟨i 0, i 1, eq_ix2 i⟩
    exact h q x q.isLt
  subst e
  isplitl [Hsr]; · iexact Hsr
  iexact Hsp

/-! ## The body -/

theorem tile_body (hF : (K (F := F)).Facts) (hpre : PreOK m)
    (h1 : ∀ d L, Trip1 (F := F) d L) (h2 : ∀ d L, Trip2 (F := F) d L) (h3 : ∀ d L, Trip3 (F := F) d L)
    (hco : CopyOut (F := F)) (hfv : FinalValue (F := F)) : TileBody m := by
  intro d L O W hO
  show iprop(levAts (K (F := F)).L (K (F := F)).lev ∗ goRes m d (cL L) (sL L)
        ∗ scopedBufs (thr d L) ∗ scopedSems0 (thr d L) ∗ owes (thr d L) O W)
      ⊢ wp frame (wpE (defs₀ (F := F)) 𝒱₀ (thr d L) none) Set.univ
          (cc0_gather_kernel L aV (Memref.isWhole_whole _) kV (Memref.isWhole_whole _) oV (Memref.isWhole_whole _)
            sK (Memref.isWhole_whole _) sR (Memref.isWhole_whole _) sP (Memref.isWhole_whole _) cc0_scratch3 cc0_scoped0 cc0_scoped1)
          fun _ => iprop(tdRes m d (cL L) (sL L) ∗ scopedBufs (thr d L) ∗ scopedSems0 (thr d L)
            ∗ ∃ W', ⌜∀ p ∈ W', p ∈ W ∨ p.2 = none⌝ ∗ owes (thr d L) O W')
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V]
  unfold goRes
  iintro ⟨#Hlv, ⟨Ha, Hk, Ho⟩, ⟨⟨%fk, Hsk⟩, ⟨%fr, Hsr⟩, ⟨%fp, Hsp⟩, Hbufs⟩, ⟨HsemA, HsemB, HsemC, Hsems⟩, HO⟩
  ihave Hmw := ((K (F := F)).mayWaits_none (thr := thr d L) hO) $$ Hlv
  ihave Hk' := (Entails.of_eq (pts_k (F := F) d L _ _).symm) $$ Hk
  ihave Hsk' := (Entails.of_eq (pts_sK (F := F) d L _).symm) $$ Hsk
  -- the keys in, and the wait for them
  sl_exec
  have hW1 : ∀ p ∈ insert (SemLoc.dma cc0_scoped0.sem, (default : HIx 1)) W, p ∈ W ∨ p.2 = none := by
    intro p hp
    rcases Finset.mem_insert.mp hp with hp | hp
    · exact .inr (hp ▸ rfl)
    · exact .inl hp
  have hks : ∀ t, (ksOf m d L fk t).toNat < 1000000 := ksOf_lt m d L hpre fk
  -- loop 1: the 512 copies started
  imod (Transfers.batch_alloc' (EC (F := F)) (thr d L) (none : HIx 1) NR (Dlv d L (m (aLoc d)) (ksOf m d L fk)) (sm := .dma cc0_scratch3.sem) (E := Set.univ)) $$ HsemA with HB
  ihave Ha' := (Entails.of_eq (pts_a (F := F) d L _ _).symm) $$ Ha
  sl_for (I1 d L O (m (aLoc d)) (ksOf m d L fk) fr) $$ [Hmw Hsk' HB Ha' Hsr]
  case region =>
    intro k u
    exact h1 d L O (m (aLoc d)) (ksOf m d L fk) fr hks k u
  · iapply (I1_zero (F := F) d L O (m (aLoc d)) (ksOf m d L fk) fr)
    isplitl [Hmw]; · iexact Hmw
    isplitl [Hsk']; · iexact Hsk'
    isplitl [HB]; · iexact HB
    isplitl [Ha']; · iexact Ha'
    iexact Hsr
  iintro %u1 HI
  ihave HI' := (I1_end (F := F) d L O (m (aLoc d)) (ksOf m d L fk) fr u1) $$ HI
  icases HI' with ⟨Hsk, HB⟩
  -- loop 2: the 512 waits
  sl_for (I2 d L O W (Dlv d L (m (aLoc d)) (ksOf m d L fk))) $$ [Hmw HB HO]
  case region =>
    intro k u
    exact h2 d L O W (Dlv d L (m (aLoc d)) (ksOf m d L fk)) k u
  · iapply (I2_zero (F := F) d L O W (Dlv d L (m (aLoc d)) (ksOf m d L fk)) _ hW1)
    isplitl [Hmw]; · iexact Hmw
    isplitl [HB]; · iexact HB
    iexact HO
  iintro %u2 HI
  ihave HI' := (I2_end (F := F) d L O W (Dlv d L (m (aLoc d)) (ksOf m d L fk)) u2) $$ HI
  icases HI' with ⟨HD, HsemA, %W2, %hW2, HO⟩
  ihave Hsr := (rows_join (F := F) d L (m (aLoc d)) (ksOf m d L fk)) $$ HD
  -- loop 3: the packing
  sl_for (I3 d L (rowsOf d L (m (aLoc d)) (ksOf m d L fk))) $$ [Hsr Hsp]
  case region =>
    intro k u
    exact h3 d L (rowsOf d L (m (aLoc d)) (ksOf m d L fk)) k u
  · iapply (I3_zero (F := F) d L (rowsOf d L (m (aLoc d)) (ksOf m d L fk)) fp)
    isplitl [Hsr]; · iexact Hsr
    iexact Hsp
  iintro %u3 HI
  ihave HI' := (I3_end (F := F) d L (rowsOf d L (m (aLoc d)) (ksOf m d L fk)) u3) $$ HI
  icases HI' with ⟨Hsr, Hsp⟩
  -- the copy-out
  have hkeys : ∀ t : Fin 512, ksOf m d L fk (ix1 t) = m (kLoc d) (ix1 (⟨512 * (wOf (cL L) (sL L)).val + t.val, by
      have := (wOf (cL L) (sL L)).isLt; have := t.isLt; omega⟩ : Fin 16384)) := fun t => by
    rw [ksOf_apply, keyRect_emb]
  iapply (wp_wand_r frame (wpE (defs₀ (F := F)) 𝒱₀ (thr d L) none) Set.univ (p := tailProg (F := F) L))
  isplitl [Hsp Ho HsemC HO]
  · iapply (hco d L O W2 (packRows d L (rowsOf d L (m (aLoc d)) (ksOf m d L fk))) (m (oLoc d)))
    isplitl [Hmw]; · iexact Hmw
    isplitl [Hsp]; · iexact Hsp
    isplitl [Ho]; · iexact Ho
    isplitl [HsemC]; · iexact HsemC
    iexact HO
  iintro %_ ⟨Hsp, Ho, HsemC, %W3, %hW3, HO⟩
  -- the block holds the specification
  ihave Ho' := (Entails.of_eq (pointsTo_congr (q := fullShare) (hfv d L (m (aLoc d)) (ksOf m d L fk) (m (kLoc d)) hkeys))) $$ Ho
  isplitl [Ho']; · unfold tdRes; iexact Ho'
  isplitl [Hsk Hsr Hsp Hbufs]
  · isplitl [Hsk]; · iexists _; iexact Hsk
    isplitl [Hsr]; · iexists _; iexact Hsr
    isplitl [Hsp]; · iexists _; iexact Hsp
    iexact Hbufs
  isplitl [HsemA HsemB HsemC Hsems]
  · isplitl [HsemA]; · iexact HsemA
    isplitl [HsemB]; · iexact HsemB
    isplitl [HsemC]; · iexact HsemC
    iexact Hsems
  iexists W3; isplitr
  · ipureintro; intro p hp
    rcases hW3 p hp with h | h
    · exact hW2 p h
    · exact .inr h
  · iexact HO

end Cert.Proof.Body

end
-- ==== Proof.Loop2.lean ====
/-
  Loop 2 of one worker's body: the waits that drain the batch of 512 row copies.

  Every one of the 512 copies was started on one semaphore before any wait. A wait for one row's amount that is not
  the batch's last tells the waiter nothing about any row: the amounts it consumed may be instalments of several
  copies. Only the wait that brings the amount consumed to 512 rows' worth knows that every copy has paid in full,
  hence landed, and hands back every delivery with the semaphore at zero. Trip `k` of the loop makes waits
  `16 k … 16 k + 15`; the last wait of the batch is the sixteenth wait of trip 31, so the trips `k < 31` only move the
  amount consumed from `16 k` rows to `16 (k + 1)` rows, and trip 31 ends holding the deliveries.
-/
import proofs.«210825_g74526272520993_cont_9to1_m_1216_21_alg».proof.Proof.BodyDefs

noncomputable section

namespace Cert.Proof.Loop2

open Cert.KernelIdeal Cert.KernelIdeal.Gen Cert.Proof.Iface Cert.Proof.BodyDefs

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- Recording one more wait at no call's index keeps the record within "in `W`, or at no call's index". -/
theorem mem_ins {W W' : Waits sig (HIx 1)} {x : SemLoc sig × HIx 1} (hx : x.2 = none)
    (h : ∀ p ∈ W', p ∈ W ∨ p.2 = none) : ∀ p ∈ insert x W', p ∈ W ∨ p.2 = none := by
  intro p hp
  rcases Finset.mem_insert.mp hp with hp | hp
  · exact .inr (hp ▸ hx)
  · exact h p hp

/-- Sixteen more rows' amounts on top of `16 k` rows' are `16 (k + 1)` rows'. -/
theorem consumed_succ (k : ℕ) :
    16 * (k + 1) * NR
      = 16 * k * NR + NR + NR + NR + NR + NR + NR + NR + NR + NR + NR + NR + NR + NR + NR + NR + NR := by
  ring

variable [FloatOps F]

/-- One trip of loop 2: sixteen waits of one row's amount. Before trip 31 none of them is the batch's last; the
    sixteenth wait of trip 31 is, and returns every delivery and the semaphore at zero. -/
theorem trip2 (d : Dev nD) (L : grid0.Coords) : Trip2 (F := F) d L := by
  intro O W Dl k u
  have hk32 : k.val < 32 := Nat.lt_of_lt_of_le k.isLt k0_t2_abs.2.1
  unfold k0_t2_body
  by_cases hk : k.val = 31
  · -- the last trip: its sixteenth wait brings the amount consumed to 512 rows'
    unfold I2
    rw [if_pos hk32, if_neg (show ¬ k.val + 1 < 32 by omega)]
    iintro ⟨#Hmw, HB, %W', %hW', HO⟩
    sl_exec
    sl_step
    isplitr; · iexact Hmw
    isplitl [HB_all HB]
    · isplitl [HB_all]; · iexact HB_all
      iexact HB
    iexists _; isplitr
    on_goal 2 => iexact HO
    ipureintro
    repeat (first | exact hW' | refine mem_ins rfl ?_)
  · -- an earlier trip: sixteen waits short of the last
    have hk31 : k.val < 31 := by omega
    unfold I2
    rw [if_pos hk32, if_pos (show k.val + 1 < 32 by omega), consumed_succ k.val]
    iintro ⟨#Hmw, HB, %W', %hW', HO⟩
    sl_exec
    sl_step
    isplitr; · iexact Hmw
    isplitl [HB]; · iexact HB
    iexists _; isplitr
    on_goal 2 => iexact HO
    ipureintro
    repeat (first | exact hW' | refine mem_ins rfl ?_)

end Cert.Proof.Loop2

end
-- ==== Proof.Loop3Val.lean ====
/-
  The end of one worker's body, the pure part: the copy-out's destination is the worker's own block of the packed
  array, and what the block then holds is the specification.

  Worker `w = 2 s + c` copies its packing scratch to packed rows `256 w … 256 w + 255`. Packed row `r` of that block
  is scratch row `r - 256 w = r % 256`; scratch row `q`, column `x` is row `2 q + x / 64`, column `x % 64` of the row
  scratch, which is column `x % 64` of the table row that the worker's key number `2 q + x / 64`, the launch's key
  number `512 w + 2 q + x / 64 = 2 r + x / 64`, names.
-/
import proofs.«210825_g74526272520993_cont_9to1_m_1216_21_alg».proof.Proof.BodyDefs

noncomputable section

namespace Cert.Proof.Loop3

open Cert.KernelIdeal Cert.KernelIdeal.Gen Cert.Proof.Iface Cert.Proof.BodyDefs

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The copy-out's destination rectangle is block `2 s + c` of the cut of the packed array into 32 blocks of rows. -/
theorem out_rect_eq (L : grid0.Coords) :
    Rect.unit (s := S8192x128) (k0_off53 L) S256x128.size (k0_off53_inb L) = outRect (wOf (cL L) (sL L)) := by
  unfold outRect Rect.part Rect.block
  congr 1 <;> funext a
  · rw [k0_off53_eq]
    match a with
    | 0 => simp [Shape.partIx, Shape.partSize, wOf]; omega
    | 1 => simp [Shape.partIx, Shape.partSize]
  · match a with
    | 0 => simp [Shape.partSize]
    | 1 => simp [Shape.partSize]

/-- The copy-out writes exactly the worker's block. -/
theorem out_set_eq (L : grid0.Coords) :
    ((oV : Memref sig .scVector .hbm S8192x128 .f32).slice (Rect.unit (s := S8192x128) (k0_off53 L) S256x128.size (k0_off53_inb L)) (fun _ => rfl)).view.set
      = outSet (wOf (cL L) (sL L)) := by
  show ((oV : Memref sig .scVector .hbm S8192x128 .f32).view.slice (Rect.unit (s := S8192x128) (k0_off53 L) S256x128.size (k0_off53_inb L))).set
    = ((oV : Memref sig .scVector .hbm S8192x128 .f32).view.slice (outRect (wOf (cL L) (sL L)))).set
  rw [out_rect_eq]

/-- Membership in the worker's block: the row lies in `256 w … 256 w + 255`. -/
theorem mem_outSet {w : Fin 32} {i : S8192x128.Idx} (hi : i ∈ outSet w) :
    256 * w.val ≤ (i 0 : Fin 8192).val ∧ (i 0 : Fin 8192).val < 256 * w.val + 256 := by
  have hi' : i ∈ (outRect w).set := by
    have h : i ∈ ((View.whole main_v0_scv : View sig .scVector .hbm S8192x128 .f32).slice (outRect w)).set := hi
    rwa [View.set_slice_whole] at h
  have h0 := (Rect.mem_set_unit.mp hi') 0
  simp [Shape.partIx, Shape.partSize] at h0
  omega

/-- What the worker's block holds after the copy-out, when the row scratch held the table rows its keys name and
    the packing scratch their packing: the specification. -/
theorem final_value (d : Dev nD) (L : grid0.Coords) (ma : Buf (Elt F) (avLoc d L)) (ks : Buf (Elt F) (skLoc d L))
    (keys : Buf (Elt F) (kLoc d))
    (hks : ∀ t : Fin 512, ks (ValueIdx.ix1 t) = keys (ValueIdx.ix1 (⟨512 * (wOf (cL L) (sL L)).val + t.val, by
      have := (wOf (cL L) (sL L)).isLt; have := t.isLt; omega⟩ : Fin 16384))) :
    ∀ i ∈ outSet (wOf (cL L) (sL L)),
      blockOf d L (packRows d L (rowsOf d L ma ks)) i = Cert.Spec.Gp (E := Elt F .f32) ma keys i := by
  intro i hi
  obtain ⟨hlo, hhi⟩ := mem_outSet hi
  have hw : (wOf (cL L) (sL L)).val < 32 := (wOf (cL L) (sL L)).isLt
  have hx : (i 1 : Fin 128).val < 128 := (i 1).isLt
  have hq : (i 0 : Fin 8192).val % 256 < 256 := Nat.mod_lt _ (by decide)
  have hkey : 512 * (wOf (cL L) (sL L)).val + (2 * ((i 0 : Fin 8192).val % 256) + (i 1 : Fin 128).val / 64)
      = 2 * (i 0 : Fin 8192).val + (i 1 : Fin 128).val / 64 := by omega
  show ma (ix2 (Cert.Spec.rowOf (ks (ix1 (⟨2 * ((i 0 : Fin 8192).val % 256) + (i 1 : Fin 128).val / 64, by omega⟩ : Fin 512))))
        (⟨(i 1 : Fin 128).val % 64, Nat.mod_lt _ (by decide)⟩ : Fin 64))
    = ma (ix2 (Cert.Spec.rowOf (keys (ix1 (⟨2 * (i 0 : Fin 8192).val + (i 1 : Fin 128).val / 64, by omega⟩ : Fin 16384))))
        (⟨(i 1 : Fin 128).val % 64, Nat.mod_lt _ (by decide)⟩ : Fin 64))
  rw [hks]
  exact congrArg (fun t : Fin 16384 => ma (ix2 (Cert.Spec.rowOf (keys (ix1 t)))
    (⟨(i 1 : Fin 128).val % 64, Nat.mod_lt _ (by decide)⟩ : Fin 64))) (Fin.ext hkey)

end Cert.Proof.Loop3

end
-- ==== Proof.Loop3Trip.lean ====
/-
  One trip of the packing loop.

  Trip `k` reads rows `2 k` and `2 k + 1` of the row scratch sixteen lanes at a time and stores them side by side in
  row `k` of the packing scratch: lanes `16 g …` of row `2 k + h` go to lanes `64 h + 16 g …` (`h < 2`, `g < 4`).
  Each stored vector is the loaded one (two shape casts that undo each other). So after the eight stores row `k`
  of the packing scratch is the packing of rows `2 k`, `2 k + 1` (the eight pieces cover its 128 lanes, and each
  agrees with the packing where it lands), and the rows below `k`, which no store touches, are as before.
-/
import proofs.«210825_g74526272520993_cont_9to1_m_1216_21_alg».proof.Proof.BodyDefs
import Idealize.ShloMosaic.Lib.Pipeline.Value

noncomputable section

namespace Cert.Proof.Loop3

open Cert.KernelIdeal Cert.KernelIdeal.Gen Cert.Proof.Iface Cert.Proof.BodyDefs

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)

/-- Sixteen lanes read at row `2 k + h`, lanes `16 g …` of the row scratch are what the packing puts at row `k`,
    lanes `64 h + 16 g …` of the packing scratch. -/
theorem piece_eq (fR : Buf (Elt F) (srLoc d L)) (k : ℕ) (h g : ℕ) (hh : h < 2) (hg : g < 4)
    {offR offP : Fin 2 → ℕ} (eR : offR = ![2 * k + h, 16 * g]) (eP : offP = ![k, 64 * h + 16 * g])
    (inbR : ∀ a, offR a + S1x16.size a ≤ S512x64.size a) (inbP : ∀ a, offP a + S1x16.size a ≤ S256x128.size a)
    (x : S1x16.Idx) :
    View.readAt (Elt F) (sR : Memref sig .scVector .vmem S512x64 .f32).view (Rect.unit (s := S512x64) offR S1x16.size inbR).toLoadRect fR x
      = packRows d L fR ((Rect.unit (s := S256x128) offP S1x16.size inbP).emb x) := by
  subst eR eP
  have hx0 : (x 0 : Fin 1).val < 1 := (x 0).isLt
  have hx1 : (x 1 : Fin 16).val < 16 := (x 1).isLt
  show fR ((Rect.unit (s := S512x64) ![2 * k + h, 16 * g] S1x16.size inbR).toLoadRect.idx x) = _
  unfold packRows
  refine congrArg fR (funext fun a => Fin.ext ?_)
  match a with
  | 0 => simp; omega
  | 1 => simp; omega

/-- The vector a store of the trip writes: the loaded one, cast to sixteen lanes and back. -/
theorem pay_eq (fR : Buf (Elt F) (srLoc d L)) (k : ℕ) (h g : ℕ) (hh : h < 2) (hg : g < 4)
    {offR offP : Fin 2 → ℕ} (eR : offR = ![2 * k + h, 16 * g]) (eP : offP = ![k, 64 * h + 16 * g])
    (inbR : ∀ a, offR a + S1x16.size a ≤ S512x64.size a) (inbP : ∀ a, offP a + S1x16.size a ≤ S256x128.size a)
    (h1 : S1x16.ShapeCasts S16) (h2 : S16.ShapeCasts S1x16) (x : S1x16.Idx) :
    shapeCast S1x16 (shapeCast S16 (View.readAt (Elt F) (sR : Memref sig .scVector .vmem S512x64 .f32).view
        (Rect.unit (s := S512x64) offR S1x16.size inbR).toLoadRect fR) h1) h2 x
      = packRows d L fR ((Rect.unit (s := S256x128) offP S1x16.size inbP).emb x) := by
  rw [shapeCast_shapeCast]
  exact piece_eq d L fR k h g hh hg eR eP inbR inbP x

/-- Which elements of the packing scratch a store of sixteen lanes at row `k`, lane `c` covers. -/
theorem mem_piece_iff (k c : ℕ) {offP : Fin 2 → ℕ} (eP : offP = ![k, c])
    (inbP : ∀ a, offP a + S1x16.size a ≤ S256x128.size a) (q : Fin 256) (x : Fin 128) :
    (ix2 q x : S256x128.Idx) ∈ (Rect.unit (s := S256x128) offP S1x16.size inbP).set
      ↔ q.val = k ∧ c ≤ x.val ∧ x.val < c + 16 := by
  subst eP
  have e0 : ((ix2 q x : S256x128.Idx) 0).val = q.val := rfl
  have e1 : ((ix2 q x : S256x128.Idx) 1).val = x.val := rfl
  rw [Rect.mem_set_unit]
  constructor
  · intro hm
    have h0 := hm 0
    have h1 := hm 1
    simp at h0 h1
    omega
  · rintro ⟨hq, hlo, hhi⟩ a
    match a with
    | 0 => simp; omega
    | 1 => simp; omega

variable [FloatOps F]

theorem trip3 : Trip3 (F := F) d L := by
  intro fR k u
  unfold I3 k0_t3_body srLoc spLoc
  iintro ⟨HsR, %fP, HsP, %hP⟩
  sl_exec
  sl_step
  isplitl [HsR]; · iexact HsR
  iexists _; isplitl [HsP]; · iexact HsP
  ipureintro
  intro q x hq
  -- reading the packing scratch through its whole view is reading its contents
  have key : ∀ (g : Buf (Elt F) (spLoc d L)) (y : S256x128.Idx),
      g y = View.read (Elt F) (sP : Memref sig .scVector .vmem S256x128 .f32).view g y := fun _ _ => rfl
  refine (key _ _).trans ?_
  rcases Nat.lt_or_ge q.val k.val with hlt | hge
  · -- a row below `k`: no store of this trip touches it
    refine (View.read_writes_apply_of_forall_not_mem (sP : Memref sig .scVector .vmem S256x128 .f32).view fP
      (ix2 q x : S256x128.Idx) _ ?_).trans (hP q x hlt)
    intro p hp
    simp only [List.mem_cons, List.not_mem_nil, _root_.or_false] at hp
    rcases hp with rfl | rfl | rfl | rfl | rfl | rfl | rfl | rfl
    · exact fun hm => absurd ((mem_piece_iff k.val 112 (k0_off52_eq k) (k0_off52_inb k) q x).mp hm).1 (by omega)
    · exact fun hm => absurd ((mem_piece_iff k.val 48 (k0_off50_eq k) (k0_off50_inb k) q x).mp hm).1 (by omega)
    · exact fun hm => absurd ((mem_piece_iff k.val 96 (k0_off48_eq k) (k0_off48_inb k) q x).mp hm).1 (by omega)
    · exact fun hm => absurd ((mem_piece_iff k.val 32 (k0_off46_eq k) (k0_off46_inb k) q x).mp hm).1 (by omega)
    · exact fun hm => absurd ((mem_piece_iff k.val 80 (k0_off44_eq k) (k0_off44_inb k) q x).mp hm).1 (by omega)
    · exact fun hm => absurd ((mem_piece_iff k.val 16 (k0_off42_eq k) (k0_off42_inb k) q x).mp hm).1 (by omega)
    · exact fun hm => absurd ((mem_piece_iff k.val 64 (k0_off40_eq k) (k0_off40_inb k) q x).mp hm).1 (by omega)
    · exact fun hm => absurd ((mem_piece_iff k.val 0 (k0_off38_eq k) (k0_off38_inb k) q x).mp hm).1 (by omega)
  · -- row `k`: the eight pieces cover it, and each is the packing where it lands
    have hqk : q.val = k.val := by omega
    refine View.read_writes_apply_of_pieces (sP : Memref sig .scVector .vmem S256x128 .f32).view fP (packRows d L fR) _ ?_
      (ix2 q x : S256x128.Idx) ?_
    · intro p hp
      simp only [List.mem_cons, List.not_mem_nil, _root_.or_false] at hp
      rcases hp with rfl | rfl | rfl | rfl | rfl | rfl | rfl | rfl
      · exact pay_eq d L fR k.val 1 3 (by decide) (by decide) (k0_off51_eq k) (k0_off52_eq k) (k0_off51_inb k) (k0_off52_inb k) shapeCasts_S1x16_S16 shapeCasts_S16_S1x16
      · exact pay_eq d L fR k.val 0 3 (by decide) (by decide) (k0_off49_eq k) (k0_off50_eq k) (k0_off49_inb k) (k0_off50_inb k) shapeCasts_S1x16_S16 shapeCasts_S16_S1x16
      · exact pay_eq d L fR k.val 1 2 (by decide) (by decide) (k0_off47_eq k) (k0_off48_eq k) (k0_off47_inb k) (k0_off48_inb k) shapeCasts_S1x16_S16 shapeCasts_S16_S1x16
      · exact pay_eq d L fR k.val 0 2 (by decide) (by decide) (k0_off45_eq k) (k0_off46_eq k) (k0_off45_inb k) (k0_off46_inb k) shapeCasts_S1x16_S16 shapeCasts_S16_S1x16
      · exact pay_eq d L fR k.val 1 1 (by decide) (by decide) (k0_off43_eq k) (k0_off44_eq k) (k0_off43_inb k) (k0_off44_inb k) shapeCasts_S1x16_S16 shapeCasts_S16_S1x16
      · exact pay_eq d L fR k.val 0 1 (by decide) (by decide) (k0_off41_eq k) (k0_off42_eq k) (k0_off41_inb k) (k0_off42_inb k) shapeCasts_S1x16_S16 shapeCasts_S16_S1x16
      · exact pay_eq d L fR k.val 1 0 (by decide) (by decide) (k0_off39_eq k) (k0_off40_eq k) (k0_off39_inb k) (k0_off40_inb k) shapeCasts_S1x16_S16 shapeCasts_S16_S1x16
      · exact pay_eq d L fR k.val 0 0 (by decide) (by decide) (k0_off37_eq k) (k0_off38_eq k) (k0_off37_inb k) (k0_off38_inb k) shapeCasts_S1x16_S16 shapeCasts_S16_S1x16
    · have hx : x.val < 128 := x.isLt
      have hmem : ∀ (c : ℕ) {offP : Fin 2 → ℕ} (eP : offP = ![k.val, c]) (inbP : ∀ a, offP a + S1x16.size a ≤ S256x128.size a),
          c ≤ x.val → x.val < c + 16 → (ix2 q x : S256x128.Idx) ∈ (Rect.unit (s := S256x128) offP S1x16.size inbP).set :=
        fun c _ eP inbP h1 h2 => (mem_piece_iff k.val c eP inbP q x).mpr ⟨hqk, h1, h2⟩
      rcases (show x.val / 16 = 0 ∨ x.val / 16 = 1 ∨ x.val / 16 = 2 ∨ x.val / 16 = 3 ∨ x.val / 16 = 4 ∨ x.val / 16 = 5
          ∨ x.val / 16 = 6 ∨ x.val / 16 = 7 by omega) with h | h | h | h | h | h | h | h
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), hmem 0 (k0_off38_eq k) (k0_off38_inb k) (by omega) (by omega)⟩
      · exact ⟨_, List.mem_cons_of_mem _ (List.mem_cons_of_mem _ (List.mem_cons_of_mem _ (List.mem_cons_of_mem _ (List.mem_cons_of_mem _ (List.mem_cons_self))))), hmem 16 (k0_off42_eq k) (k0_off42_inb k) (by omega) (by omega)⟩
      · exact ⟨_, List.mem_cons_of_mem _ (List.mem_cons_of_mem _ (List.mem_cons_of_mem _ (List.mem_cons_self))), hmem 32 (k0_off46_eq k) (k0_off46_inb k) (by omega) (by omega)⟩
      · exact ⟨_, List.mem_cons_of_mem _ (List.mem_cons_self), hmem 48 (k0_off50_eq k) (k0_off50_inb k) (by omega) (by omega)⟩
      · exact ⟨_, List.mem_cons_of_mem _ (List.mem_cons_of_mem _ (List.mem_cons_of_mem _ (List.mem_cons_of_mem _ (List.mem_cons_of_mem _ (List.mem_cons_of_mem _ (List.mem_cons_self)))))), hmem 64 (k0_off40_eq k) (k0_off40_inb k) (by omega) (by omega)⟩
      · exact ⟨_, List.mem_cons_of_mem _ (List.mem_cons_of_mem _ (List.mem_cons_of_mem _ (List.mem_cons_of_mem _ (List.mem_cons_self)))), hmem 80 (k0_off44_eq k) (k0_off44_inb k) (by omega) (by omega)⟩
      · exact ⟨_, List.mem_cons_of_mem _ (List.mem_cons_of_mem _ (List.mem_cons_self)), hmem 96 (k0_off48_eq k) (k0_off48_inb k) (by omega) (by omega)⟩
      · exact ⟨_, List.mem_cons_self, hmem 112 (k0_off52_eq k) (k0_off52_inb k) (by omega) (by omega)⟩

end Cert.Proof.Loop3

end
-- ==== Proof.Loop3Out.lean ====
/-
  The copy-out: the packing scratch goes to the worker's block of the packed array.

  The worker starts one copy of the whole packing scratch onto rows `256 w … 256 w + 255` of the packed array and
  waits for it on a semaphore of its own. After the wait the block holds the scratch: packed row `r` of the block is
  scratch row `r - 256 w = r % 256`.
-/
import proofs.«210825_g74526272520993_cont_9to1_m_1216_21_alg».proof.Proof.BodyDefs
import proofs.«210825_g74526272520993_cont_9to1_m_1216_21_alg».proof.Proof.Loop3Val

noncomputable section

namespace Cert.Proof.Loop3

open Cert.KernelIdeal Cert.KernelIdeal.Gen Cert.Proof.Iface Cert.Proof.BodyDefs

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)

/-- The worker's block of the packed array, as the copy-out slices it. -/
abbrev outM : Memref sig .scVector .hbm S256x128 .f32 :=
  (oV : Memref sig .scVector .hbm S8192x128 .f32).slice (Rect.unit (s := S8192x128) (k0_off53 L) S256x128.size (k0_off53_inb L)) (fun _ => rfl)

/-- The end of the worker's program: the copy-out, its wait, the return. -/
def tailProg : Prog (TpuEff nD τ sig (Elt F) Λ₀ (.scVector ((L 0).castLE hcore0) ((L 1).castLE hsub0))) PUnit := do
  let v9_r1 : Memref sig .scVector .hbm S256x128 .f32 := (oV : Memref sig .scVector .hbm S8192x128 .f32).slice (Rect.unit (s := S8192x128) (k0_off53 L) S256x128.size (k0_off53_inb L)) (fun _ => rfl)
  Prog.lift (.enqueueDma (sP : Memref sig .scVector .vmem S256x128 .f32) (.here v9_r1) (.dma cc0_scoped1.sem) (Memref.isWhole_whole _).wordExact (View.wordExact_bits rfl) ⟨Or.inl rfl, trivial⟩)
  let v11_r1 : Memref sig .scVector .hbm S256x128 .f32 := (oV : Memref sig .scVector .hbm S8192x128 .f32).slice (Rect.unit (s := S8192x128) (k0_off53 L) S256x128.size (k0_off53_inb L)) (fun _ => rfl)
  Prog.lift (.waitDma2 cc0_scoped1.sem (sP : Memref sig .scVector .vmem S256x128 .f32) v11_r1 (Memref.isWhole_whole _).wordExact (View.wordExact_bits rfl))
  pure ⟨⟩

set_option maxRecDepth 65536 in
/-- The worker's program is the key copy, the three loops, and then `tailProg`. -/
theorem skel_tail :
    cc0_gather_kernel_skel (F := F) L aV (Memref.isWhole_whole _) kV (Memref.isWhole_whole _) oV (Memref.isWhole_whole _) sK (Memref.isWhole_whole _) sR (Memref.isWhole_whole _) sP (Memref.isWhole_whole _) cc0_scratch3 cc0_scoped0 cc0_scoped1
      = (do
          let v9_r0 : Memref sig .scVector .hbm S512 .i32 := (kV : Memref sig .scVector .hbm S16384 .i32).slice (Rect.unit (s := S16384) (k0_off1 L) S512.size (k0_off1_inb L)) (fun _ => rfl)
          Prog.lift (.enqueueDma v9_r0 (.here (sK : Memref sig .scVector .vmem S512 .i32)) (.dma cc0_scoped0.sem) (View.wordExact_bits rfl) (Memref.isWhole_whole _).wordExact ⟨Or.inl rfl, trivial⟩)
          let v11_r0 : Memref sig .scVector .hbm S512 .i32 := (kV : Memref sig .scVector .hbm S16384 .i32).slice (Rect.unit (s := S16384) (k0_off1 L) S512.size (k0_off1_inb L)) (fun _ => rfl)
          Prog.lift (.waitDma2 cc0_scoped0.sem v11_r0 (sK : Memref sig .scVector .vmem S512 .i32) (View.wordExact_bits rfl) (Memref.isWhole_whole _).wordExact)
          Scf.Loop.for k0_t1_loop k0_t1_ok ⟨⟩ (k0_t1_body L aV (Memref.isWhole_whole _) kV (Memref.isWhole_whole _) oV (Memref.isWhole_whole _) sK (Memref.isWhole_whole _) sR (Memref.isWhole_whole _) sP (Memref.isWhole_whole _) cc0_scratch3 cc0_scoped0 cc0_scoped1)
          Scf.Loop.for k0_t2_loop k0_t2_ok ⟨⟩ (k0_t2_body L aV (Memref.isWhole_whole _) kV (Memref.isWhole_whole _) oV (Memref.isWhole_whole _) sK (Memref.isWhole_whole _) sR (Memref.isWhole_whole _) sP (Memref.isWhole_whole _) cc0_scratch3 cc0_scoped0 cc0_scoped1)
          Scf.Loop.for k0_t3_loop k0_t3_ok ⟨⟩ (k0_t3_body L aV (Memref.isWhole_whole _) kV (Memref.isWhole_whole _) oV (Memref.isWhole_whole _) sK (Memref.isWhole_whole _) sR (Memref.isWhole_whole _) sP (Memref.isWhole_whole _) cc0_scratch3 cc0_scoped0 cc0_scoped1)
          tailProg (F := F) L) := rfl

/-- The block held through the slice's own view is the block of the cut into 32. -/
theorem pts_out (f : Buf (Elt F) (oLoc d)) :
    ((outM L).view.loc (thr d L) ↦[(outM L).view.set]{fullShare} f : sProp 𝕄)
      = oLoc d ↦[outSet (wOf (cL L) (sL L))]{fullShare} f := by
  rw [out_set_eq]

/-- After the copy the block holds the packing scratch: the element of the block under index `y` of the copy is
    packed row `256 w + y 0`, whose row of the scratch is `(256 w + y 0) % 256 = y 0`. -/
theorem out_value (fP : Buf (Elt F) (spLoc d L)) (fo : Buf (Elt F) (oLoc d)) (w : S256x128.Idx → Elt F .f32)
    (hw : ∀ y, w y = fP y) :
    ∀ i ∈ (outM L).view.set,
      (outM L).view.writes (Elt F) fo [⟨Rect.whole S256x128, w⟩] i = blockOf d L fP i := by
  intro i hi
  obtain ⟨y, -, rfl⟩ := Finset.mem_map.mp hi
  have h1 := View.read_writes_cons_emb (outM L).view fo (Rect.whole S256x128) w [] y
  rw [Rect.emb_whole_apply] at h1
  refine (show _ = (outM L).view.read (Elt F) _ y from rfl).trans (h1.trans ((hw y).trans ?_))
  -- the element of the packed array under index `y` of the block
  have e0 : (((outM L).view.emb y) 0 : Fin 8192).val = (k0_off53 L) 0 + 1 * (y 0 : Fin 256).val := rfl
  have e1 : (((outM L).view.emb y) 1 : Fin 128).val = (k0_off53 L) 1 + 1 * (y 1 : Fin 128).val := rfl
  rw [k0_off53_eq] at e0 e1
  simp only [Matrix.cons_val_zero, Matrix.cons_val_one, Matrix.head_cons] at e0 e1
  have hy0 : (y 0 : Fin 256).val < 256 := (y 0).isLt
  unfold blockOf
  refine congrArg fP (funext fun a => Fin.ext ?_)
  match a with
  | 0 =>
    show (y 0 : Fin 256).val = (((outM L).view.emb y) 0 : Fin 8192).val % 256
    rw [e0]; omega
  | 1 =>
    show (y 1 : Fin 128).val = (((outM L).view.emb y) 1 : Fin 128).val
    rw [e1]; omega

variable [FloatOps F]

theorem copy_out (O : CellTallies nD τ sig (HIx 1)) (W : Waits sig (HIx 1)) (fP : Buf (Elt F) (spLoc d L)) (fo : Buf (Elt F) (oLoc d)) :
    (iprop(Transfers.MayWaits (thr d L) (none : HIx 1) O ∗ (spLoc d L ↦{fullShare} fP)
        ∗ (oLoc d ↦[outSet (wOf (cL L) (sL L))]{fullShare} fo) ∗ semVal (cCcell d L) 0 ∗ owes (thr d L) O W) : sProp 𝕄)
      ⊢ wp frame (wpE (defs₀ (F := F)) 𝒱₀ (thr d L) none) Set.univ (tailProg (F := F) L)
          (fun _ => iprop((spLoc d L ↦{fullShare} fP) ∗ (oLoc d ↦[outSet (wOf (cL L) (sL L))]{fullShare} blockOf d L fP)
            ∗ semVal (cCcell d L) 0 ∗ ∃ W', ⌜∀ p ∈ W', p ∈ W ∨ p.2 = none⌝ ∗ owes (thr d L) O W')) := by
  unfold tailProg spLoc
  iintro ⟨Hmw, HsP, Ho, Hsem, HO⟩
  ihave Ho' := (Entails.of_eq (pts_out (F := F) d L _).symm) $$ Ho
  sl_exec
  sl_step
  isplitl [HsP]; · iexact HsP
  isplitl [Ho']
  · iapply (Entails.of_eq (pts_out (F := F) d L _))
    iapply (Entails.of_eq (pointsTo_congr (out_value (F := F) d L fP fo _ (fun _ => rfl))))
    iexact Ho'
  isplitl [Hsem]; · iexact Hsem
  iexists (insert (SemLoc.dma cc0_scoped1.sem, (default : HIx 1)) W); isplitr
  · ipureintro; intro p hp
    rcases Finset.mem_insert.mp hp with hp | hp
    · exact .inr (hp ▸ rfl)
    · exact .inl hp
  · iexact HO

end Cert.Proof.Loop3

end
-- ==== Proof.Loop3.lean ====
/-
  The end of one worker's body: a trip of the packing loop (`trip3`), the copy-out of the packing scratch to the
  worker's block of the packed array (`copy_out`, over the program's last lines `tailProg`), that this block is the
  one the launch hands the worker (`out_set_eq`), and that what it then holds is the specification (`final_value`).
-/
import proofs.«210825_g74526272520993_cont_9to1_m_1216_21_alg».proof.Proof.Loop3Val
import proofs.«210825_g74526272520993_cont_9to1_m_1216_21_alg».proof.Proof.Loop3Trip
import proofs.«210825_g74526272520993_cont_9to1_m_1216_21_alg».proof.Proof.Loop3Out
-- ==== Proof.Loop1Geo.lean ====
/-
  Geometry of one row copy: the destination of copy `j` is row `j` of the row scratch, and after the copy that row
  holds the table row the copy read, column by column.
-/
import proofs.«210825_g74526272520993_cont_9to1_m_1216_21_alg».proof.Proof.BodyDefs

noncomputable section

namespace Cert.Proof.Loop1Geo

open Cert.KernelIdeal Cert.KernelIdeal.Gen Cert.Proof.Iface Cert.Proof.BodyDefs

open Idealize.ShloMosaic Idealize.ShloMosaic.ValueIdx
open Idealize.ShloMosaic.SparseCore (S V T)
open Idealize.SL Idealize.SL.RA Idealize.SL.BI
open scoped Idealize.SL.BI

variable {F : FTy → Type}
variable (d : Dev nD) (L : grid0.Coords)

/-- The destination of copy `j`: one row of the row scratch, at offset `(j, 0)`. -/
theorem inbD (j : Fin 512) : ∀ a, (![j.val, 0] : Fin 2 → Nat) a + S1x64.size a ≤ S512x64.size a := by
  have := j.isLt
  intro a; fin_cases a
  · show j.val + 1 ≤ 512; omega
  · show 0 + 64 ≤ 64; omega

/-- The source of a copy: one row of the table, at offset `(r, 0)`. -/
theorem inbS (r : Fin 1000000) : ∀ a, (![r.val, 0] : Fin 2 → Nat) a + S1x64.size a ≤ S1000000x64.size a := by
  have := r.isLt
  intro a; fin_cases a
  · show r.val + 1 ≤ 1000000; omega
  · show 0 + 64 ≤ 64; omega

/-- A unit rectangle of one row at `(j, 0)` is row `j` of the 512-row cut. -/
theorem unit_row_eq (j : Fin 512) (inb) : Rect.unit (s := S512x64) ![j.val, 0] S1x64.size inb = rowR j := by
  unfold rowR Rect.part Rect.block
  congr 1 <;> funext a
  · match a with
    | 0 => simp [Shape.partIx, Shape.partSize]
    | 1 => simp [Shape.partIx, Shape.partSize]
  · match a with
    | 0 => simp [Shape.partSize]
    | 1 => simp [Shape.partSize]

theorem dst_set_eq (j : Fin 512) (inb) :
    ((sR : Memref sig .scVector .vmem S512x64 .f32).slice (Rect.unit (s := S512x64) ![j.val, 0] S1x64.size inb) (fun _ => rfl)).view.set = rowSetR j := by
  show ((sR : Memref sig .scVector .vmem S512x64 .f32).view.slice (Rect.unit (s := S512x64) ![j.val, 0] S1x64.size inb)).set = _
  rw [unit_row_eq]

/-- After copy `j` has landed, row `j` of the row scratch holds row `r` of the table: at an element `i` of that row,
    column `i 1` of table row `r`. -/
theorem row_write_eq (j : Fin 512) (r : Fin 1000000) (fr : Buf (Elt F) (srLoc d L)) (ma : Buf (Elt F) (avLoc d L)) :
    ∀ i ∈ rowSetR j,
      ((sR : Memref sig .scVector .vmem S512x64 .f32).slice (Rect.unit (s := S512x64) ![j.val, 0] S1x64.size (inbD j)) (fun _ => rfl)).view.write (Elt F) fr
        ((ReadAs.same : ReadAs (Elt F) S1x64 .f32 S1x64 .f32).apply
          (((aV : Memref sig .scVector .hbm S1000000x64 .f32).slice (Rect.unit (s := S1000000x64) ![r.val, 0] S1x64.size (inbS r)) (fun _ => rfl)).view.read (Elt F) ma))
        Finset.univ i
      = ma (ix2 r (i 1 : Fin 64)) := by
  intro i hi
  rw [← dst_set_eq j (inbD j)] at hi
  obtain ⟨y, -, rfl⟩ := Finset.mem_map.mp hi
  rw [View.write_emb_of_mem _ _ (Finset.mem_univ y), ReadAs.apply_same, View.read_apply]
  simp only [cast_eq]
  refine congrArg ma (funext fun a => Fin.ext ?_)
  match a with
  | ⟨0, _⟩ =>
    have h1 : (y 0).val < 1 := (y 0).isLt
    have hy : (y 0).val = 0 := by omega
    show r.val + 1 * (y 0).val = r.val
    omega
  | ⟨1, _⟩ =>
    show 0 + 1 * (y 1).val = 0 + 1 * (y 1).val
    rfl

/-- An element of row `j` has first coordinate `j`. -/
theorem row_fst (j : Fin 512) {i : S512x64.Idx} (hi : i ∈ rowSetR j) : (i 0 : Fin 512) = j := by
  rw [← dst_set_eq j (inbD j)] at hi
  obtain ⟨y, -, rfl⟩ := Finset.mem_map.mp hi
  apply Fin.ext
  have h1 : (y 0).val < 1 := (y 0).isLt
  show j.val + 1 * (y 0).val = j.val
  omega

end Cert.Proof.Loop1Geo

end
-- ==== Proof.Loop1Issue.lean ====
/-
  One row copy of loop 1, as a single step on the state of the 512 copies.

  `Pend1 j` is what the worker holds of the copies when `j` of them have been started: the batch at `j` started and
  none waited for, and for every copy `t ≥ j` still to start its read share of the table and row `t` of the row
  scratch. `issue_row` starts copy `j` — the source one table row, at the row the `j`-th key names; the destination
  row `j` of the row scratch — and leaves `Pend1 (j + 1)`: the copy's delivery, fixed when the batch was allocated,
  is row `j` holding the table row `ks j`, which is what the transfer writes because its source row IS `ks j`.
  `lane` is lane `u` of the sixteen keys trip `k` loads, which is key `16 k + u`; it names a row of the table
  because every key does, so the body's range check of it holds (`chk_lane`).
-/
import proofs.«210825_g74526272520993_cont_9to1_m_1216_21_alg».proof.Proof.BodyDefs
import proofs.«210825_g74526272520993_cont_9to1_m_1216_21_alg».proof.Proof.Loop1Geo

noncomputable section

namespace Cert.Proof.Loop1

open Cert.KernelIdeal Cert.KernelIdeal.Gen Cert.Proof.Iface Cert.Proof.BodyDefs Cert.Proof.Loop1Geo

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)

/-- What copy `t` needs before it starts: its read share of the table, and its row of the row scratch. -/
abbrev need (ma : Buf (Elt F) (avLoc d L)) (fr : Buf (Elt F) (srLoc d L)) (t : Fin 512) : sProp 𝕄 :=
  iprop((avLoc d L ↦{qCopy L t} ma) ∗ (srLoc d L ↦[rowSetR t]{fullShare} fr))

/-- The copies' state with `j` of them started. -/
def Pend1 (ma : Buf (Elt F) (avLoc d L)) (ks : Buf (Elt F) (skLoc d L)) (fr : Buf (Elt F) (srLoc d L)) (j : ℕ) : sProp 𝕄 :=
  iprop(Transfers.Batch (EC (F := F)) (thr d L) (.dma cc0_scratch3.sem) (none : HIx 1) NR (Dlv d L ma ks) j 0
    ∗ bigSep (Transfers.pending (n := 512) j) (need d L ma fr))

theorem trips1_le : k0_t1_loop.trips ≤ 32 := k0_t1_abs.2.1

/-- Lane `u` of the sixteen keys loaded at trip `k`. -/
abbrev lane (k : Fin k0_t1_loop.trips) (u : ℕ) (hs : S16.Slices ![u] S1) (ks : Buf (Elt F) (skLoc d L)) : BitVec 32 :=
  extractAt ![0] (extractStridedSlice S1 ![u] (shapeCast S16 ((sK : Memref sig .scVector .vmem S512 .i32).view.readAt (Elt F)
    (Rect.unit (s := S512) (k0_off2 k) S16.size (k0_off2_inb k)).toLoadRect ks) shapeCasts_S16_S16) hs) inpos_S1_p0

theorem lane_bound (k : Fin k0_t1_loop.trips) {u : ℕ} (hu : u < 16) : 16 * k.val + u < 512 := by
  have := k.isLt; have := trips1_le; omega

/-- It is key `16 k + u`. -/
theorem lane_idx (k : Fin k0_t1_loop.trips) (u : ℕ) (hu : u < 16) (hs : S16.Slices ![u] S1) (ks : Buf (Elt F) (skLoc d L)) :
    lane d L k u hs ks = ks (ix1 (⟨16 * k.val + u, lane_bound k hu⟩ : Fin 512)) := by
  simp only [extractAt, extractStridedSlice, shapeCast, View.readAt_apply, Memref.view_whole, View.read_whole]
  refine congrArg ks (funext fun a => Fin.ext ?_)
  obtain rfl : a = 0 := Subsingleton.elim _ _
  rw [LoadRect.idx_apply, Shape.reshapeEquiv_self]
  show (k0_off2 k) 0 + 1 * (u + 0) = 16 * k.val + u
  rw [k0_off2_eq k]
  show 16 * k.val + 1 * (u + 0) = 16 * k.val + u
  omega

variable [FloatOps F]

/-- The invariant of loop 1 is the waits' evidence, the keys, and the copies' state at `16 k`. -/
theorem I1_eq (O : CellTallies nD τ sig (HIx 1)) (ma : Buf (Elt F) (avLoc d L)) (ks : Buf (Elt F) (skLoc d L)) (fr : Buf (Elt F) (srLoc d L)) (k : ℕ) (u : PUnit) :
    I1 d L O ma ks fr k u = iprop(Transfers.MayWaits (thr d L) (none : HIx 1) O ∗ (skLoc d L ↦{fullShare} ks) ∗ Pend1 d L ma ks fr (16 * k)) := by
  unfold I1 Pend1; rfl

/-- A key that names a table row passes the body's range check: one row from that row on lies inside the table. -/
theorem chk_of_lt (v : BitVec 32) (h : v.toNat < 1000000) :
    ∀ a, (![v.toNat, 0] : Fin 2 → Nat) a + S1x64.size a ≤ S1000000x64.size a := by
  intro a; fin_cases a
  · show v.toNat + 1 ≤ 1000000; omega
  · show 0 + 64 ≤ 64; omega

/-- The range check of lane `u` at trip `k` (every `k0_chkN` of the body unfolds to this form). -/
theorem chk_lane (ks : Buf (Elt F) (skLoc d L)) (hks : ∀ t, (ks t).toNat < 1000000) (k : Fin k0_t1_loop.trips) (u : ℕ) (hu : u < 16)
    (hs : S16.Slices ![u] S1) :
    ∀ a, (![(lane d L k u hs ks).toNat, 0] : Fin 2 → Nat) a + S1x64.size a ≤ S1000000x64.size a :=
  chk_of_lt _ (by rw [lane_idx d L k u hu hs ks]; exact hks _)

/-- Copy `j` is started: source one table row at the row `v` that key `j` names, destination row `j` of the row scratch,
    on the copies' semaphore. The offsets are taken as the body computes them, with their closed forms as equations. -/
theorem issue_row {α : Type} (ma : Buf (Elt F) (avLoc d L)) (ks : Buf (Elt F) (skLoc d L)) (fr : Buf (Elt F) (srLoc d L))
    (j : ℕ) (hj : j < 512) (v : BitVec 32) (hv : v.toNat < 1000000) (hvk : v = ks (ix1 (⟨j, hj⟩ : Fin 512)))
    (offS : Fin 2 → Nat) (hoffS : offS = ![v.toNat, 0]) (inbS' : ∀ a, offS a + S1x64.size a ≤ S1000000x64.size a)
    (offD : Fin 2 → Nat) (hoffD : offD = ![j, 0]) (inbD' : ∀ a, offD a + S1x64.size a ≤ S512x64.size a)
    (hsrc : ((aV : Memref sig .scVector .hbm S1000000x64 .f32).slice (Rect.unit (s := S1000000x64) offS S1x64.size inbS') (fun _ => rfl)).view.WordExact)
    (hdst : ((sR : Memref sig .scVector .vmem S512x64 .f32).slice (Rect.unit (s := S512x64) offD S1x64.size inbD') (fun _ => rfl)).view.WordExact)
    (hsem : DmaTarget.Typed (nD := nD) (τ := τ) (p := (thr d L).2) Space.hbm (SemLoc.dma cc0_scratch3.sem)
      (.here ((sR : Memref sig .scVector .vmem S512x64 .f32).slice (Rect.unit (s := S512x64) offD S1x64.size inbD') (fun _ => rfl))))
    (kont : PUnit → Prog (TpuEff nD τ sig (Elt F) Λ₀ (thr d L).2) α) (Q : α → sProp 𝕄) :
    Pend1 d L ma ks fr j
      ⊢ iprop((Pend1 d L ma ks fr (j + 1) -∗ wp frame (wpE (defs₀ (F := F)) 𝒱₀ (thr d L) none) Set.univ (kont ⟨⟩) Q)
          -∗ wp frame (wpE (defs₀ (F := F)) 𝒱₀ (thr d L) none) Set.univ
              (.op (.enqueueDmaAs ((aV : Memref sig .scVector .hbm S1000000x64 .f32).slice (Rect.unit (s := S1000000x64) offS S1x64.size inbS') (fun _ => rfl))
                (.here ((sR : Memref sig .scVector .vmem S512x64 .f32).slice (Rect.unit (s := S512x64) offD S1x64.size inbD') (fun _ => rfl)))
                .same (.dma cc0_scratch3.sem) hsrc hdst hsem) kont) Q) := by
  subst hoffS hoffD
  have hrow : Cert.Spec.rowOf v = (⟨v.toNat, hv⟩ : Fin 1000000) := Fin.ext (Cert.Spec.rowOf_val_of_lt hv)
  -- the copy's delivery: on row j the written contents are the final contents of the row scratch
  have hD : iprop((((sR : Memref sig .scVector .vmem S512x64 .f32).slice (Rect.unit (s := S512x64) ![j, 0] S1x64.size inbD') (fun _ => rfl)).view.loc (thr d L)
          ↦[((sR : Memref sig .scVector .vmem S512x64 .f32).slice (Rect.unit (s := S512x64) ![j, 0] S1x64.size inbD') (fun _ => rfl)).view.set]{fullShare}
            (((sR : Memref sig .scVector .vmem S512x64 .f32).slice (Rect.unit (s := S512x64) ![j, 0] S1x64.size inbD') (fun _ => rfl)).view.write (Elt F) fr
              ((ReadAs.same : ReadAs (Elt F) S1x64 .f32 S1x64 .f32).apply
                (((aV : Memref sig .scVector .hbm S1000000x64 .f32).slice (Rect.unit (s := S1000000x64) ![v.toNat, 0] S1x64.size inbS') (fun _ => rfl)).view.read (Elt F) ma))
              Finset.univ))
        ∗ (((aV : Memref sig .scVector .hbm S1000000x64 .f32).slice (Rect.unit (s := S1000000x64) ![v.toNat, 0] S1x64.size inbS') (fun _ => rfl)).view.loc (thr d L)
          ↦[((aV : Memref sig .scVector .hbm S1000000x64 .f32).slice (Rect.unit (s := S1000000x64) ![v.toNat, 0] S1x64.size inbS') (fun _ => rfl)).view.set]{qCopy L ⟨j, hj⟩} ma))
      ⊢ Dlv d L ma ks (⟨j, hj⟩ : Fin 512) := by
    unfold Dlv
    rw [dst_set_eq (⟨j, hj⟩ : Fin 512) inbD']
    rw [pointsTo_congr (g := rowsOf d L ma ks) (fun i hi => by
      rw [row_write_eq d L (⟨j, hj⟩ : Fin 512) (⟨v.toNat, hv⟩ : Fin 1000000) fr ma i hi]
      have hi0 : (i 0 : Fin 512) = (⟨j, hj⟩ : Fin 512) := row_fst (⟨j, hj⟩ : Fin 512) hi
      unfold rowsOf
      rw [hi0, ← hvk, hrow])]
    iintro ⟨Hd, -⟩
    iexact Hd
  unfold Pend1
  iintro ⟨HB, Hpend⟩ Hk
  ihave Hp := (Entails.of_eq (Transfers.bigSep_pending_step (need d L ma fr) j hj)) $$ Hpend
  icases Hp with ⟨⟨Ha, Hr⟩, Hpend⟩
  ihave Ha' := (pointsTo_split_subset (Finset.subset_univ
    ((aV : Memref sig .scVector .hbm S1000000x64 .f32).slice (Rect.unit (s := S1000000x64) ![v.toNat, 0] S1x64.size inbS') (fun _ => rfl)).view.set)).1 $$ Ha
  icases Ha' with ⟨Hs, -⟩
  ihave Hd := (Entails.of_eq (congrArg (fun st => (srLoc d L ↦[st]{fullShare} fr : sProp 𝕄)) (dst_set_eq (⟨j, hj⟩ : Fin 512) inbD').symm)) $$ Hr
  iapply (Transfers.wp_dmaBatch (EC (F := F)) 𝒱₀ (thr d L) none (none : HIx 1) NR rfl (Finset.Subset.refl _) hj (Nat.zero_le _) hD) $$ [Hs Hd HB]
  · isplitl [Hs]; · iexact Hs
    isplitl [Hd]; · iexact Hd
    iexact HB
  iintro HB
  iapply Hk
  isplitl [HB]; · iexact HB
  iexact Hpend

end Cert.Proof.Loop1

end
-- ==== Proof.Loop1.lean ====
/-
  Loop 1 of one worker's body: one trip starts sixteen row copies.

  Trip `k` loads keys `16 k … 16 k + 15` from the key scratch in one vector. For lane `u = 0 … 15` it takes key
  `16 k + u` out of the vector, checks that it names a row of the table (it does: every key does), and starts the copy
  of that table row into row `16 k + u` of the row scratch, on the one semaphore all 512 copies share. Each start is
  one step on the copies' state: with `j` copies started it consumes copy `j`'s read share of the table and row `j`
  of the row scratch, and leaves `j + 1` started. Sixteen steps take the state from `16 k` to `16 (k + 1)`.
-/
import proofs.«210825_g74526272520993_cont_9to1_m_1216_21_alg».proof.Proof.Loop1Issue

noncomputable section

namespace Cert.Proof.Loop1

open Cert.KernelIdeal Cert.KernelIdeal.Gen Cert.Proof.Iface Cert.Proof.BodyDefs Cert.Proof.Loop1Geo

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)
variable [FloatOps F]

/-- The keys, with their location spelt as the body names the key scratch. -/
theorem pts_sk (ks : Buf (Elt F) (skLoc d L)) :
    ((skLoc d L ↦{fullShare} ks : sProp 𝕄))
      = ((sK : Memref sig .scVector .vmem S512 .i32).view.loc (thr d L) ↦{fullShare} ks) := rfl

/-- Lane `u` of trip `k` names a row of the table, because key `16 k + u` does. -/
theorem lane_lt (ks : Buf (Elt F) (skLoc d L)) (hks : ∀ t, (ks t).toNat < 1000000) (k : Fin k0_t1_loop.trips) (u : ℕ) (hu : u < 16)
    (hs : S16.Slices ![u] S1) : (lane d L k u hs ks).toNat < 1000000 := by
  rw [lane_idx d L k u hu hs ks]; exact hks _

/-- Copy `16 k + u` of trip `k`: its source is the table row that lane `u` names, its destination row `16 k + u` of
    the row scratch. -/
theorem issue_lane {α : Type} (ma : Buf (Elt F) (avLoc d L)) (ks : Buf (Elt F) (skLoc d L)) (fr : Buf (Elt F) (srLoc d L))
    (hks : ∀ t, (ks t).toNat < 1000000) (k : Fin k0_t1_loop.trips) (u : ℕ) (hu : u < 16) (hs : S16.Slices ![u] S1)
    (offS : Fin 2 → Nat) (hoffS : offS = ![(lane d L k u hs ks).toNat, 0]) (inbS' : ∀ a, offS a + S1x64.size a ≤ S1000000x64.size a)
    (offD : Fin 2 → Nat) (hoffD : offD = ![16 * k.val + u, 0]) (inbD' : ∀ a, offD a + S1x64.size a ≤ S512x64.size a)
    (hsrc : ((aV : Memref sig .scVector .hbm S1000000x64 .f32).slice (Rect.unit (s := S1000000x64) offS S1x64.size inbS') (fun _ => rfl)).view.WordExact)
    (hdst : ((sR : Memref sig .scVector .vmem S512x64 .f32).slice (Rect.unit (s := S512x64) offD S1x64.size inbD') (fun _ => rfl)).view.WordExact)
    (hsem : DmaTarget.Typed (nD := nD) (τ := τ) (p := (thr d L).2) Space.hbm (SemLoc.dma cc0_scratch3.sem)
      (.here ((sR : Memref sig .scVector .vmem S512x64 .f32).slice (Rect.unit (s := S512x64) offD S1x64.size inbD') (fun _ => rfl))))
    (kont : PUnit → Prog (TpuEff nD τ sig (Elt F) Λ₀ (thr d L).2) α) (Q : α → sProp 𝕄) :
    Pend1 d L ma ks fr (16 * k.val + u)
      ⊢ iprop((Pend1 d L ma ks fr (16 * k.val + u + 1) -∗ wp frame (wpE (defs₀ (F := F)) 𝒱₀ (thr d L) none) Set.univ (kont ⟨⟩) Q)
          -∗ wp frame (wpE (defs₀ (F := F)) 𝒱₀ (thr d L) none) Set.univ
              (.op (.enqueueDmaAs ((aV : Memref sig .scVector .hbm S1000000x64 .f32).slice (Rect.unit (s := S1000000x64) offS S1x64.size inbS') (fun _ => rfl))
                (.here ((sR : Memref sig .scVector .vmem S512x64 .f32).slice (Rect.unit (s := S512x64) offD S1x64.size inbD') (fun _ => rfl)))
                .same (.dma cc0_scratch3.sem) hsrc hdst hsem) kont) Q) :=
  issue_row d L ma ks fr (16 * k.val + u) (lane_bound k hu) (lane d L k u hs ks) (lane_lt d L ks hks k u hu hs)
    (lane_idx d L k u hu hs ks) offS hoffS inbS' offD hoffD inbD' hsrc hdst hsem kont Q

/-- One trip of loop 1: the sixteen keys `16 k … 16 k + 15` are loaded at once, and for each lane `u` in turn the lane
    is checked to name a row of the table and copy `16 k + u` is started from that row into row `16 k + u` of the row
    scratch. The copies' state moves from `16 k` started to `16 (k + 1)` started; the keys are only read. -/
theorem trip1 : Trip1 (F := F) d L := by
  intro O ma ks fr hks k u
  rw [I1_eq]
  unfold k0_t1_body
  iintro ⟨#Hmw, Hsk, HP⟩
  ihave Hsk' := (Entails.of_eq (pts_sk (F := F) d L ks)) $$ Hsk
  -- copy 16 k + 0
  sl_exec (disch := exact chk_lane d L ks hks k 0 (by decide) slices_S16_o0_S1)
  iapply (issue_lane (F := F) d L ma ks fr hks k 0 (by decide) slices_S16_o0_S1 _ rfl _ _ (k0_off5_eq k ⟨0, by decide⟩) _ _ _ _ _ _) $$ HP
  iintro HP
  -- copy 16 k + 1
  sl_exec (disch := exact chk_lane d L ks hks k 1 (by decide) slices_S16_o1_S1)
  iapply (issue_lane (F := F) d L ma ks fr hks k 1 (by decide) slices_S16_o1_S1 _ rfl _ _ (k0_off7_eq k ⟨0, by decide⟩) _ _ _ _ _ _) $$ HP
  iintro HP
  -- copy 16 k + 2
  sl_exec (disch := exact chk_lane d L ks hks k 2 (by decide) slices_S16_o2_S1)
  iapply (issue_lane (F := F) d L ma ks fr hks k 2 (by decide) slices_S16_o2_S1 _ rfl _ _ (k0_off9_eq k ⟨0, by decide⟩) _ _ _ _ _ _) $$ HP
  iintro HP
  -- copy 16 k + 3
  sl_exec (disch := exact chk_lane d L ks hks k 3 (by decide) slices_S16_o3_S1)
  iapply (issue_lane (F := F) d L ma ks fr hks k 3 (by decide) slices_S16_o3_S1 _ rfl _ _ (k0_off11_eq k ⟨0, by decide⟩) _ _ _ _ _ _) $$ HP
  iintro HP
  -- copy 16 k + 4
  sl_exec (disch := exact chk_lane d L ks hks k 4 (by decide) slices_S16_o4_S1)
  iapply (issue_lane (F := F) d L ma ks fr hks k 4 (by decide) slices_S16_o4_S1 _ rfl _ _ (k0_off13_eq k ⟨0, by decide⟩) _ _ _ _ _ _) $$ HP
  iintro HP
  -- copy 16 k + 5
  sl_exec (disch := exact chk_lane d L ks hks k 5 (by decide) slices_S16_o5_S1)
  iapply (issue_lane (F := F) d L ma ks fr hks k 5 (by decide) slices_S16_o5_S1 _ rfl _ _ (k0_off15_eq k ⟨0, by decide⟩) _ _ _ _ _ _) $$ HP
  iintro HP
  -- copy 16 k + 6
  sl_exec (disch := exact chk_lane d L ks hks k 6 (by decide) slices_S16_o6_S1)
  iapply (issue_lane (F := F) d L ma ks fr hks k 6 (by decide) slices_S16_o6_S1 _ rfl _ _ (k0_off17_eq k ⟨0, by decide⟩) _ _ _ _ _ _) $$ HP
  iintro HP
  -- copy 16 k + 7
  sl_exec (disch := exact chk_lane d L ks hks k 7 (by decide) slices_S16_o7_S1)
  iapply (issue_lane (F := F) d L ma ks fr hks k 7 (by decide) slices_S16_o7_S1 _ rfl _ _ (k0_off19_eq k ⟨0, by decide⟩) _ _ _ _ _ _) $$ HP
  iintro HP
  -- copy 16 k + 8
  sl_exec (disch := exact chk_lane d L ks hks k 8 (by decide) slices_S16_o8_S1)
  iapply (issue_lane (F := F) d L ma ks fr hks k 8 (by decide) slices_S16_o8_S1 _ rfl _ _ (k0_off21_eq k ⟨0, by decide⟩) _ _ _ _ _ _) $$ HP
  iintro HP
  -- copy 16 k + 9
  sl_exec (disch := exact chk_lane d L ks hks k 9 (by decide) slices_S16_o9_S1)
  iapply (issue_lane (F := F) d L ma ks fr hks k 9 (by decide) slices_S16_o9_S1 _ rfl _ _ (k0_off23_eq k ⟨0, by decide⟩) _ _ _ _ _ _) $$ HP
  iintro HP
  -- copy 16 k + 10
  sl_exec (disch := exact chk_lane d L ks hks k 10 (by decide) slices_S16_o10_S1)
  iapply (issue_lane (F := F) d L ma ks fr hks k 10 (by decide) slices_S16_o10_S1 _ rfl _ _ (k0_off25_eq k ⟨0, by decide⟩) _ _ _ _ _ _) $$ HP
  iintro HP
  -- copy 16 k + 11
  sl_exec (disch := exact chk_lane d L ks hks k 11 (by decide) slices_S16_o11_S1)
  iapply (issue_lane (F := F) d L ma ks fr hks k 11 (by decide) slices_S16_o11_S1 _ rfl _ _ (k0_off27_eq k ⟨0, by decide⟩) _ _ _ _ _ _) $$ HP
  iintro HP
  -- copy 16 k + 12
  sl_exec (disch := exact chk_lane d L ks hks k 12 (by decide) slices_S16_o12_S1)
  iapply (issue_lane (F := F) d L ma ks fr hks k 12 (by decide) slices_S16_o12_S1 _ rfl _ _ (k0_off29_eq k ⟨0, by decide⟩) _ _ _ _ _ _) $$ HP
  iintro HP
  -- copy 16 k + 13
  sl_exec (disch := exact chk_lane d L ks hks k 13 (by decide) slices_S16_o13_S1)
  iapply (issue_lane (F := F) d L ma ks fr hks k 13 (by decide) slices_S16_o13_S1 _ rfl _ _ (k0_off31_eq k ⟨0, by decide⟩) _ _ _ _ _ _) $$ HP
  iintro HP
  -- copy 16 k + 14
  sl_exec (disch := exact chk_lane d L ks hks k 14 (by decide) slices_S16_o14_S1)
  iapply (issue_lane (F := F) d L ma ks fr hks k 14 (by decide) slices_S16_o14_S1 _ rfl _ _ (k0_off33_eq k ⟨0, by decide⟩) _ _ _ _ _ _) $$ HP
  iintro HP
  -- copy 16 k + 15
  sl_exec (disch := exact chk_lane d L ks hks k 15 (by decide) slices_S16_o15_S1)
  iapply (issue_lane (F := F) d L ma ks fr hks k 15 (by decide) slices_S16_o15_S1 _ rfl _ _ (k0_off35_eq k) _ _ _ _ _ _) $$ HP
  iintro HP
  sl_exec
  sl_step
  rw [I1_eq, show 16 * (k.val + 1) = 16 * k.val + 15 + 1 from by omega]
  isplitr; · iexact Hmw
  isplitl [Hsk']; · iexact Hsk'
  iexact HP

end Cert.Proof.Loop1

end
-- ==== Proof.lean ====
/-
  The claim for the row-gather kernel against `jnp.take(memory, keys, axis=0)`.

  `memory` is a table of 1000000 rows of 64 numbers, `keys` 16384 row numbers, each between 0 and 999999 (the
  precondition). Both programs compute one table row per key, `G memory keys (i, j) = memory (keys i, j)`
  (`Cert.Spec.G`): the reference by a clamped gather whose out-of-range mask is all ones under the precondition; the
  kernel on 32 workers, worker `w` copying the rows its keys `512 w … 512 w + 511` name into a scratch — 512 copies
  completing on one semaphore, all started, then all waited for, and only then read —, packing them two to a row of
  128, and writing rows `256 w … 256 w + 255` of a packed array that the caller reads back, row-major, as 16384 rows
  of 64. No arithmetic touches the numbers: the equality is an equation between indices, and it holds at the word
  level as it does on the extended reals.

  `body` is one worker's obligation (any float instance); `claim` puts it under the launch of the 32 workers and beside
  the reference's run.
-/
import proofs.«210825_g74526272520993_cont_9to1_m_1216_21_alg».proof.Defs
import proofs.«210825_g74526272520993_cont_9to1_m_1216_21_alg».proof.Proof.Assemble
import proofs.«210825_g74526272520993_cont_9to1_m_1216_21_alg».proof.Proof.Body
import proofs.«210825_g74526272520993_cont_9to1_m_1216_21_alg».proof.Proof.Loop2
import proofs.«210825_g74526272520993_cont_9to1_m_1216_21_alg».proof.Proof.Loop3
import proofs.«210825_g74526272520993_cont_9to1_m_1216_21_alg».proof.Proof.Loop1

noncomputable section

namespace Cert.Proof

open Idealize.ShloMosaic Idealize.SL.Sem Cert.KernelIdeal Cert.Proof.Iface

/-- One worker's body meets its obligation, whatever the float instance: the three loops' trips, the copy-out and
    the index equation between the packed block and the specification. -/
theorem body {F : FTy → Type} [FloatOps F] (m : (ℓ : Loc nD τ sig) → Buf (Elt F) ℓ) (h : PreOK m) : TileBody (F := F) m :=
  Body.tile_body m Launch.facts h (fun d L => Loop1.trip1 d L) (fun d L => Loop2.trip2 d L) (fun d L => Loop3.trip3 d L)
    (fun d L O W fP fo => Loop3.copy_out d L O W fP fo) (fun d L ma ks keys hks => Loop3.final_value d L ma ks keys hks)

theorem claim : Cert.Claim := Assemble.claim_of (fun m h => body m h) (fun m h => body m h)

end Cert.Proof

end
